-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "two_over_temp" .f32 0x43480000#32 ((1073741824 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v19)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_v17)) (v6 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_v17) = v5 c
          ∧ r.2.mem ((c.tc : Thread Cert.KernelIdeal.nD Cert.KernelIdeal.τ).loc Cert.KernelIdeal.main_v91) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_v102) = v5 c
          ∧ r.2.mem ((c.tc : Thread Cert.ReferenceIdeal.nD Cert.ReferenceIdeal.τ).loc Cert.ReferenceIdeal.main_v66) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x10x32x32 : Shape := ⟨4, ![64, 10, 32, 32]⟩
abbrev S1024x10 : Shape := ⟨2, ![1024, 10]⟩
abbrev S_ : Shape := ⟨0, ![]⟩

class Facts : Prop where
  bcast_S_S64x10x32x32 : S_.BroadcastsInDim S64x10x32x32 (![] : Fin 0 → Fin S64x10x32x32.rank)
  reducesTo_S64x10x32x32_S_d0_1_2_3 : S64x10x32x32.ReducesTo [0, 1, 2, 3] S_
  h_S_ : 0 < S_.numel
  bcast_S_S1024x10 : S_.BroadcastsInDim S1024x10 (![] : Fin 0 → Fin S1024x10.rank)
  reducesTo_S1024x10_S_d0_1 : S1024x10.ReducesTo [0, 1] S_

variable [Facts]

def fn {F : FTy → Type} [FloatOps F] (main_arg0 : FVec F S64x10x32x32 .f32) (main_arg1 : FVec F S1024x10 .f32) : IVec S_ 1 :=
  let main_v0 : FVec F S64x10x32x32 .f32 := Host.absf main_arg0
  let main_cst : FVec F S_ .f32 := constant S_ .f32 0x7F800000#32
  let main_v1 : FVec F S64x10x32x32 .f32 := broadcastInDim S64x10x32x32 ![] bcast_S_S64x10x32x32 main_cst
  let main_v2 : IVec S64x10x32x32 1 := cmpf .olt main_v0 main_v1
  let main_c : IVec S_ 1 := constantI S_ 1 1#1
  let main_v3 : IVec S_ 1 := (fun x v => Host.reduce IntOp.andi x v reducesTo_S64x10x32x32_S_d0_1_2_3 h_S_) main_v2 main_c
  let main_v4 : FVec F S1024x10 .f32 := Host.absf main_arg1
  let main_cst_0 : FVec F S_ .f32 := constant S_ .f32 0x7F800000#32
  let main_v5 : FVec F S1024x10 .f32 := broadcastInDim S1024x10 ![] bcast_S_S1024x10 main_cst_0
  let main_v6 : IVec S1024x10 1 := cmpf .olt main_v4 main_v5
  let main_c_1 : IVec S_ 1 := constantI S_ 1 1#1
  let main_v7 : IVec S_ 1 := (fun x v => Host.reduce IntOp.andi x v reducesTo_S1024x10_S_d0_1 h_S_) main_v6 main_c_1
  let main_v8 : IVec S_ 1 := andi main_v3 main_v7
  main_v8
-- ==== Kernel.lean ====
abbrev S64x10x32x32 : Shape := ⟨4, ![64, 10, 32, 32]⟩
abbrev S1024x10 : Shape := ⟨2, ![1024, 10]⟩
abbrev S64x32x32x10 : Shape := ⟨4, ![64, 32, 32, 10]⟩
abbrev S65536x10 : Shape := ⟨2, ![65536, 10]⟩
abbrev S10x1024 : Shape := ⟨2, ![10, 1024]⟩
abbrev S2x1x1 : Shape := ⟨3, ![2, 1, 1]⟩
abbrev S2x1x1024 : Shape := ⟨3, ![2, 1, 1024]⟩
abbrev S1x1x1 : Shape := ⟨3, ![1, 1, 1]⟩
abbrev S1x1x1024 : Shape := ⟨3, ![1, 1, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x1024 : Shape := ⟨2, ![1, 1024]⟩
abbrev S_ : Shape := ⟨0, ![]⟩
abbrev S10 : Shape := ⟨1, ![10]⟩
abbrev S1x10x1x1 : Shape := ⟨4, ![1, 10, 1, 1]⟩
abbrev S64x32x32 : Shape := ⟨3, ![64, 32, 32]⟩

abbrev nBuf : Space → Nat
  | .hbm => 153
  | .vmem => 7
  | .smem => 0
  | _ => 0

abbrev hbmTy0_0 (i : Nat) : BufTy := match i % 128 with
  | 0 => ⟨S64x10x32x32, .f32⟩
  | 1 => ⟨S1024x10, .f32⟩
  | 2 => ⟨S64x32x32x10, .f32⟩
  | 3 => ⟨S65536x10, .f32⟩
  | 4 => ⟨S10x1024, .f32⟩
  | 5 => ⟨S2x1x1, .f32⟩
  | 6 => ⟨S2x1x1024, .f32⟩
  | 7 => ⟨S_, .f32⟩
  | 8 => ⟨S_, .f32⟩
  | 9 => ⟨S_, .f32⟩
  | 10 => ⟨S1x1024, .f32⟩
  | 11 => ⟨S1024, .f32⟩
  | 12 => ⟨S_, .f32⟩
  | 13 => ⟨S_, .f32⟩
  | 14 => ⟨S_, .f32⟩
  | 15 => ⟨S_, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S1024, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S64x10x32x32, .f32⟩
  | 33 => ⟨S64x10x32x32, .i1⟩
  | 34 => ⟨S_, .f32⟩
  | 35 => ⟨S_, .f32⟩
  | 36 => ⟨S64x10x32x32, .f32⟩
  | 37 => ⟨S64x10x32x32, .f32⟩
  | 38 => ⟨S64x10x32x32, .f32⟩
  | 39 => ⟨S64x10x32x32, .f32⟩
  | 40 => ⟨S64x10x32x32, .f32⟩
  | 41 => ⟨S64x10x32x32, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S10, .i32⟩
  | 50 => ⟨S_, .i32⟩
  | 51 => ⟨S_, .i32⟩
  | 52 => ⟨S_, .i1⟩
  | 53 => ⟨S_, .i32⟩
  | 54 => ⟨S10, .i32⟩
  | 55 => ⟨S10, .i1⟩
  | 56 => ⟨S10, .i1⟩
  | 57 => ⟨S10, .i1⟩
  | 58 => ⟨S_, .i32⟩
  | 59 => ⟨S_, .i32⟩
  | 60 => ⟨S10, .i32⟩
  | 61 => ⟨S10, .i32⟩
  | 62 => ⟨S10, .i32⟩
  | 63 => ⟨S_, .i32⟩
  | 64 => ⟨S10, .i32⟩
  | 65 => ⟨S10, .i32⟩
  | 66 => ⟨S_, .i32⟩
  | 67 => ⟨S10, .i32⟩
  | 68 => ⟨S10, .i32⟩
  | 69 => ⟨S_, .i32⟩
  | 70 => ⟨S10, .i32⟩
  | 71 => ⟨S10, .i1⟩
  | 72 => ⟨S10, .i32⟩
  | 73 => ⟨S_, .i32⟩
  | 74 => ⟨S_, .i32⟩
  | 75 => ⟨S_, .i32⟩
  | 76 => ⟨S_, .i32⟩
  | 77 => ⟨S10, .i32⟩
  | 78 => ⟨S10, .i32⟩
  | 79 => ⟨S_, .i32⟩
  | 80 => ⟨S10, .i32⟩
  | 81 => ⟨S10, .i32⟩
  | 82 => ⟨S10, .i32⟩
  | 83 => ⟨S10, .i32⟩
  | 84 => ⟨S_, .i32⟩
  | 85 => ⟨S10, .i32⟩
  | 86 => ⟨S10, .i1⟩
  | 87 => ⟨S10, .i32⟩
  | 88 => ⟨S_, .i32⟩
  | 89 => ⟨S_, .i32⟩
  | 90 => ⟨S10, .i32⟩
  | 91 => ⟨S10, .i32⟩
  | 92 => ⟨S_, .i32⟩
  | 93 => ⟨S10, .i32⟩
  | 94 => ⟨S10, .i32⟩
  | 95 => ⟨S10, .i32⟩
  | 96 => ⟨S10, .i32⟩
  | 97 => ⟨S_, .i32⟩
  | 98 => ⟨S10, .i32⟩
  | 99 => ⟨S10, .i1⟩
  | 100 => ⟨S10, .i32⟩
  | 101 => ⟨S_, .i32⟩
  | 102 => ⟨S_, .i32⟩
  | 103 => ⟨S10, .i32⟩
  | 104 => ⟨S10, .i32⟩
  | 105 => ⟨S_, .i32⟩
  | 106 => ⟨S10, .i32⟩
  | 107 => ⟨S10, .i32⟩
  | 108 => ⟨S10, .i32⟩
  | 109 => ⟨S10, .i32⟩
  | 110 => ⟨S_, .i32⟩
  | 111 => ⟨S10, .i32⟩
  | 112 => ⟨S10, .i1⟩
  | 113 => ⟨S10, .i32⟩
  | 114 => ⟨S_, .i32⟩
  | 115 => ⟨S_, .i32⟩
  | 116 => ⟨S10, .i32⟩
  | 117 => ⟨S10, .i32⟩
  | 118 => ⟨S_, .i32⟩
  | 119 => ⟨S10, .i32⟩
  | 120 => ⟨S10, .i32⟩
  | 121 => ⟨S10, .i32⟩
  | 122 => ⟨S10, .i32⟩
  | 123 => ⟨S_, .i32⟩
  | 124 => ⟨S10, .i32⟩
  | 125 => ⟨S10, .i1⟩
  | 126 => ⟨S10, .i32⟩
  | 127 => ⟨S_, .i32⟩
  | _ => ⟨S64x10x32x32, .f32⟩

abbrev hbmTy0_1 (i : Nat) : BufTy := match i % 128 with
  | 0 => ⟨S_, .i32⟩
  | 1 => ⟨S10, .i32⟩
  | 2 => ⟨S10, .i32⟩
  | 3 => ⟨S_, .i32⟩
  | 4 => ⟨S10, .i32⟩
  | 5 => ⟨S10, .i32⟩
  | 6 => ⟨S10, .i32⟩
  | 7 => ⟨S10, .i32⟩
  | 8 => ⟨S_, .i32⟩
  | 9 => ⟨S10, .i32⟩
  | 10 => ⟨S10, .i1⟩
  | 11 => ⟨S10, .i32⟩
  | 12 => ⟨S_, .i32⟩
  | 13 => ⟨S_, .i32⟩
  | 14 => ⟨S10, .i32⟩
  | 15 => ⟨S10, .i32⟩
  | 16 => ⟨S1x10x1x1, .i32⟩
  | 17 => ⟨S_, .f32⟩
  | 18 => ⟨S64x10x32x32, .f32⟩
  | 19 => ⟨S64x10x32x32, .i1⟩
  | 20 => ⟨S64x10x32x32, .i32⟩
  | 21 => ⟨S64x10x32x32, .i32⟩
  | 22 => ⟨S64x10x32x32, .i32⟩
  | 23 => ⟨S_, .i32⟩
  | 24 => ⟨S64x32x32, .i32⟩
  | _ => ⟨S64x10x32x32, .f32⟩

abbrev hbmTy (i : Nat) : BufTy := match i / 128 with
  | 0 => hbmTy0_0 i
  | 1 => hbmTy0_1 i
  | _ => ⟨S64x10x32x32, .f32⟩

abbrev bufTy : (tb : Table) → Fin (tcTables nBuf tb) → BufTy
  | .hbm, ⟨i, _⟩ => hbmTy i
  | .local _ .vmem, ⟨0, _⟩ => ⟨S1024x10, .f32⟩
  | .local _ .vmem, ⟨1, _⟩ => ⟨S1024x10, .f32⟩
  | .local _ .vmem, ⟨2, _⟩ => ⟨S10x1024, .f32⟩
  | .local _ .vmem, ⟨3, _⟩ => ⟨S1x1x1, .f32⟩
  | .local _ .vmem, ⟨4, _⟩ => ⟨S1x1x1, .f32⟩
  | .local _ .vmem, ⟨5, _⟩ => ⟨S1x1x1024, .f32⟩
  | .local _ .vmem, ⟨6, _⟩ => ⟨S1x1x1024, .f32⟩
  | _, _ => ⟨S64x10x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_cst_8 : Ref sig .tc := ⟨.hbm, 34, rfl⟩
abbrev main_cst_9 : Ref sig .tc := ⟨.hbm, 35, rfl⟩
abbrev main_call0_v0 : Ref sig .tc := ⟨.hbm, 36, rfl⟩
abbrev main_call0_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_cst_11 : Ref sig .tc := ⟨.hbm, 44, rfl⟩
abbrev main_v27 : Ref sig .tc := ⟨.hbm, 45, rfl⟩
abbrev main_cst_12 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c : Ref sig .tc := ⟨.hbm, 50, rfl⟩
abbrev main_c_13 : Ref sig .tc := ⟨.hbm, 51, rfl⟩
abbrev main_v31 : Ref sig .tc := ⟨.hbm, 52, rfl⟩
abbrev main_c_14 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_15 : Ref sig .tc := ⟨.hbm, 58, rfl⟩
abbrev main_c_16 : Ref sig .tc := ⟨.hbm, 59, rfl⟩
abbrev main_call1_v0 : Ref sig .tc := ⟨.hbm, 60, rfl⟩
abbrev main_call1_v1 : Ref sig .tc := ⟨.hbm, 61, rfl⟩
abbrev main_v36 : Ref sig .tc := ⟨.hbm, 62, rfl⟩
abbrev main_c_17 : Ref sig .tc := ⟨.hbm, 63, rfl⟩
abbrev main_v37 : Ref sig .tc := ⟨.hbm, 64, rfl⟩
abbrev main_v38 : Ref sig .tc := ⟨.hbm, 65, rfl⟩
abbrev main_c_18 : Ref sig .tc := ⟨.hbm, 66, rfl⟩
abbrev main_v39 : Ref sig .tc := ⟨.hbm, 67, rfl⟩
abbrev main_v40 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_v41 : Ref sig .tc := ⟨.hbm, 72, rfl⟩
abbrev main_c_19 : Ref sig .tc := ⟨.hbm, 73, rfl⟩
abbrev main_c_20 : Ref sig .tc := ⟨.hbm, 74, rfl⟩
abbrev main_v42 : Ref sig .tc := ⟨.hbm, 75, rfl⟩
abbrev main_c_21 : Ref sig .tc := ⟨.hbm, 76, rfl⟩
abbrev main_v43 : Ref sig .tc := ⟨.hbm, 77, rfl⟩
abbrev main_v44 : Ref sig .tc := ⟨.hbm, 78, rfl⟩
abbrev main_c_22 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_v49 : Ref sig .tc := ⟨.hbm, 87, rfl⟩
abbrev main_v50 : Ref sig .tc := ⟨.hbm, 88, rfl⟩
abbrev main_c_23 : Ref sig .tc := ⟨.hbm, 89, rfl⟩
abbrev main_v51 : Ref sig .tc := ⟨.hbm, 90, rfl⟩
abbrev main_v52 : Ref sig .tc := ⟨.hbm, 91, rfl⟩
abbrev main_c_24 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_call4_c : Ref sig .tc := ⟨.hbm, 97, rfl⟩
abbrev main_call4_v0 : Ref sig .tc := ⟨.hbm, 98, rfl⟩
abbrev main_call4_v1 : Ref sig .tc := ⟨.hbm, 99, rfl⟩
abbrev main_v57 : Ref sig .tc := ⟨.hbm, 100, rfl⟩
abbrev main_v58 : Ref sig .tc := ⟨.hbm, 101, rfl⟩
abbrev main_c_25 : Ref sig .tc := ⟨.hbm, 102, rfl⟩
abbrev main_v59 : Ref sig .tc := ⟨.hbm, 103, rfl⟩
abbrev main_v60 : Ref sig .tc := ⟨.hbm, 104, rfl⟩
abbrev main_c_26 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_call5_c : Ref sig .tc := ⟨.hbm, 110, rfl⟩
abbrev main_call5_v0 : Ref sig .tc := ⟨.hbm, 111, rfl⟩
abbrev main_call5_v1 : Ref sig .tc := ⟨.hbm, 112, rfl⟩
abbrev main_v65 : Ref sig .tc := ⟨.hbm, 113, rfl⟩
abbrev main_v66 : Ref sig .tc := ⟨.hbm, 114, rfl⟩
abbrev main_c_27 : Ref sig .tc := ⟨.hbm, 115, rfl⟩
abbrev main_v67 : Ref sig .tc := ⟨.hbm, 116, rfl⟩
abbrev main_v68 : Ref sig .tc := ⟨.hbm, 117, rfl⟩
abbrev main_c_28 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_call6_c : Ref sig .tc := ⟨.hbm, 123, rfl⟩
abbrev main_call6_v0 : Ref sig .tc := ⟨.hbm, 124, rfl⟩
abbrev main_call6_v1 : Ref sig .tc := ⟨.hbm, 125, rfl⟩
abbrev main_v73 : Ref sig .tc := ⟨.hbm, 126, rfl⟩
abbrev main_v74 : Ref sig .tc := ⟨.hbm, 127, rfl⟩
abbrev main_c_29 : Ref sig .tc := ⟨.hbm, 128, rfl⟩
abbrev main_v75 : Ref sig .tc := ⟨.hbm, 129, rfl⟩
abbrev main_v76 : Ref sig .tc := ⟨.hbm, 130, rfl⟩
abbrev main_c_30 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_call7_c : Ref sig .tc := ⟨.hbm, 136, rfl⟩
abbrev main_call7_v0 : Ref sig .tc := ⟨.hbm, 137, rfl⟩
abbrev main_call7_v1 : Ref sig .tc := ⟨.hbm, 138, rfl⟩
abbrev main_v81 : Ref sig .tc := ⟨.hbm, 139, rfl⟩
abbrev main_v82 : Ref sig .tc := ⟨.hbm, 140, rfl⟩
abbrev main_c_31 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_cst_32 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_c_33 : Ref sig .tc := ⟨.hbm, 151, rfl⟩
abbrev main_v91 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S64x10x32x32_S64x32x32x10_0_2_3_1 : S64x10x32x32.Transposes [0, 2, 3, 1] S64x32x32x10
  shapeCasts_S64x32x32x10_S65536x10 : S64x32x32x10.ShapeCasts S65536x10
  transposes_S1024x10_S10x1024_1_0 : S1024x10.Transposes [1, 0] S10x1024
  inb_S1x1x1_S1x1x1_0_0_0 : ∀ a, (![0, 0, 0] : Fin 3 → Nat) a + S1x1x1.size a ≤ S1x1x1.size a
  h_S1x1x1 : 0 < S1x1x1.numel
  inb_S1x1x1024_S1x1x1024_0_0_0 : ∀ a, (![0, 0, 0] : Fin 3 → Nat) a + S1x1x1024.size a ≤ S1x1x1024.size a
  h_S1x1x1024 : 0 < S1x1x1024.numel
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S10x1024_S10x1024_0_0 : ∀ a, (![0, 0] : Fin 2 → Nat) a + S10x1024.size a ≤ S10x1024.size a
  h_S10x1024 : 0 < S10x1024.numel
  shapeCasts_S10x1024_S10x1024 : S10x1024.ShapeCasts S10x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1x1x1_S1x1x1 : S1x1x1.ShapeCasts S1x1x1
  reduces_S1024x1_S1 : S1024x1.Reduces [0] S1
  shapeCasts_S1_S1x1 : S1.ShapeCasts S1x1
  shapeCasts_S1x1_S1x1x1 : S1x1.ShapeCasts S1x1x1
  shapeCasts_S1x1x1024_S1x1x1024 : S1x1x1024.ShapeCasts S1x1x1024
  reduces_S1024x1024_S1024_2 : S1024x1024.Reduces [0] S1024
  shapeCasts_S1024_S1x1024 : S1024.ShapeCasts S1x1024
  shapeCasts_S1x1024_S1x1x1024 : S1x1024.ShapeCasts S1x1x1024
  reducesTo_S2x1x1_S_d0_1_2 : S2x1x1.ReducesTo [0, 1, 2] S_
  h_S_ : 0 < S_.numel
  reducesTo_S2x1x1024_S1x1024_d0 : S2x1x1024.ReducesTo [0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  bcast_S_S64x10x32x32 : S_.BroadcastsInDim S64x10x32x32 (![] : Fin 0 → Fin S64x10x32x32.rank)
  reducesTo_S64x10x32x32_S_d0_1_2_3 : S64x10x32x32.ReducesTo [0, 1, 2, 3] S_
  bcast_S_S10 : S_.BroadcastsInDim S10 (![] : Fin 0 → Fin S10.rank)
  shapeCasts_S10_S1x10x1x1 : S10.ShapeCasts S1x10x1x1
  natLt_1_32 : 1 < 32
  bcast_S1x10x1x1_S64x10x32x32_0_1_2_3 : S1x10x1x1.BroadcastsInDim S64x10x32x32 (![0, 1, 2, 3] : Fin 4 → Fin S64x10x32x32.rank)
  reducesTo_S64x10x32x32_S64x32x32_d1 : S64x10x32x32.ReducesTo [1] S64x32x32
  dot_S1024x10_S10x1024_S1024x1024_1_0_0_1_n_n_wf : DotDims.WF S1024x10 S10x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x10.size a ≤ S65536x10.size a
  hwx0_0 : ∀ i : grid0.Coords, EltTy.bits .f32 = 32 ∨ (Rect.block (s := S65536x10) S1024x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x1024.size a ≤ S10x1024.size a
  hwx0_1 : ∀ i : grid0.Coords, EltTy.bits .f32 = 32 ∨ (Rect.block (s := S10x1024) S10x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)

variable [Facts₀]

def dot_S1024x10_S10x1024_S1024x1024_1_0_0_1_n_n : DotDims S1024x10 S10x1024 S1024x1024 where
  lhsContracting := [1]
  rhsContracting := [0]
  lhsNonContracting := [0]
  rhsNonContracting := [1]
  lhsBatch := []
  rhsBatch := []
  wf := dot_S1024x10_S10x1024_S1024x1024_1_0_0_1_n_n_wf

abbrev win0_0 : Pipeline.Window sig grid0 :=
  Pipeline.Window.ofSpec (Memref.whole main_v1) S1024x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S10x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x10x32x32 : Shape := ⟨4, ![64, 10, 32, 32]⟩
abbrev S1024x10 : Shape := ⟨2, ![1024, 10]⟩
abbrev S64x32x32x10 : Shape := ⟨4, ![64, 32, 32, 10]⟩
abbrev S_ : Shape := ⟨0, ![]⟩
abbrev S10 : Shape := ⟨1, ![10]⟩
abbrev S1x1x1x10 : Shape := ⟨4, ![1, 1, 1, 10]⟩
abbrev S64x32x32 : Shape := ⟨3, ![64, 32, 32]⟩
abbrev S64x32x32x1024 : Shape := ⟨4, ![64, 32, 32, 1024]⟩
abbrev S65536x1024 : Shape := ⟨2, ![65536, 1024]⟩
abbrev S65536 : Shape := ⟨1, ![65536]⟩
abbrev S65536x1 : Shape := ⟨2, ![65536, 1]⟩
abbrev S1024 : Shape := ⟨1, ![1024]⟩

abbrev nBuf : Space → Nat
  | .hbm => 195
  | .vmem => 0
  | .smem => 0
  | _ => 0

abbrev hbmTy0_0 (i : Nat) : BufTy := match i % 128 with
  | 0 => ⟨S64x10x32x32, .f32⟩
  | 1 => ⟨S1024x10, .f32⟩
  | 2 => ⟨S64x32x32x10, .f32⟩
  | 3 => ⟨S_, .f32⟩
  | 4 => ⟨S64x32x32x10, .f32⟩
  | 5 => ⟨S64x32x32x10, .i1⟩
  | 6 => ⟨S_, .f32⟩
  | 7 => ⟨S_, .f32⟩
  | 8 => ⟨S64x32x32x10, .f32⟩
  | 9 => ⟨S64x32x32x10, .f32⟩
  | 10 => ⟨S64x32x32x10, .f32⟩
  | 11 => ⟨S64x32x32x10, .f32⟩
  | 12 => ⟨S10, .i32⟩
  | 13 => ⟨S_, .i32⟩
  | 14 => ⟨S_, .i32⟩
  | 15 => ⟨S_, .i1⟩
  | 16 => ⟨S_, .i32⟩
  | 17 => ⟨S10, .i32⟩
  | 18 => ⟨S10, .i1⟩
  | 19 => ⟨S10, .i1⟩
  | 20 => ⟨S10, .i1⟩
  | 21 => ⟨S_, .i32⟩
  | 22 => ⟨S_, .i32⟩
  | 23 => ⟨S10, .i32⟩
  | 24 => ⟨S10, .i32⟩
  | 25 => ⟨S10, .i32⟩
  | 26 => ⟨S_, .i32⟩
  | 27 => ⟨S10, .i32⟩
  | 28 => ⟨S10, .i32⟩
  | 29 => ⟨S_, .i32⟩
  | 30 => ⟨S10, .i32⟩
  | 31 => ⟨S10, .i32⟩
  | 32 => ⟨S_, .i32⟩
  | 33 => ⟨S10, .i32⟩
  | 34 => ⟨S10, .i1⟩
  | 35 => ⟨S10, .i32⟩
  | 36 => ⟨S_, .i32⟩
  | 37 => ⟨S_, .i32⟩
  | 38 => ⟨S_, .i32⟩
  | 39 => ⟨S_, .i32⟩
  | 40 => ⟨S10, .i32⟩
  | 41 => ⟨S10, .i32⟩
  | 42 => ⟨S_, .i32⟩
  | 43 => ⟨S10, .i32⟩
  | 44 => ⟨S10, .i32⟩
  | 45 => ⟨S10, .i32⟩
  | 46 => ⟨S10, .i32⟩
  | 47 => ⟨S_, .i32⟩
  | 48 => ⟨S10, .i32⟩
  | 49 => ⟨S10, .i1⟩
  | 50 => ⟨S10, .i32⟩
  | 51 => ⟨S_, .i32⟩
  | 52 => ⟨S_, .i32⟩
  | 53 => ⟨S10, .i32⟩
  | 54 => ⟨S10, .i32⟩
  | 55 => ⟨S_, .i32⟩
  | 56 => ⟨S10, .i32⟩
  | 57 => ⟨S10, .i32⟩
  | 58 => ⟨S10, .i32⟩
  | 59 => ⟨S10, .i32⟩
  | 60 => ⟨S_, .i32⟩
  | 61 => ⟨S10, .i32⟩
  | 62 => ⟨S10, .i1⟩
  | 63 => ⟨S10, .i32⟩
  | 64 => ⟨S_, .i32⟩
  | 65 => ⟨S_, .i32⟩
  | 66 => ⟨S10, .i32⟩
  | 67 => ⟨S10, .i32⟩
  | 68 => ⟨S_, .i32⟩
  | 69 => ⟨S10, .i32⟩
  | 70 => ⟨S10, .i32⟩
  | 71 => ⟨S10, .i32⟩
  | 72 => ⟨S10, .i32⟩
  | 73 => ⟨S_, .i32⟩
  | 74 => ⟨S10, .i32⟩
  | 75 => ⟨S10, .i1⟩
  | 76 => ⟨S10, .i32⟩
  | 77 => ⟨S_, .i32⟩
  | 78 => ⟨S_, .i32⟩
  | 79 => ⟨S10, .i32⟩
  | 80 => ⟨S10, .i32⟩
  | 81 => ⟨S_, .i32⟩
  | 82 => ⟨S10, .i32⟩
  | 83 => ⟨S10, .i32⟩
  | 84 => ⟨S10, .i32⟩
  | 85 => ⟨S10, .i32⟩
  | 86 => ⟨S_, .i32⟩
  | 87 => ⟨S10, .i32⟩
  | 88 => ⟨S10, .i1⟩
  | 89 => ⟨S10, .i32⟩
  | 90 => ⟨S_, .i32⟩
  | 91 => ⟨S_, .i32⟩
  | 92 => ⟨S10, .i32⟩
  | 93 => ⟨S10, .i32⟩
  | 94 => ⟨S_, .i32⟩
  | 95 => ⟨S10, .i32⟩
  | 96 => ⟨S10, .i32⟩
  | 97 => ⟨S10, .i32⟩
  | 98 => ⟨S10, .i32⟩
  | 99 => ⟨S_, .i32⟩
  | 100 => ⟨S10, .i32⟩
  | 101 => ⟨S10, .i1⟩
  | 102 => ⟨S10, .i32⟩
  | 103 => ⟨S_, .i32⟩
  | 104 => ⟨S_, .i32⟩
  | 105 => ⟨S10, .i32⟩
  | 106 => ⟨S10, .i32⟩
  | 107 => ⟨S_, .f32⟩
  | 108 => ⟨S64x32x32x10, .f32⟩
  | 109 => ⟨S64x32x32x10, .i1⟩
  | 110 => ⟨S64x32x32x10, .i32⟩
  | 111 => ⟨S1x1x1x10, .i32⟩
  | 112 => ⟨S64x32x32x10, .i32⟩
  | 113 => ⟨S64x32x32x10, .i32⟩
  | 114 => ⟨S_, .i32⟩
  | 115 => ⟨S64x32x32, .i32⟩
  | 116 => ⟨S64x32x32x1024, .f32⟩
  | 117 => ⟨S_, .f32⟩
  | 118 => ⟨S64x32x32x1024, .f32⟩
  | 119 => ⟨S64x32x32x1024, .f32⟩
  | 120 => ⟨S64x32x32x1024, .f32⟩
  | 121 => ⟨S65536x1024, .f32⟩
  | 122 => ⟨S_, .f32⟩
  | 123 => ⟨S65536x1024, .f32⟩
  | 124 => ⟨S65536x1024, .f32⟩
  | 125 => ⟨S_, .f32⟩
  | 126 => ⟨S65536, .f32⟩
  | 127 => ⟨S_, .f32⟩
  | _ => ⟨S64x10x32x32, .f32⟩

abbrev hbmTy0_1 (i : Nat) : BufTy := match i % 128 with
  | 0 => ⟨S65536, .f32⟩
  | 1 => ⟨S65536, .f32⟩
  | 2 => ⟨S65536x1, .f32⟩
  | 3 => ⟨S65536x1024, .f32⟩
  | 4 => ⟨S65536x1024, .f32⟩
  | 5 => ⟨S65536x1024, .f32⟩
  | 6 => ⟨S_, .f32⟩
  | 7 => ⟨S65536, .f32⟩
  | 8 => ⟨S65536x1, .f32⟩
  | 9 => ⟨S65536x1024, .f32⟩
  | 10 => ⟨S65536x1024, .f32⟩
  | 11 => ⟨S_, .f32⟩
  | 12 => ⟨S65536x1024, .f32⟩
  | 13 => ⟨S65536x1024, .f32⟩
  | 14 => ⟨S_, .f32⟩
  | 15 => ⟨S65536, .f32⟩
  | 16 => ⟨S_, .f32⟩
  | 17 => ⟨S65536, .f32⟩
  | 18 => ⟨S65536, .f32⟩
  | 19 => ⟨S65536x1, .f32⟩
  | 20 => ⟨S65536x1024, .f32⟩
  | 21 => ⟨S65536x1024, .f32⟩
  | 22 => ⟨S65536x1024, .f32⟩
  | 23 => ⟨S_, .f32⟩
  | 24 => ⟨S65536, .f32⟩
  | 25 => ⟨S65536x1, .f32⟩
  | 26 => ⟨S65536x1, .f32⟩
  | 27 => ⟨S65536x1024, .f32⟩
  | 28 => ⟨S65536x1024, .f32⟩
  | 29 => ⟨S65536x1024, .f32⟩
  | 30 => ⟨S_, .f32⟩
  | 31 => ⟨S65536, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S1024, .f32⟩
  | 39 => ⟨S_, .f32⟩
  | 40 => ⟨S1024, .f32⟩
  | 41 => ⟨S1024, .f32⟩
  | 42 => ⟨S_, .f32⟩
  | 43 => ⟨S1024, .f32⟩
  | 44 => ⟨S1024, .f32⟩
  | 45 => ⟨S1024, .f32⟩
  | 46 => ⟨S1024, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S64x32x32x10, .f32⟩
  | 56 => ⟨S64x32x32x10, .f32⟩
  | 57 => ⟨S64x32x32x10, .f32⟩
  | 58 => ⟨S64x32x32x10, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S64x10x32x32, .f32⟩
  | _ => ⟨S64x10x32x32, .f32⟩

abbrev hbmTy (i : Nat) : BufTy := match i / 128 with
  | 0 => hbmTy0_0 i
  | 1 => hbmTy0_1 i
  | _ => ⟨S64x10x32x32, .f32⟩

abbrev bufTy : (tb : Table) → Fin (tcTables nBuf tb) → BufTy
  | .hbm, ⟨i, _⟩ => hbmTy i
  | _, _ => ⟨S64x10x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_c_2 : Ref sig .tc := ⟨.hbm, 14, rfl⟩
abbrev main_v6 : Ref sig .tc := ⟨.hbm, 15, rfl⟩
abbrev main_c_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_4 : Ref sig .tc := ⟨.hbm, 21, rfl⟩
abbrev main_c_5 : Ref sig .tc := ⟨.hbm, 22, rfl⟩
abbrev main_call1_v0 : Ref sig .tc := ⟨.hbm, 23, rfl⟩
abbrev main_call1_v1 : Ref sig .tc := ⟨.hbm, 24, rfl⟩
abbrev main_v11 : Ref sig .tc := ⟨.hbm, 25, rfl⟩
abbrev main_c_6 : Ref sig .tc := ⟨.hbm, 26, rfl⟩
abbrev main_v12 : Ref sig .tc := ⟨.hbm, 27, rfl⟩
abbrev main_v13 : Ref sig .tc := ⟨.hbm, 28, rfl⟩
abbrev main_c_7 : Ref sig .tc := ⟨.hbm, 29, rfl⟩
abbrev main_v14 : Ref sig .tc := ⟨.hbm, 30, rfl⟩
abbrev main_v15 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_v16 : Ref sig .tc := ⟨.hbm, 35, rfl⟩
abbrev main_c_8 : Ref sig .tc := ⟨.hbm, 36, rfl⟩
abbrev main_c_9 : Ref sig .tc := ⟨.hbm, 37, rfl⟩
abbrev main_v17 : Ref sig .tc := ⟨.hbm, 38, rfl⟩
abbrev main_c_10 : Ref sig .tc := ⟨.hbm, 39, rfl⟩
abbrev main_v18 : Ref sig .tc := ⟨.hbm, 40, rfl⟩
abbrev main_v19 : Ref sig .tc := ⟨.hbm, 41, rfl⟩
abbrev main_c_11 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_v24 : Ref sig .tc := ⟨.hbm, 50, rfl⟩
abbrev main_v25 : Ref sig .tc := ⟨.hbm, 51, rfl⟩
abbrev main_c_12 : Ref sig .tc := ⟨.hbm, 52, rfl⟩
abbrev main_v26 : Ref sig .tc := ⟨.hbm, 53, rfl⟩
abbrev main_v27 : Ref sig .tc := ⟨.hbm, 54, rfl⟩
abbrev main_c_13 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_call4_c : Ref sig .tc := ⟨.hbm, 60, rfl⟩
abbrev main_call4_v0 : Ref sig .tc := ⟨.hbm, 61, rfl⟩
abbrev main_call4_v1 : Ref sig .tc := ⟨.hbm, 62, rfl⟩
abbrev main_v32 : Ref sig .tc := ⟨.hbm, 63, rfl⟩
abbrev main_v33 : Ref sig .tc := ⟨.hbm, 64, rfl⟩
abbrev main_c_14 : Ref sig .tc := ⟨.hbm, 65, rfl⟩
abbrev main_v34 : Ref sig .tc := ⟨.hbm, 66, rfl⟩
abbrev main_v35 : Ref sig .tc := ⟨.hbm, 67, rfl⟩
abbrev main_c_15 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_call5_c : Ref sig .tc := ⟨.hbm, 73, rfl⟩
abbrev main_call5_v0 : Ref sig .tc := ⟨.hbm, 74, rfl⟩
abbrev main_call5_v1 : Ref sig .tc := ⟨.hbm, 75, rfl⟩
abbrev main_v40 : Ref sig .tc := ⟨.hbm, 76, rfl⟩
abbrev main_v41 : Ref sig .tc := ⟨.hbm, 77, rfl⟩
abbrev main_c_16 : Ref sig .tc := ⟨.hbm, 78, rfl⟩
abbrev main_v42 : Ref sig .tc := ⟨.hbm, 79, rfl⟩
abbrev main_v43 : Ref sig .tc := ⟨.hbm, 80, rfl⟩
abbrev main_c_17 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_call6_c : Ref sig .tc := ⟨.hbm, 86, rfl⟩
abbrev main_call6_v0 : Ref sig .tc := ⟨.hbm, 87, rfl⟩
abbrev main_call6_v1 : Ref sig .tc := ⟨.hbm, 88, rfl⟩
abbrev main_v48 : Ref sig .tc := ⟨.hbm, 89, rfl⟩
abbrev main_v49 : Ref sig .tc := ⟨.hbm, 90, rfl⟩
abbrev main_c_18 : Ref sig .tc := ⟨.hbm, 91, rfl⟩
abbrev main_v50 : Ref sig .tc := ⟨.hbm, 92, rfl⟩
abbrev main_v51 : Ref sig .tc := ⟨.hbm, 93, rfl⟩
abbrev main_c_19 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_call7_c : Ref sig .tc := ⟨.hbm, 99, rfl⟩
abbrev main_call7_v0 : Ref sig .tc := ⟨.hbm, 100, rfl⟩
abbrev main_call7_v1 : Ref sig .tc := ⟨.hbm, 101, rfl⟩
abbrev main_v56 : Ref sig .tc := ⟨.hbm, 102, rfl⟩
abbrev main_v57 : Ref sig .tc := ⟨.hbm, 103, rfl⟩
abbrev main_c_20 : Ref sig .tc := ⟨.hbm, 104, rfl⟩
abbrev main_v58 : Ref sig .tc := ⟨.hbm, 105, rfl⟩
abbrev main_v59 : Ref sig .tc := ⟨.hbm, 106, rfl⟩
abbrev main_cst_21 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_c_22 : Ref sig .tc := ⟨.hbm, 114, rfl⟩
abbrev main_v66 : Ref sig .tc := ⟨.hbm, 115, rfl⟩
abbrev main_v67 : Ref sig .tc := ⟨.hbm, 116, rfl⟩
abbrev main_cst_23 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_24 : Ref sig .tc := ⟨.hbm, 122, rfl⟩
abbrev main_v72 : Ref sig .tc := ⟨.hbm, 123, rfl⟩
abbrev main_v73 : Ref sig .tc := ⟨.hbm, 124, rfl⟩
abbrev main_cst_25 : Ref sig .tc := ⟨.hbm, 125, rfl⟩
abbrev main_v74 : Ref sig .tc := ⟨.hbm, 126, rfl⟩
abbrev main_cst_26 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_27 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_28 : Ref sig .tc := ⟨.hbm, 139, rfl⟩
abbrev main_v85 : Ref sig .tc := ⟨.hbm, 140, rfl⟩
abbrev main_v86 : Ref sig .tc := ⟨.hbm, 141, rfl⟩
abbrev main_call8_cst : Ref sig .tc := ⟨.hbm, 142, rfl⟩
abbrev main_call8_v0 : Ref sig .tc := ⟨.hbm, 143, rfl⟩
abbrev main_call8_cst_0 : Ref sig .tc := ⟨.hbm, 144, rfl⟩
abbrev main_call8_v1 : Ref sig .tc := ⟨.hbm, 145, rfl⟩
abbrev main_call8_v2 : Ref sig .tc := ⟨.hbm, 146, rfl⟩
abbrev main_call8_v3 : Ref sig .tc := ⟨.hbm, 147, rfl⟩
abbrev main_call8_v4 : Ref sig .tc := ⟨.hbm, 148, rfl⟩
abbrev main_call8_v5 : Ref sig .tc := ⟨.hbm, 149, rfl⟩
abbrev main_call8_v6 : Ref sig .tc := ⟨.hbm, 150, rfl⟩
abbrev main_call8_cst_1 : Ref sig .tc := ⟨.hbm, 151, rfl⟩
abbrev main_call8_v7 : Ref sig .tc := ⟨.hbm, 152, rfl⟩
abbrev main_call8_v8 : Ref sig .tc := ⟨.hbm, 153, rfl⟩
abbrev main_call8_v9 : Ref sig .tc := ⟨.hbm, 154, rfl⟩
abbrev main_call8_v10 : Ref sig .tc := ⟨.hbm, 155, rfl⟩
abbrev main_v87 : Ref sig .tc := ⟨.hbm, 156, rfl⟩
abbrev main_v88 : Ref sig .tc := ⟨.hbm, 157, rfl⟩
abbrev main_cst_29 : Ref sig .tc := ⟨.hbm, 158, rfl⟩
abbrev main_v89 : Ref sig .tc := ⟨.hbm, 159, rfl⟩
abbrev main_cst_30 : Ref sig .tc := ⟨.hbm, 160, rfl⟩
abbrev main_v90 : Ref sig .tc := ⟨.hbm, 161, rfl⟩
abbrev main_cst_31 : Ref sig .tc := ⟨.hbm, 162, rfl⟩
abbrev main_v91 : Ref sig .tc := ⟨.hbm, 163, rfl⟩
abbrev main_v92 : Ref sig .tc := ⟨.hbm, 164, rfl⟩
abbrev main_cst_32 : Ref sig .tc := ⟨.hbm, 165, rfl⟩
abbrev main_v93 : Ref sig .tc := ⟨.hbm, 166, rfl⟩
abbrev main_cst_33 : Ref sig .tc := ⟨.hbm, 167, rfl⟩
abbrev main_v94 : Ref sig .tc := ⟨.hbm, 168, rfl⟩
abbrev main_v95 : Ref sig .tc := ⟨.hbm, 169, rfl⟩
abbrev main_cst_34 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_cst_35 : Ref sig .tc := ⟨.hbm, 175, rfl⟩
abbrev main_v100 : Ref sig .tc := ⟨.hbm, 176, rfl⟩
abbrev main_v101 : Ref sig .tc := ⟨.hbm, 177, rfl⟩
abbrev main_cst_36 : Ref sig .tc := ⟨.hbm, 178, rfl⟩
abbrev main_v102 : Ref sig .tc := ⟨.hbm, 179, rfl⟩
abbrev main_v103 : Ref sig .tc := ⟨.hbm, 180, rfl⟩
abbrev main_cst_37 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_cst_38 : Ref sig .tc := ⟨.hbm, 187, rfl⟩
abbrev main_v109 : Ref sig .tc := ⟨.hbm, 188, rfl⟩
abbrev main_cst_39 : Ref sig .tc := ⟨.hbm, 189, rfl⟩
abbrev main_v110 : Ref sig .tc := ⟨.hbm, 190, rfl⟩
abbrev main_cst_40 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩

abbrev nD : Nat := 1
abbrev τ : Topo := Topo.v7x

variable {F : FTy → Type} [FloatOps F]

class Facts₀ : Prop where
  transposes_S64x10x32x32_S64x32x32x10_0_2_3_1 : S64x10x32x32.Transposes [0, 2, 3, 1] S64x32x32x10
  bcast_S_S64x32x32x10 : S_.BroadcastsInDim S64x32x32x10 (![] : Fin 0 → Fin S64x32x32x10.rank)
  bcast_S_S10 : S_.BroadcastsInDim S10 (![] : Fin 0 → Fin S10.rank)
  natLt_1_32 : 1 < 32
  bcast_S10_S1x1x1x10_3 : S10.BroadcastsInDim S1x1x1x10 (![3] : Fin 1 → Fin S1x1x1x10.rank)
  bcast_S1x1x1x10_S64x32x32x10_0_1_2_3 : S1x1x1x10.BroadcastsInDim S64x32x32x10 (![0, 1, 2, 3] : Fin 4 → Fin S64x32x32x10.rank)
  reducesTo_S64x32x32x10_S64x32x32_d3 : S64x32x32x10.ReducesTo [3] S64x32x32
  h_S_ : 0 < S_.numel
  bcast_S_S64x32x32x1024 : S_.BroadcastsInDim S64x32x32x1024 (![] : Fin 0 → Fin S64x32x32x1024.rank)
  shapeCasts_S64x32x32x1024_S65536x1024 : S64x32x32x1024.ShapeCasts S65536x1024
  bcast_S_S65536x1024 : S_.BroadcastsInDim S65536x1024 (![] : Fin 0 → Fin S65536x1024.rank)
  reducesTo_S65536x1024_S65536_d1 : S65536x1024.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1024_0_1 : S65536x1.BroadcastsInDim S65536x1024 (![0, 1] : Fin 2 → Fin S65536x1024.rank)
  reducesTo_S65536_S_d0 : S65536.ReducesTo [0] S_
  reducesTo_S65536x1024_S1024_d0 : S65536x1024.ReducesTo [0] S1024
  bcast_S_S1024 : S_.BroadcastsInDim S1024 (![] : Fin 0 → Fin S1024.rank)
  reducesTo_S1024_S_d0 : S1024.ReducesTo [0] S_
  reducesTo_S64x32x32x10_S_d0_1_2_3 : S64x32x32x10.ReducesTo [0, 1, 2, 3] S_
  transposes_S64x32x32x10_S64x10x32x32_0_3_1_2 : S64x32x32x10.Transposes [0, 3, 1, 2] S64x10x32x32
  dot_S64x32x32x10_S1024x10_S64x32x32x1024_3_1_012_0_n_n_wf : DotDims.WF S64x32x32x10 S1024x10 S64x32x32x1024 [3] [1] [0, 1, 2] [0] [] []

variable [Facts₀]

def dot_S64x32x32x10_S1024x10_S64x32x32x1024_3_1_012_0_n_n : DotDims S64x32x32x10 S1024x10 S64x32x32x1024 where
  lhsContracting := [3]
  rhsContracting := [1]
  lhsNonContracting := [0, 1, 2]
  rhsNonContracting := [0]
  lhsBatch := []
  rhsBatch := []
  wf := dot_S64x32x32x10_S1024x10_S64x32x32x1024_3_1_012_0_n_n_wf

class Facts : Prop extends Facts₀ where

variable [Facts]
-- ==== Proof.KBase.lean ====
/-
  The program around its one region, and what the frame of `Kernel` is read from.

  @main is three host lines (the channel-last transpose of z, its flattening to 65536 rows of 10, the transpose of the
  codebook), the region on a 2 × 32 grid, and 146 host lines after it. The region's four windows stage the flattened
  rows (a block of 1024 rows per point), the transposed codebook (one block, fetched once), and the two per-core
  accumulators (written back when a core's 32 points are over). Here: the buffer contents the region finds, the fact
  that the later lines touch no window array except to read it and allocate nothing, that no line writes an argument
  array, each input window's block at a point, the condition "second grid coordinate is 0" in closed form, and the
  frame claim read off a frame run.
-/
import proofs.«149547_j42202348650760_2_alg».proof.Proof.Gen.Kernel.Launch
import proofs.«149547_j42202348650760_2_alg».proof.Proof.Gen.Kernel.Skeleton
import proofs.«149547_j42202348650760_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- Core `c`'s buffer contents when the region is entered: after the three host lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor

/-- @main is the lines before the region, the region, and the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the windows' arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : (hostOps1_3 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : (hostOps1_4 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keeps : (hostOps1_5 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keeps : (hostOps1_6 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_keeps : (hostOps1_7 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_keeps : (hostOps1_8 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_9_keeps : (hostOps1_9 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_10_keeps : (hostOps1_10 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_11_keeps : (hostOps1_11 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_12_keeps : (hostOps1_12 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_13_keeps : (hostOps1_13 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_14_keeps : (hostOps1_14 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_15_keeps : (hostOps1_15 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_16_keeps : (hostOps1_16 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- And they write no array a window stages: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop
  · exact (List.forall_iff_forall_mem.mp hostOps1_15_keeps) op hop
  · exact (List.forall_iff_forall_mem.mp hostOps1_16_keeps) op hop

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved since the point that fetched it). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (an unfetched
    window's block index has not moved since the point that fetched it). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- Neither argument array is staged by a window or written by a host line, so a frame run's post gives both back
    as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's one condition -/

/-- "The second grid coordinate is 0", as the body computes it. -/
abbrev cond0_0 (i : grid0.Coords) : Prop := (Scalar.cmpi .ne (Scalar.extui (Scalar.cmpi .eq (BitVec.ofNat 32 (i 1).val) 0#32)) 0#32) = 1#1
/-- It holds at the first of each core's 32 points. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs at a point -/

/-- One staging buffer of each output window, through which its contents are stated. -/
abbrev VO0_2 : View sig .tc .vmem S1x1x1 .f32 := (Memref.whole cc0_stg2_0 : Memref sig .tc .vmem S1x1x1 .f32).view
abbrev VO0_3 : View sig .tc .vmem S1x1x1024 .f32 := (Memref.whole cc0_stg3_0 : Memref sig .tc .vmem S1x1x1024 .f32).view
abbrev ms0_0 (t : Fin cfg0.N) : Memref sig .tc .vmem S1024x10 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)

end Cert.Kernel.Hand

end
-- ==== Proof.KRunA.lean ====
/-
  The kernel body run symbolically in the case "the second grid coordinate is 0".
-/
import proofs.«149547_j42202348650760_2_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point whose second coordinate is 0, on whole staging buffers holding the two input blocks: it zeroes
    both accumulators, then adds the block's entropy total and its column sums of the softmax; the inputs' buffers
    come back as found, each accumulator's buffer with the pieces its stores wrote (the witness the run finds). -/
noncomputable def kernelRun0_A (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : cond0_0 i)
    (x0 : Vec F S1024x10 .f32) (x1 : Vec F S10x1024 .f32) :
    Σ' (L2 : List (View.Piece (Elt F) S1x1x1 .f32)), { L3 : List (View.Piece (Elt F) S1x1x1024 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__entropy_kernel i arg2 harg2 arg3 harg3 arg4 harg4 arg5 harg5) K } := by
  refine ⟨?_, ?_, fun E K => ?run⟩
  case run =>
    simp only [cc0__entropy_kernel_eq_skeleton]; unfold cc0__entropy_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hand

end
-- ==== Proof.KRunB.lean ====
/-
  The kernel body run symbolically in the case "the second grid coordinate is not 0".
-/
import proofs.«149547_j42202348650760_2_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later point of a core's run, on whole staging buffers holding the two input blocks and the
    accumulators at what the point before left: it adds the block's entropy total and its column sums of the
    softmax; the inputs' buffers come back as found, each accumulator's buffer with the pieces its stores wrote. -/
noncomputable def kernelRun0_B (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : ¬cond0_0 i)
    (x0 : Vec F S1024x10 .f32) (x1 : Vec F S10x1024 .f32) (xo2 : Vec F S1x1x1 .f32) (xo3 : Vec F S1x1x1024 .f32) :
    Σ' (L2 : List (View.Piece (Elt F) S1x1x1 .f32)), { L3 : List (View.Piece (Elt F) S1x1x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__entropy_kernel i arg2 harg2 arg3 harg3 arg4 harg4 arg5 harg5) K } := by
  refine ⟨?_, ?_, fun E K => ?run⟩
  case run =>
    simp only [cc0__entropy_kernel_eq_skeleton]; unfold cc0__entropy_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hand

end
-- ==== Proof.KFrame.lean ====
/-
  The frame of `Kernel`: the proof data of its one region and the run.

  After the body at a point, each input window's staging buffer still holds its block; the two accumulators hold
  what the body's stores left: at the first of a core's 32 points the block's totals added to zero, at every later
  point the block's totals added to what the point before left (the accumulators are written back only after a
  core's last point, so between two points of a run nothing touches them). With that, the body's two symbolic
  runs discharge the per-point obligation, and the launch theorem for a region followed by host lines gives the
  run; neither argument array is staged or written, so both end as launched.
-/
import proofs.«149547_j42202348650760_2_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators -/

theorem cover0_A_2 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : cond0_0 i)
    (x0 : Vec F S1024x10 .f32) (x1 : Vec F S10x1024 .f32) (y : S1x1x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1x1.size (by sl_kernel_rfl) y
theorem cover0_A_3 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : cond0_0 i)
    (x0 : Vec F S1024x10 .f32) (x1 : Vec F S10x1024 .f32) (y : S1x1x1024.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1x1024.size (by sl_kernel_rfl) y
/-- The scalar accumulator after a first point: its pieces read back. -/
def out0_A_2 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : cond0_0 i)
    (x0 : Vec F S1024x10 .f32) (x1 : Vec F S10x1024 .f32) : Vec F S1x1x1 .f32 :=
  VO0_2.read (Elt F) (VO0_2.writes (Elt F) VO0_2.junk (kernelRun0_A c i arg2 harg2 arg3 harg3 arg4 harg4 arg5 harg5 hc0 x0 x1).1)
/-- The lane accumulator after a first point. -/
def out0_A_3 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : cond0_0 i)
    (x0 : Vec F S1024x10 .f32) (x1 : Vec F S10x1024 .f32) : Vec F S1x1x1024 .f32 :=
  VO0_3.read (Elt F) (VO0_3.writes (Elt F) VO0_3.junk (kernelRun0_A c i arg2 harg2 arg3 harg3 arg4 harg4 arg5 harg5 hc0 x0 x1).2.1)

theorem cover0_B_2 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : ¬cond0_0 i)
    (x0 : Vec F S1024x10 .f32) (x1 : Vec F S10x1024 .f32) (xo2 : Vec F S1x1x1 .f32) (xo3 : Vec F S1x1x1024 .f32) (y : S1x1x1.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1x1.size (by sl_kernel_rfl) y
theorem cover0_B_3 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : ¬cond0_0 i)
    (x0 : Vec F S1024x10 .f32) (x1 : Vec F S10x1024 .f32) (xo2 : Vec F S1x1x1 .f32) (xo3 : Vec F S1x1x1024 .f32) (y : S1x1x1024.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1x1024.size (by sl_kernel_rfl) y
/-- The scalar accumulator after a later point, from what the point before left. -/
def out0_B_2 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : ¬cond0_0 i)
    (x0 : Vec F S1024x10 .f32) (x1 : Vec F S10x1024 .f32) (xo2 : Vec F S1x1x1 .f32) (xo3 : Vec F S1x1x1024 .f32) : Vec F S1x1x1 .f32 :=
  VO0_2.read (Elt F) (VO0_2.writes (Elt F) VO0_2.junk (kernelRun0_B c i arg2 harg2 arg3 harg3 arg4 harg4 arg5 harg5 hc0 x0 x1 xo2 xo3).1)
/-- The lane accumulator after a later point. -/
def out0_B_3 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : ¬cond0_0 i)
    (x0 : Vec F S1024x10 .f32) (x1 : Vec F S10x1024 .f32) (xo2 : Vec F S1x1x1 .f32) (xo3 : Vec F S1x1x1024 .f32) : Vec F S1x1x1024 .f32 :=
  VO0_3.read (Elt F) (VO0_3.writes (Elt F) VO0_3.junk (kernelRun0_B c i arg2 harg2 arg3 harg3 arg4 harg4 arg5 harg5 hc0 x0 x1 xo2 xo3).2.1)

/-! ## The accumulation -/

/-- What the two accumulators hold after the body at position `n`: the first point of a run starts from zero, a later
    point from what the point before left. -/
def outsAt0 (c : Dev nD) : (n : ℕ) → n < cfg0.N → Vec F S1x1x1 .f32 × Vec F S1x1x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 32 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

theorem outsAt0_A (c : Dev nD) (t : Fin cfg0.N) (h0 : t.val % 32 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at a point each input's buffer at its block, the
    accumulators at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point of a run the scalar accumulator's buffer holds what the point before left: it was not written
    back in between. -/
theorem before0_2_B (c : Dev nD) (t : Fin cfg0.N) (h0 : ¬t.val % 32 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the closed form of its condition says which case the point is in, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h0 : t.val % 32 = 0
  · rw [outsAt0_A m c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B m c t h0]
    dsimp only
    simp only [before0_2_B m c t h0, before0_3_B m c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end every window's array holds what the
    proof data compute and every other buffer what the host lines after the region leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim of `Kernel`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Hand

end
-- ==== Proof.KIBase.lean ====
/-
  The program around its one region, and what the frame of `KernelIdeal` is read from.

  @main is three host lines (the channel-last transpose of z, its flattening to 65536 rows of 10, the transpose of the
  codebook), the region on a 2 × 32 grid, and 146 host lines after it. The region's four windows stage the flattened
  rows (a block of 1024 rows per point), the transposed codebook (one block, fetched once), and the two per-core
  accumulators (written back when a core's 32 points are over). Here: the buffer contents the region finds, the fact
  that the later lines touch no window array except to read it and allocate nothing, that no line writes an argument
  array, each input window's block at a point, the condition "second grid coordinate is 0" in closed form, and the
  frame claim read off a frame run.
-/
import proofs.«149547_j42202348650760_2_alg».proof.Proof.Gen.KernelIdeal.Launch
import proofs.«149547_j42202348650760_2_alg».proof.Proof.Gen.KernelIdeal.Skeleton
import proofs.«149547_j42202348650760_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- Core `c`'s buffer contents when the region is entered: after the three host lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor

/-- @main is the lines before the region, the region, and the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the windows' arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : (hostOps1_3 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : (hostOps1_4 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keeps : (hostOps1_5 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keeps : (hostOps1_6 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_keeps : (hostOps1_7 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_keeps : (hostOps1_8 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_9_keeps : (hostOps1_9 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_10_keeps : (hostOps1_10 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_11_keeps : (hostOps1_11 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_12_keeps : (hostOps1_12 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_13_keeps : (hostOps1_13 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_14_keeps : (hostOps1_14 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_15_keeps : (hostOps1_15 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_16_keeps : (hostOps1_16 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- And they write no array a window stages: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop
  · exact (List.forall_iff_forall_mem.mp hostOps1_15_keeps) op hop
  · exact (List.forall_iff_forall_mem.mp hostOps1_16_keeps) op hop

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved since the point that fetched it). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (an unfetched
    window's block index has not moved since the point that fetched it). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- Neither argument array is staged by a window or written by a host line, so a frame run's post gives both back
    as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's one condition -/

/-- "The second grid coordinate is 0", as the body computes it. -/
abbrev cond0_0 (i : grid0.Coords) : Prop := (Scalar.cmpi .ne (Scalar.extui (Scalar.cmpi .eq (BitVec.ofNat 32 (i 1).val) 0#32)) 0#32) = 1#1
/-- It holds at the first of each core's 32 points. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs at a point -/

/-- One staging buffer of each output window, through which its contents are stated. -/
abbrev VO0_2 : View sig .tc .vmem S1x1x1 .f32 := (Memref.whole cc0_stg2_0 : Memref sig .tc .vmem S1x1x1 .f32).view
abbrev VO0_3 : View sig .tc .vmem S1x1x1024 .f32 := (Memref.whole cc0_stg3_0 : Memref sig .tc .vmem S1x1x1024 .f32).view
abbrev ms0_0 (t : Fin cfg0.N) : Memref sig .tc .vmem S1024x10 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KIRunA.lean ====
/-
  The kernel body run symbolically in the case "the second grid coordinate is 0".
-/
import proofs.«149547_j42202348650760_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point whose second coordinate is 0, on whole staging buffers holding the two input blocks: it zeroes
    both accumulators, then adds the block's entropy total and its column sums of the softmax; the inputs' buffers
    come back as found, each accumulator's buffer with the pieces its stores wrote (the witness the run finds). -/
noncomputable def kernelRun0_A (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : cond0_0 i)
    (x0 : Vec F S1024x10 .f32) (x1 : Vec F S10x1024 .f32) :
    Σ' (L2 : List (View.Piece (Elt F) S1x1x1 .f32)), { L3 : List (View.Piece (Elt F) S1x1x1024 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__entropy_kernel i arg2 harg2 arg3 harg3 arg4 harg4 arg5 harg5) K } := by
  refine ⟨?_, ?_, fun E K => ?run⟩
  case run =>
    simp only [cc0__entropy_kernel_eq_skeleton]; unfold cc0__entropy_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hand

end
-- ==== Proof.KIRunB.lean ====
/-
  The kernel body run symbolically in the case "the second grid coordinate is not 0".
-/
import proofs.«149547_j42202348650760_2_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later point of a core's run, on whole staging buffers holding the two input blocks and the
    accumulators at what the point before left: it adds the block's entropy total and its column sums of the
    softmax; the inputs' buffers come back as found, each accumulator's buffer with the pieces its stores wrote. -/
noncomputable def kernelRun0_B (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : ¬cond0_0 i)
    (x0 : Vec F S1024x10 .f32) (x1 : Vec F S10x1024 .f32) (xo2 : Vec F S1x1x1 .f32) (xo3 : Vec F S1x1x1024 .f32) :
    Σ' (L2 : List (View.Piece (Elt F) S1x1x1 .f32)), { L3 : List (View.Piece (Elt F) S1x1x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__entropy_kernel i arg2 harg2 arg3 harg3 arg4 harg4 arg5 harg5) K } := by
  refine ⟨?_, ?_, fun E K => ?run⟩
  case run =>
    simp only [cc0__entropy_kernel_eq_skeleton]; unfold cc0__entropy_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hand

end
-- ==== Proof.KIFrame.lean ====
/-
  The frame of `KernelIdeal`: the proof data of its one region and the run.

  After the body at a point, each input window's staging buffer still holds its block; the two accumulators hold
  what the body's stores left: at the first of a core's 32 points the block's totals added to zero, at every later
  point the block's totals added to what the point before left (the accumulators are written back only after a
  core's last point, so between two points of a run nothing touches them). With that, the body's two symbolic
  runs discharge the per-point obligation, and the launch theorem for a region followed by host lines gives the
  run; neither argument array is staged or written, so both end as launched.
-/
import proofs.«149547_j42202348650760_2_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves in the accumulators -/

theorem cover0_A_2 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : cond0_0 i)
    (x0 : Vec F S1024x10 .f32) (x1 : Vec F S10x1024 .f32) (y : S1x1x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1x1.size (by sl_kernel_rfl) y
theorem cover0_A_3 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : cond0_0 i)
    (x0 : Vec F S1024x10 .f32) (x1 : Vec F S10x1024 .f32) (y : S1x1x1024.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1x1024.size (by sl_kernel_rfl) y
/-- The scalar accumulator after a first point: its pieces read back. -/
def out0_A_2 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : cond0_0 i)
    (x0 : Vec F S1024x10 .f32) (x1 : Vec F S10x1024 .f32) : Vec F S1x1x1 .f32 :=
  VO0_2.read (Elt F) (VO0_2.writes (Elt F) VO0_2.junk (kernelRun0_A c i arg2 harg2 arg3 harg3 arg4 harg4 arg5 harg5 hc0 x0 x1).1)
/-- The lane accumulator after a first point. -/
def out0_A_3 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : cond0_0 i)
    (x0 : Vec F S1024x10 .f32) (x1 : Vec F S10x1024 .f32) : Vec F S1x1x1024 .f32 :=
  VO0_3.read (Elt F) (VO0_3.writes (Elt F) VO0_3.junk (kernelRun0_A c i arg2 harg2 arg3 harg3 arg4 harg4 arg5 harg5 hc0 x0 x1).2.1)

theorem cover0_B_2 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : ¬cond0_0 i)
    (x0 : Vec F S1024x10 .f32) (x1 : Vec F S10x1024 .f32) (xo2 : Vec F S1x1x1 .f32) (xo3 : Vec F S1x1x1024 .f32) (y : S1x1x1.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1x1.size (by sl_kernel_rfl) y
theorem cover0_B_3 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : ¬cond0_0 i)
    (x0 : Vec F S1024x10 .f32) (x1 : Vec F S10x1024 .f32) (xo2 : Vec F S1x1x1 .f32) (xo3 : Vec F S1x1x1024 .f32) (y : S1x1x1024.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1x1024.size (by sl_kernel_rfl) y
/-- The scalar accumulator after a later point, from what the point before left. -/
def out0_B_2 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : ¬cond0_0 i)
    (x0 : Vec F S1024x10 .f32) (x1 : Vec F S10x1024 .f32) (xo2 : Vec F S1x1x1 .f32) (xo3 : Vec F S1x1x1024 .f32) : Vec F S1x1x1 .f32 :=
  VO0_2.read (Elt F) (VO0_2.writes (Elt F) VO0_2.junk (kernelRun0_B c i arg2 harg2 arg3 harg3 arg4 harg4 arg5 harg5 hc0 x0 x1 xo2 xo3).1)
/-- The lane accumulator after a later point. -/
def out0_B_3 (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : ¬cond0_0 i)
    (x0 : Vec F S1024x10 .f32) (x1 : Vec F S10x1024 .f32) (xo2 : Vec F S1x1x1 .f32) (xo3 : Vec F S1x1x1024 .f32) : Vec F S1x1x1024 .f32 :=
  VO0_3.read (Elt F) (VO0_3.writes (Elt F) VO0_3.junk (kernelRun0_B c i arg2 harg2 arg3 harg3 arg4 harg4 arg5 harg5 hc0 x0 x1 xo2 xo3).2.1)

/-! ## The accumulation -/

/-- What the two accumulators hold after the body at position `n`: the first point of a run starts from zero, a later
    point from what the point before left. -/
def outsAt0 (c : Dev nD) : (n : ℕ) → n < cfg0.N → Vec F S1x1x1 .f32 × Vec F S1x1x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 32 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

theorem outsAt0_A (c : Dev nD) (t : Fin cfg0.N) (h0 : t.val % 32 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at a point each input's buffer at its block, the
    accumulators at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point of a run the scalar accumulator's buffer holds what the point before left: it was not written
    back in between. -/
theorem before0_2_B (c : Dev nD) (t : Fin cfg0.N) (h0 : ¬t.val % 32 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the closed form of its condition says which case the point is in, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h0 : t.val % 32 = 0
  · rw [outsAt0_A m c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B m c t h0]
    dsimp only
    simp only [before0_2_B m c t h0, before0_3_B m c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end every window's array holds what the
    proof data compute and every other buffer what the host lines after the region leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim of `KernelIdeal`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Hand

end
-- ==== Proof.KIPieces.lean ====
/-
  What each run of the body leaves in the two accumulators, as the body's arithmetic: the scalar one holds the
  entropy update of the block over what it held (zero at a first point), the lane one the column-sum update of the
  block's softmax over what it held (zero at a first point). Every store covers its whole buffer, so the last store
  alone decides the contents, and a load after the zeroing store reads the zeros.
-/
import proofs.«149547_j42202348650760_2_alg».proof.Proof.KIFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl
theorem hz3 : (![0, 0, 0] : Fin 3 → ℕ) = fun _ => 0 := by funext a; fin_cases a <;> rfl

theorem out0_A_2_eq (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : cond0_0 i)
    (x0 : Vec F S1024x10 .f32) (x1 : Vec F S10x1024 .f32) :
    out0_A_2 c i arg2 harg2 arg3 harg3 arg4 harg4 arg5 harg5 hc0 x0 x1 = k0_pay9 x0 x1 (k0_pay2 (F := F)) := by
  unfold out0_A_2
  rw [View.read_writes_eq_canon _ _ _ (cover0_A_2 c i arg2 harg2 arg3 harg3 arg4 harg4 arg5 harg5 hc0 x0 x1)]
  unfold kernelRun0_A
  dsimp only
  rw [View.canon_cons_unit_zero (S := S1x1x1) hz3]
  try sl_unfold_run_names
  simp only [View.readAt_eq_ld, harg2.read_unread, harg3.read_unread, harg4.read_unread, harg5.read_unread,
    View.ld_unit_zero (S := S1024x10) hz2, View.ld_unit_zero (S := S10x1024) hz2,
    View.ld_unit_zero (S := S1x1x1) hz3, View.ld_unit_zero (S := S1x1x1024) hz3]
  exact congrArg _ (View.readCov_unit_zero (S := S1x1x1) arg4.view hz3 _ _)

theorem out0_A_3_eq (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : cond0_0 i)
    (x0 : Vec F S1024x10 .f32) (x1 : Vec F S10x1024 .f32) :
    out0_A_3 c i arg2 harg2 arg3 harg3 arg4 harg4 arg5 harg5 hc0 x0 x1 = k0_pay1 (k0_pay8 x0 x1) (k0_pay3 (F := F)) := by
  unfold out0_A_3
  rw [View.read_writes_eq_canon _ _ _ (cover0_A_3 c i arg2 harg2 arg3 harg3 arg4 harg4 arg5 harg5 hc0 x0 x1)]
  unfold kernelRun0_A
  dsimp only
  rw [View.canon_cons_unit_zero (S := S1x1x1024) hz3]
  try sl_unfold_run_names
  simp only [View.readAt_eq_ld, harg2.read_unread, harg3.read_unread, harg4.read_unread, harg5.read_unread,
    View.ld_unit_zero (S := S1024x10) hz2, View.ld_unit_zero (S := S10x1024) hz2,
    View.ld_unit_zero (S := S1x1x1) hz3, View.ld_unit_zero (S := S1x1x1024) hz3]
  exact congrArg _ (View.readCov_unit_zero (S := S1x1x1024) arg5.view hz3 _ _)

theorem out0_B_2_eq (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : ¬cond0_0 i)
    (x0 : Vec F S1024x10 .f32) (x1 : Vec F S10x1024 .f32) (xo2 : Vec F S1x1x1 .f32) (xo3 : Vec F S1x1x1024 .f32) :
    out0_B_2 c i arg2 harg2 arg3 harg3 arg4 harg4 arg5 harg5 hc0 x0 x1 xo2 xo3 = k0_pay9 x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  rw [View.canon_cons_unit_zero (S := S1x1x1) hz3]
  try sl_unfold_run_names
  simp only [View.readAt_eq_ld, harg2.read_unread, harg3.read_unread, harg4.read_unread, harg5.read_unread,
    View.ld_unit_zero (S := S1024x10) hz2, View.ld_unit_zero (S := S10x1024) hz2,
    View.ld_unit_zero (S := S1x1x1) hz3, View.ld_unit_zero (S := S1x1x1024) hz3]

theorem out0_B_3_eq (c : Dev nD) (i : grid0.Coords) (arg2 : Memref sig .tc .vmem S1024x10 .f32) (harg2 : arg2.IsWhole) (arg3 : Memref sig .tc .vmem S10x1024 .f32) (harg3 : arg3.IsWhole) (arg4 : Memref sig .tc .vmem S1x1x1 .f32) (harg4 : arg4.IsWhole) (arg5 : Memref sig .tc .vmem S1x1x1024 .f32) (harg5 : arg5.IsWhole) (hc0 : ¬cond0_0 i)
    (x0 : Vec F S1024x10 .f32) (x1 : Vec F S10x1024 .f32) (xo2 : Vec F S1x1x1 .f32) (xo3 : Vec F S1x1x1024 .f32) :
    out0_B_3 c i arg2 harg2 arg3 harg3 arg4 harg4 arg5 harg5 hc0 x0 x1 xo2 xo3 = k0_pay1 (k0_pay8 x0 x1) xo3 := by
  unfold out0_B_3
  rw [View.read_writes_eq_canon _ _ _ (cover0_B_3 c i arg2 harg2 arg3 harg3 arg4 harg4 arg5 harg5 hc0 x0 x1 xo2 xo3)]
  unfold kernelRun0_B
  dsimp only
  rw [View.canon_cons_unit_zero (S := S1x1x1024) hz3]
  try sl_unfold_run_names
  simp only [View.readAt_eq_ld, harg2.read_unread, harg3.read_unread, harg4.read_unread, harg5.read_unread,
    View.ld_unit_zero (S := S1024x10) hz2, View.ld_unit_zero (S := S10x1024) hz2,
    View.ld_unit_zero (S := S1x1x1) hz3, View.ld_unit_zero (S := S1x1x1024) hz3]

end Cert.KernelIdeal.Hand

end
-- ==== Proof.Spec.lean ====
/-
  What the entropy part of both programs computes, as functions of the rows of z (channel-last, flattened to
  65536 rows of 10) and of the codebook (1024 rows of 10), over the extended reals.

  A row r has affinity aff r n = (∑ k, z r k · cb n k) · β to code n, with β the temperature factor 2/T read as the
  exact quotient of 2 by the f32 word of 0.01 (5368709 / 2^29). The softmax of a row is taken through its maximum:
  e r n = exp (aff r n − max), s r = ∑ n, e r n, p r n = e r n / s r, and the log-softmax is (aff r n − max) − log (s r).
  The two totals every later line of either program depends on are
    totalEnt = ∑ r, ∑ n, p r n · logp r n      and      colProb n = ∑ r, p r n.
-/
import Idealize.ShloMosaic.PureOps.Ideal
import Mathlib.Algebra.BigOperators.Group.Finset.Basic
import Mathlib.Order.CompleteLattice.Finset

noncomputable section

namespace Cert.Spec

open Idealize.ShloMosaic

/-- The temperature factor 2 / T, T the binary value of the f32 word of 0.01. -/
def beta : EReal := ((1073741824 / 5368709 : ℝ) : EReal)

variable (zr : Fin 65536 → Fin 10 → EReal) (cb : Fin 1024 → Fin 10 → EReal)

/-- The scaled inner product of row r with code n. -/
def aff (r : Fin 65536) (n : Fin 1024) : EReal := (∑ k : Fin 10, zr r k * cb n k) * beta
/-- The largest affinity of a row. -/
def rowMax (r : Fin 65536) : EReal := Finset.univ.sup fun n : Fin 1024 => aff zr cb r n
/-- The shifted exponentials of a row. -/
def ex (r : Fin 65536) (n : Fin 1024) : EReal := Ideal.exp (aff zr cb r n - rowMax zr cb r)
/-- Their sum. -/
def rowSum (r : Fin 65536) : EReal := ∑ n : Fin 1024, ex zr cb r n
/-- The softmax of a row. -/
def prob (r : Fin 65536) (n : Fin 1024) : EReal := Ideal.div (ex zr cb r n) (rowSum zr cb r)
/-- The log-softmax of a row. -/
def logProb (r : Fin 65536) (n : Fin 1024) : EReal := (aff zr cb r n - rowMax zr cb r) - Ideal.log (rowSum zr cb r)
/-- A row's ∑ p log p. -/
def rowEnt (r : Fin 65536) : EReal := ∑ n : Fin 1024, prob zr cb r n * logProb zr cb r n
/-- The total over all rows. -/
def totalEnt : EReal := ∑ r : Fin 65536, rowEnt zr cb r
/-- The column sums of the softmax. -/
def colProb (n : Fin 1024) : EReal := ∑ r : Fin 65536, prob zr cb r n

end Cert.Spec

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLaneMax.lean ====
/-
  GENERAL LEMMA: a maximum over the lane axis of a matrix, read at a row on extended reals.

  * laneMax_apply: a float maximum-reduction over axis 1 of an [a, b] matrix, started from an accumulator word, read at
    row r, is the fold of max from the accumulator's value over the b entries (r, k) of that row. Because max on the
    extended reals commutes and associates, the order in which the entries are visited does not matter, so the fold is
    over the finite set of lane positions.
  Nothing here mentions a program; the extents a and b are arbitrary.
-/
import proofs.«149547_j42202348650760_2_alg».proof.Proof.LibLayout

noncomputable section

namespace Cert.LibLaneMax

open Idealize.ShloMosaic Idealize.ShloMosaic.ValueIdx

/-- A float maximum over the lane axis of a matrix, read at row `r` at the exact instance: the fold of `max`, from
    the accumulator's value, over the row's entries. -/
theorem laneMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) :=
  (Ideal.multiReduction_maximumf_single v acc h hφ hacc (ix1 r)).trans
    (congrArg (fun f : Fin b → EReal => (Finset.univ : Finset (Fin b)).fold max (Ideal.ofBits .f32 acc) f)
      (funext fun k => congrArg v (Cert.LibLayout.lift_row h r k)))

end Cert.LibLaneMax

end
-- ==== Proof.LibTotals.lean ====
/-
  GENERAL lemmas on totals (extended reals, or any additive commutative monoid: no finiteness anywhere).

  * A float add-reduction over any set of axes keeps the total: the sum of the reduced array's entries is the sum of
    the source's entries. A shape cast keeps the total. An array whose axes all have extent one holds its total at
    its one index.
  * A sum over the index set of a rank-3 array is the triple sum over its coordinates.
  * A sum over Q blocks of P consecutive naturals is the sum over the first Q * P naturals.
  * An accumulator that is reset every P steps: if it starts a run of P steps at 0 + p and adds p at every other step,
    then r steps into run q it holds the sum of p over the run so far.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.LibTotals

open Idealize.ShloMosaic Idealize.ShloMosaic.ValueIdx

/-- The entries of a float add-reduction sum to the total of the source. -/
theorem sum_multiReduction_add {s t : Shape} {φ : FTy} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ (fun i => h.drop i) src

/-- The entries of a shape cast sum to the total of the source. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-- An array whose axes all have extent one: the total is its one entry. -/
theorem sum_of_unit {s : Shape} {M : Type*} [AddCommMonoid M] (hs : ∀ a, s.size a = 1) (x : s.Idx → M) (i0 : s.Idx) :
    ∑ i : s.Idx, x i = x i0 :=
  Fintype.sum_eq_single i0 fun i hi => absurd (funext fun a => Fin.ext (by
    have h1 := (i a).isLt; have h2 := (i0 a).isLt; have := hs a; omega)) hi

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Q blocks of P consecutive naturals are the first Q * P naturals. -/
theorem sum_blocks_nat {M : Type*} [AddCommMonoid M] (Q P : ℕ) (f : ℕ → M) :
    ∑ q : Fin Q, ∑ k : Fin P, f (k.val + P * q.val) = ∑ j : Fin (Q * P), f j.val := by
  rw [← (finProdFinEquiv (m := Q) (n := P)).sum_comp (fun j => f j.val), Fintype.sum_prod_type]
  rfl

/-- The accumulator that restarts every P steps (steps below N only): r steps into run q it is the sum of that run's
    first r + 1 terms. -/
theorem restart_acc {M : Type*} [AddCommMonoid M] (P N : ℕ) (p acc : ℕ → M)
    (h0 : 0 < N → acc 0 = 0 + p 0)
    (hr : ∀ n, n + 1 < N → (n + 1) % P = 0 → acc (n + 1) = 0 + p (n + 1))
    (hs : ∀ n, n + 1 < N → (n + 1) % P ≠ 0 → acc (n + 1) = acc n + p (n + 1)) :
    ∀ q r, r < P → P * q + r < N → acc (P * q + r) = ∑ k ∈ Finset.range (r + 1), p (P * q + k) := by
  intro q r
  induction r with
  | zero =>
    intro hP hN
    rw [Finset.sum_range_one, Nat.add_zero]
    cases q with
    | zero => rw [Nat.mul_zero, h0 hN, zero_add]
    | succ q =>
      obtain ⟨n, hn⟩ : ∃ n, P * (q + 1) = n + 1 := ⟨P * (q + 1) - 1, by
        have : 0 < P * (q + 1) := Nat.mul_pos hP (Nat.succ_pos q); omega⟩
      rw [hn] at hN ⊢
      rw [hr n hN (by rw [← hn]; exact Nat.mul_mod_right P (q + 1)), zero_add]
  | succ r ih =>
    intro hP hN
    have hmod : (P * q + r + 1) % P ≠ 0 := by
      rw [Nat.add_assoc, Nat.mul_add_mod, Nat.mod_eq_of_lt hP]; exact Nat.succ_ne_zero r
    rw [← Nat.add_assoc] at hN ⊢
    rw [hs _ hN hmod, ih (by omega) (by omega), Finset.sum_range_succ _ (r + 1), Nat.add_assoc]

end Cert.LibTotals

end
-- ==== Proof.RefEntConsts.lean ====
/-
  The float words the reference's entropy lines spell, as extended reals, and the one law of scaling they enter.

  The temperature word 0x3C23D70A is the binary fraction 5368709 / 2^29 (the f32 nearest to 0.01); the word 0xC0000000 is -2;
  0xFF800000 is -∞; 0x3727C5AC (the f32 nearest to 1e-5) is some real number, and which one never matters.

  The reference forms  -((-2) · d) / T  from an inner product d.  On EVERY extended real d this is d · β with β = 2 / T:
  the two negations cancel, division by a non-zero real is multiplication by its reciprocal at the infinities too, and
  the extended reals' multiplication is commutative and associative, so no finiteness of d is used.
-/
import Idealize.ShloMosaic.PureOps.Ideal
import proofs.«149547_j42202348650760_2_alg».proof.Proof.Spec

noncomputable section

namespace Cert.RefEnt

open Idealize.ShloMosaic

/-- The temperature word denotes 5368709 / 2^29. -/
theorem word_temp : Ideal.ofBits .f32 0x3C23D70A#32 = ((5368709 / 536870912 : ℝ) : EReal) := by
  simp [Ideal.ofBits, Ideal.ieee, -EReal.coe_mul]; norm_num

/-- The word of -2.0 denotes -2. -/
theorem word_neg_two : Ideal.ofBits .f32 0xC0000000#32 = ((-2 : ℝ) : EReal) := by
  simp [Ideal.ofBits, Ideal.ieee, -EReal.coe_mul]; norm_num

/-- The word of -inf denotes the bottom element. -/
theorem word_neg_inf : Ideal.ofBits .f32 0xFF800000#32 = (⊥ : EReal) := by
  simp [Ideal.ofBits, Ideal.ieee]

/-- The word of +0.0 denotes 0. -/
theorem word_zero : Ideal.ofBits .f32 0x00000000#32 = (0 : EReal) := by
  simp [Ideal.ofBits, Ideal.ieee]

/-- The small constant added before the log-softmax denotes a real number. -/
theorem word_eps : ∃ e : ℝ, Ideal.ofBits .f32 0x3727C5AC#32 = ((e : ℝ) : EReal) := by
  refine ⟨2748779 / 274877906944, ?_⟩
  simp [Ideal.ofBits, Ideal.ieee, -EReal.coe_mul]; norm_num

/-- Negating the product with -2 and dividing by the temperature word is multiplying by β, on every extended real. -/
theorem scale_law (d : EReal) :
    Ideal.div (-(Ideal.ofBits .f32 0xC0000000#32 * d)) (Ideal.ofBits .f32 0x3C23D70A#32) = d * Cert.Spec.beta := by
  have h2 : -(((-2 : ℝ) : EReal) * d) = ((2 : ℝ) : EReal) * d := by
    rw [EReal.coe_neg, EReal.neg_mul, neg_neg]
  rw [word_temp, word_neg_two, Ideal.div_coe (by norm_num), h2, mul_comm _ d, mul_assoc]
  congr 1
  unfold Cert.Spec.beta
  rw [← EReal.coe_mul]
  congr 1
  norm_num

end Cert.RefEnt

end
-- ==== Proof.RefEntLaws.lean ====
/-
  The laws of a row's softmax that join the reference's entropy lines to the specification.

  * A maximum taken from -∞ is a supremum, and a further maximum with -∞ changes nothing.
  * Adding one extended real e to every score adds e to the supremum (x ↦ x + e is monotone and sends -∞ to -∞),
    with no finiteness.
  * When every score of a (non-empty) row is a real number and e is real, the supremum is one of the scores, hence
    real, and (a + e) - (m + e) = a - m: the shifted scores of the row are unchanged by the shift. This is the one
    place the finiteness of the inputs is used: at an infinite score the difference would be -∞ + ∞.
  * Every affinity is a real number when the rows of z and of the codebook are: a finite sum of products of reals,
    times the real β.
-/
import Idealize.ShloMosaic.PureOps.Ideal
import Mathlib.Data.Finset.Lattice.Fold
import proofs.«149547_j42202348650760_2_alg».proof.Proof.Spec

noncomputable section

namespace Cert.RefEnt

open Idealize.ShloMosaic

/-- A fold of max from -∞, then one more max with -∞, is the supremum. -/
theorem max_bot_fold {ι : Type*} (s : Finset ι) (f : ι → EReal) : max (⊥ : EReal) (s.fold max (⊥ : EReal) f) = s.sup f := by
  rw [max_eq_right bot_le]
  rfl

/-- Adding e to every score adds e to the supremum. -/
theorem sup_add_const {ι : Type*} (s : Finset ι) (f : ι → EReal) (e : EReal) :
    s.sup (fun n => f n + e) = s.sup f + e :=
  (Finset.apply_sup_eq_sup_comp_of_linearOrder (s := s) (f := f) (fun x : EReal => x + e)
    (fun _ _ h => add_le_add_left h e) (EReal.bot_add e)).symm

/-- The supremum of a non-empty family of reals is a real. -/
theorem sup_real {ι : Type*} (s : Finset ι) (hs : s.Nonempty) (f : ι → EReal) (hf : ∀ k, ∃ x : ℝ, f k = (x : EReal)) :
    ∃ μ : ℝ, s.sup f = (μ : EReal) := by
  obtain ⟨i, -, hi⟩ := Finset.exists_mem_eq_sup s hs f
  obtain ⟨μ, hμ⟩ := hf i
  exact ⟨μ, hi.trans hμ⟩

/-- For real scores and a real shift, score minus supremum is unchanged by the shift. -/
theorem shifted_sub_sup {ι : Type*} (s : Finset ι) (hs : s.Nonempty) (f : ι → EReal) (hf : ∀ k, ∃ x : ℝ, f k = (x : EReal))
    (e : ℝ) (k : ι) :
    (f k + (e : EReal)) - s.sup (fun j => f j + (e : EReal)) = f k - s.sup f := by
  rw [sup_add_const]
  obtain ⟨μ, hμ⟩ := sup_real s hs f hf
  obtain ⟨x, hx⟩ := hf k
  rw [hμ, hx, ← EReal.coe_add, ← EReal.coe_add, ← EReal.coe_sub, ← EReal.coe_sub]
  congr 1
  ring

/-- A finite sum of reals, taken in the extended reals, is a real. -/
theorem sum_real {ι : Type*} (s : Finset ι) (f : ι → EReal) (h : ∀ k ∈ s, ∃ x : ℝ, f k = (x : EReal)) :
    ∃ y : ℝ, ∑ k ∈ s, f k = (y : EReal) := by
  classical
  induction s using Finset.induction_on with
  | empty => exact ⟨0, by simp⟩
  | insert a s ha ih =>
    obtain ⟨x, hx⟩ := h a (Finset.mem_insert_self a s)
    obtain ⟨y, hy⟩ := ih (fun k hk => h k (Finset.mem_insert_of_mem hk))
    exact ⟨x + y, by rw [Finset.sum_insert ha, hx, hy, EReal.coe_add]⟩

/-- Every affinity is a real number when the rows of z and of the codebook are. -/
theorem aff_real (zr : Fin 65536 → Fin 10 → EReal) (cb : Fin 1024 → Fin 10 → EReal)
    (hz : ∀ r k, ∃ x : ℝ, zr r k = (x : EReal)) (hc : ∀ n k, ∃ x : ℝ, cb n k = (x : EReal)) (r : Fin 65536) (n : Fin 1024) :
    ∃ x : ℝ, Cert.Spec.aff zr cb r n = (x : EReal) := by
  obtain ⟨y, hy⟩ := sum_real Finset.univ (fun k : Fin 10 => zr r k * cb n k) (fun k _ => by
    obtain ⟨x, hx⟩ := hz r k
    obtain ⟨x', hx'⟩ := hc n k
    exact ⟨x * x', by rw [hx, hx', EReal.coe_mul]⟩)
  refine ⟨y * (1073741824 / 5368709), ?_⟩
  unfold Cert.Spec.aff Cert.Spec.beta
  rw [hy, EReal.coe_mul]

/-- The shifted scores of a row of affinities do not change when a real e is added to every affinity. -/
theorem aff_shift (zr : Fin 65536 → Fin 10 → EReal) (cb : Fin 1024 → Fin 10 → EReal)
    (hz : ∀ r k, ∃ x : ℝ, zr r k = (x : EReal)) (hc : ∀ n k, ∃ x : ℝ, cb n k = (x : EReal)) (e : ℝ) (r : Fin 65536) (n : Fin 1024) :
    (Cert.Spec.aff zr cb r n + (e : EReal)) - Finset.univ.sup (fun j : Fin 1024 => Cert.Spec.aff zr cb r j + (e : EReal))
      = Cert.Spec.aff zr cb r n - Cert.Spec.rowMax zr cb r :=
  shifted_sub_sup Finset.univ ⟨0, Finset.mem_univ _⟩ (fun j : Fin 1024 => Cert.Spec.aff zr cb r j)
    (fun j => aff_real zr cb hz hc r j) e n

end Cert.RefEnt

end
-- ==== Proof.KIPay.lean ====
/-
  The kernel body's arithmetic read at an index, over the extended reals.

  With a block of 1024 rows x0 (x0 (p, k) the k-th channel of the block's row p) and the transposed codebook x1
  (x1 (k, n) the k-th channel of code n), the body forms the affinities (∑ k, x0 (p, k) · x1 (k, n)) · β, each row's
  maximum, the shifted exponentials, their row sums, the softmax and the log-softmax, and adds to its two
  accumulators the block's total of p · log p and the block's column sums of p. Stated against the specification's
  row functions for any assignment `row` of the block's rows to rows of the whole array.
-/
import proofs.«149547_j42202348650760_2_alg».proof.Proof.Gen.KernelIdeal.Skeleton
import proofs.«149547_j42202348650760_2_alg».proof.Proof.Spec
import proofs.«149547_j42202348650760_2_alg».proof.Proof.LibMatmulRows
import proofs.«149547_j42202348650760_2_alg».proof.Proof.LibLaneMax
import proofs.«149547_j42202348650760_2_alg».proof.Proof.LibTotals
import proofs.«149547_j42202348650760_2_alg».proof.Proof.RefEntConsts
import proofs.«149547_j42202348650760_2_alg».proof.Proof.RefEntLaws
import Idealize.ShloMosaic.PureOps.IdealRules
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Pay

open Cert.KernelIdeal Cert.KernelIdeal.Gen
open Idealize.ShloMosaic Idealize.ShloMosaic.ValueIdx
open scoped BigOperators

/-- The named temperature factor is the specification's β. -/
theorem named_beta : Named.named (F := Ideal) Cert.KernelIdeal.κ "two_over_temp" (φ := .f32) 0x43480000#32 = Cert.Spec.beta :=
  IdealRules.named_const.ideal_named_scalar _ _ _ _ rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

variable (zr : Fin 65536 → Fin 10 → EReal) (cb : Fin 1024 → Fin 10 → EReal)
variable (x0 : Vec Ideal S1024x10 .f32) (x1 : Vec Ideal S10x1024 .f32) (row : Fin 1024 → Fin 65536)
variable (hx0 : ∀ (p : Fin 1024) (k : Fin 10), x0 (ix2 p k) = zr (row p) k)
variable (hx1 : ∀ (k : Fin 10) (n : Fin 1024), x1 (ix2 k n) = cb n k)

include hx0 hx1 in
/-- The scaled product at (p, n) is the affinity of the block's row p to code n. -/
theorem pay4_at (p : Fin 1024) (n : Fin 1024) : k0_pay4 (F := Ideal) x0 x1 (ix2 p n) = Cert.Spec.aff zr cb (row p) n := by
  unfold k0_pay4
  rw [mulf_apply, broadcast_apply, named_beta]
  unfold Cert.Spec.aff
  congr 1
  refine ((Ideal.matmul_constant_zero_apply dot_S1024x10_S10x1024_S1024x1024_1_0_0_1_n_n (some .fp32) _ _ (ix2 p n)).trans
    (Cert.LibMatmulRows.contraction_rows (R := 1024) (K := 10) (N := 1024) dot_S1024x10_S10x1024_S1024x1024_1_0_0_1_n_n rfl rfl
      (fun _ _ => rfl) (fun _ _ => rfl) (fun _ _ => rfl) (fun _ _ => rfl) _ _ p n)).trans ?_
  refine Finset.sum_congr rfl fun k _ => ?_
  rw [shapeCast_self, shapeCast_self, hx0, hx1]

include hx0 hx1 in
/-- Row p's maximum over the 1024 codes. -/
theorem pay5_at (p : Fin 1024) (u : Fin 1) : k0_pay5 (F := Ideal) x0 x1 (ix2 p u) = Cert.Spec.rowMax zr cb (row p) := by
  unfold k0_pay5
  refine (Cert.LibLayout.shapeCast_a_a1_apply (a := 1024) _ shapeCasts_S1024_S1024x1 p u).trans ?_
  refine (Cert.LibLaneMax.laneMax_apply (a := 1024) (b := 1024) _ 0xFF800000#32 reduces_S1024x1024_S1024 (.inl rfl) rfl p).trans ?_
  rw [Cert.RefEnt.word_neg_inf]
  unfold Cert.Spec.rowMax
  rw [← Cert.RefEnt.max_bot_fold, max_eq_right bot_le]
  congr 1
  funext n
  exact pay4_at zr cb x0 x1 row hx0 hx1 p n

include hx0 hx1 in
/-- The shifted exponential at (p, n). -/
theorem pay6_at (p : Fin 1024) (n : Fin 1024) : k0_pay6 (F := Ideal) x0 x1 (ix2 p n) = Cert.Spec.ex zr cb (row p) n := by
  unfold k0_pay6
  show Ideal.exp (k0_pay4 x0 x1 (ix2 p n) - broadcastTo S1024x1024 (k0_pay5 x0 x1) broadcasts_S1024x1_S1024x1024 (ix2 p n)) = _
  rw [Cert.LibLayout.broadcastTo_a1_ab_apply (a := 1024) (b := 1024), pay5_at zr cb x0 x1 row hx0 hx1, pay4_at zr cb x0 x1 row hx0 hx1]
  rfl

include hx0 hx1 in
/-- Row p's sum of shifted exponentials. -/
theorem pay7_at (p : Fin 1024) (u : Fin 1) : k0_pay7 (F := Ideal) x0 x1 (ix2 p u) = Cert.Spec.rowSum zr cb (row p) := by
  unfold k0_pay7
  refine (Cert.LibLayout.shapeCast_a_a1_apply (a := 1024) _ shapeCasts_S1024_S1024x1 p u).trans ?_
  refine (Cert.LibLayout.laneSum_apply (a := 1024) (b := 1024) _ reduces_S1024x1024_S1024 (.inl rfl) rfl p).trans ?_
  unfold Cert.Spec.rowSum
  exact Finset.sum_congr rfl fun n _ => pay6_at zr cb x0 x1 row hx0 hx1 p n

include hx0 hx1 in
/-- The softmax at (p, n). -/
theorem pay8_at (p : Fin 1024) (n : Fin 1024) : k0_pay8 (F := Ideal) x0 x1 (ix2 p n) = Cert.Spec.prob zr cb (row p) n := by
  unfold k0_pay8
  rw [divf_apply, Cert.LibLayout.broadcastTo_a1_ab_apply (a := 1024) (b := 1024), pay6_at zr cb x0 x1 row hx0 hx1, pay7_at zr cb x0 x1 row hx0 hx1]
  rfl

include hx0 hx1 in
/-- The scalar accumulator's update: it gains the block's total of p · log p. -/
theorem pay9_at (acc : Vec Ideal S1x1x1 .f32) (j : S1x1x1.Idx) :
    k0_pay9 (F := Ideal) x0 x1 acc j = acc j + ∑ p : Fin 1024, Cert.Spec.rowEnt zr cb (row p) := by
  unfold k0_pay9
  rw [addf_apply, shapeCast_self]
  congr 1
  refine (Cert.LibTotals.sum_of_unit (s := S1x1x1) (fun a => by fin_cases a <;> rfl) (shapeCast S1x1x1 _ shapeCasts_S1x1_S1x1x1) j).symm.trans ?_
  refine (Cert.LibTotals.sum_shapeCast _ shapeCasts_S1x1_S1x1x1).trans ?_
  refine (Cert.LibTotals.sum_shapeCast _ shapeCasts_S1_S1x1).trans ?_
  refine (Cert.LibTotals.sum_multiReduction_add _ 0x00000000#32 reduces_S1024x1_S1 (.inl rfl) rfl).trans ?_
  refine (Cert.LibTotals.sum_shapeCast _ shapeCasts_S1024_S1024x1).trans ?_
  refine (sum_idx1 _).trans ?_
  refine Finset.sum_congr rfl fun p _ => ?_
  refine (Cert.LibLayout.laneSum_apply (a := 1024) (b := 1024) _ reduces_S1024x1024_S1024 (.inl rfl) rfl p).trans ?_
  unfold Cert.Spec.rowEnt
  refine Finset.sum_congr rfl fun n _ => ?_
  rw [mulf_apply, pay8_at zr cb x0 x1 row hx0 hx1, subf_apply, subf_apply,
    Cert.LibLayout.broadcastTo_a1_ab_apply (a := 1024) (b := 1024), Cert.LibLayout.broadcastTo_a1_ab_apply (a := 1024) (b := 1024),
    pay4_at zr cb x0 x1 row hx0 hx1, pay5_at zr cb x0 x1 row hx0 hx1]
  show _ * ((_ - _) - Ideal.log (k0_pay7 x0 x1 (ix2 p 0))) = _
  rw [pay7_at zr cb x0 x1 row hx0 hx1]
  rfl

/-- The lane accumulator's update at lane n: it gains the block's column sum of the softmax. -/
theorem pay1_at (v18 : FVec Ideal S1024x1024 .f32) (acc : Vec Ideal S1x1x1024 .f32) (a b : Fin 1) (n : Fin 1024) :
    k0_pay1 (F := Ideal) v18 acc (ix3 a b n) = acc (ix3 a b n) + ∑ p : Fin 1024, v18 (ix2 p n) := by
  unfold k0_pay1
  rw [addf_apply, shapeCast_self]
  congr 1
  refine (shapeCast_addUnit_apply (n := 2) ![1, 1024] _ shapeCasts_S1x1024_S1x1x1024 _).trans ?_
  refine (shapeCast_addUnit_apply (n := 1) ![1024] _ shapeCasts_S1024_S1x1024 _).trans ?_
  refine (Ideal.multiReduction_add_single (a := 0) v18 0x00000000#32 reduces_S1024x1024_S1024_2 (.inl rfl) rfl _).trans ?_
  refine Finset.sum_congr rfl fun p _ => ?_
  congr 1
  exact Cert.LibMatmulRows.idx2_ext _ _ rfl rfl

end Cert.KernelIdeal.Pay

end
-- ==== Proof.RefEntRows.lean ====
/-
  The two argument arrays as rows.

  z has shape [64, 10, 32, 32] (batch, channel, height, width). Both programs move the channel axis last and flatten
  the other three: row r = (b · 32 + h) · 32 + w, so b = r / 1024, h = (r / 32) % 32, w = r % 32, and row r's entry k is
  z (b, k, h, w). The codebook cb has shape [1024, 10]: code n's entry k is cb (n, k).
-/
import Idealize.ShloMosaic.PureOps.Ideal
import Idealize.ShloMosaic.Lib.ValueIdx

noncomputable section

namespace Cert.RefEnt

open Idealize.ShloMosaic Idealize.ShloMosaic.ValueIdx

/-- Entry k of row r of z in the channel-last flattening. -/
def zr (z : (⟨4, ![64, 10, 32, 32]⟩ : Shape).Idx → EReal) (r : Fin 65536) (k : Fin 10) : EReal :=
  z (ix4 (⟨r.val / 1024, by have := r.isLt; omega⟩ : Fin 64) k (⟨r.val / 32 % 32, by omega⟩ : Fin 32)
    (⟨r.val % 32, by omega⟩ : Fin 32))

/-- Entry k of code n. -/
def cbr (cb : (⟨2, ![1024, 10]⟩ : Shape).Idx → EReal) (n : Fin 1024) (k : Fin 10) : EReal := cb (ix2 n k)

/-- Rows of an entrywise real array are entrywise real. -/
theorem zr_real (z : (⟨4, ![64, 10, 32, 32]⟩ : Shape).Idx → EReal) (hz : ∀ i, ∃ x : ℝ, z i = (x : EReal)) (r : Fin 65536) (k : Fin 10) :
    ∃ x : ℝ, zr z r k = (x : EReal) := hz _

theorem cbr_real (cb : (⟨2, ![1024, 10]⟩ : Shape).Idx → EReal) (hc : ∀ i, ∃ x : ℝ, cb i = (x : EReal)) (n : Fin 1024) (k : Fin 10) :
    ∃ x : ℝ, cbr cb n k = (x : EReal) := hc _

end Cert.RefEnt

end
-- ==== Proof.KIBlocks.lean ====
/-
  The region's input blocks as entries of the two argument arrays.

  The three host lines before the region move z's channel axis last and flatten the other three axes into 65536
  rows, and transpose the codebook. Window 0's block at grid point t is rows 1024·t … 1024·t + 1023 of the flattened
  array (the point's block index is t itself: core · 32 + step), and window 1's one block is the whole transposed
  codebook. So the block entries the body loads are z-rows and codebook rows.
-/
import proofs.«149547_j42202348650760_2_alg».proof.Proof.KIBase
import proofs.«149547_j42202348650760_2_alg».proof.Proof.RefEntRows
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- The flattened channel-last rows, as the host lines compute them from z. -/
theorem V_rows (c : Dev nD) : (V m c main_v1 : S65536x10.Idx → EReal)
    = shapeCast S65536x10 (transpose S64x32x32x10 [0, 2, 3, 1] (m ((c : Thread nD τ).loc main_arg0)) transposes_S64x10x32x32_S64x32x32x10_0_2_3_1)
        shapeCasts_S64x32x32x10_S65536x10 := by
  dsimp only [V, V0]
  simp only [hostOps0, List.flatten_cons, List.flatten_nil, List.append_nil]
  after_results
  all_goals rfl

/-- The transposed codebook. -/
theorem V_cbT (c : Dev nD) : (V m c main_v2 : S10x1024.Idx → EReal)
    = transpose S10x1024 [1, 0] (m ((c : Thread nD τ).loc main_arg1)) transposes_S1024x10_S10x1024_1_0 := by
  dsimp only [V, V0]
  simp only [hostOps0, List.flatten_cons, List.flatten_nil, List.append_nil]
  after_results
  all_goals rfl

/-- Row r, channel k of the flattened array is z at (r / 1024, k, (r / 32) % 32, r % 32). -/
theorem V_rows_at (c : Dev nD) (r : Fin 65536) (k : Fin 10) :
    (V m c main_v1 : S65536x10.Idx → EReal) (ix2 r k) = Cert.RefEnt.zr (m ((c : Thread nD τ).loc main_arg0)) r k := by
  rw [V_rows]
  have hr := r.isLt
  refine (shapeCast_apply _ shapeCasts_S64x32x32x10_S65536x10 (ix2 r k)
    (ix4 (⟨r.val / 1024, by omega⟩ : Fin 64) (⟨r.val / 32 % 32, by omega⟩ : Fin 32) (⟨r.val % 32, by omega⟩ : Fin 32) k) ?_).trans ?_
  · rw [Shape.rowMajor_val_four, Shape.rowMajor_val_two]
    show ((r.val / 1024 * 32 + r.val / 32 % 32) * 32 + r.val % 32) * 10 + k.val = r.val * 10 + k.val
    omega
  · unfold Cert.RefEnt.zr
    refine transpose_apply [0, 2, 3, 1] _ transposes_S64x10x32x32_S64x32x32x10_0_2_3_1 _ _ (fun b => ?_)
    match b with
    | ⟨0, _⟩ => rfl
    | ⟨1, _⟩ => rfl
    | ⟨2, _⟩ => rfl
    | ⟨3, _⟩ => rfl

/-- Entry (k, n) of the transposed codebook is code n's channel k. -/
theorem V_cbT_at (c : Dev nD) (k : Fin 10) (n : Fin 1024) :
    (V m c main_v2 : S10x1024.Idx → EReal) (ix2 k n) = Cert.RefEnt.cbr (m ((c : Thread nD τ).loc main_arg1)) n k := by
  rw [V_cbT]
  unfold Cert.RefEnt.cbr
  refine transpose_apply [1, 0] _ transposes_S1024x10_S10x1024_1_0 _ _ (fun b => ?_)
  match b with
  | ⟨0, _⟩ => rfl
  | ⟨1, _⟩ => rfl

/-- Window 0's block index at point t is (t, 0); window 1's is (0, 0). -/
theorem idx_facts : ∀ t : Fin cfg0.N, (win0_0.index t (0 : Fin 2)) = t.val ∧ (win0_0.index t (1 : Fin 2)) = 0
    ∧ (win0_1.index t (0 : Fin 2)) = 0 ∧ (win0_1.index t (1 : Fin 2)) = 0 :=
  (by decide +kernel : ∀ t : Fin grid0.N, (win0_0.index t (0 : Fin 2)) = t.val ∧ (win0_0.index t (1 : Fin 2)) = 0
    ∧ (win0_1.index t (0 : Fin 2)) = 0 ∧ (win0_1.index t (1 : Fin 2)) = 0)

/-- The row of the whole array that is row p of the block at point t. -/
def rowOf (t : Fin cfg0.N) (p : Fin 1024) : Fin 65536 :=
  ⟨1024 * t.val + p.val, by have := lt_of_lt_of_eq t.isLt (show cfg0.N = 64 from N_0); have := p.isLt; omega⟩

/-- The rows block at point t, entry (p, k): channel k of row 1024·t + p. -/
theorem iblk0_at (c : Dev nD) (t : Fin cfg0.N) (p : Fin 1024) (k : Fin 10) :
    (iblk m c 0 t : S1024x10.Idx → EReal) (ix2 p k) = Cert.RefEnt.zr (m ((c : Thread nD τ).loc main_arg0)) (rowOf t p) k := by
  rw [← V_rows_at m c (rowOf t p) k]
  show (V m c main_v1 : S65536x10.Idx → EReal) (((cfg0.win 0).blk t).view.emb (ix2 p k)) = _
  congr 1
  funext a
  refine Fin.ext ?_
  obtain ⟨h0, h1, -, -⟩ := idx_facts t
  match a with
  | ⟨0, _⟩ =>
    show win0_0.index t (0 : Fin 2) * 1024 + 1 * p.val = 1024 * t.val + p.val
    rw [h0]; omega
  | ⟨1, _⟩ =>
    show win0_0.index t (1 : Fin 2) * 10 + 1 * k.val = k.val
    rw [h1]; omega

/-- The codebook block, entry (k, n): channel k of code n. -/
theorem iblk1_at (c : Dev nD) (t : Fin cfg0.N) (k : Fin 10) (n : Fin 1024) :
    (iblk m c 1 t : S10x1024.Idx → EReal) (ix2 k n) = Cert.RefEnt.cbr (m ((c : Thread nD τ).loc main_arg1)) n k := by
  rw [← V_cbT_at m c k n]
  show (V m c main_v2 : S10x1024.Idx → EReal) (((cfg0.win 1).blk t).view.emb (ix2 k n)) = _
  congr 1
  funext a
  refine Fin.ext ?_
  obtain ⟨-, -, h0, h1⟩ := idx_facts t
  match a with
  | ⟨0, _⟩ =>
    show win0_1.index t (0 : Fin 2) * 10 + 1 * k.val = k.val
    rw [h0]; omega
  | ⟨1, _⟩ =>
    show win0_1.index t (1 : Fin 2) * 1024 + 1 * n.val = n.val
    rw [h1]; omega

end Cert.KernelIdeal.Hand

end
-- ==== Proof.KIAcc.lean ====
/-
  The accumulators along a core's run.

  At the first of a core's 32 points the body adds the block's totals to zero; at each later point it adds them to
  what the point before left. So r steps into run q the scalar accumulator holds the sum of the entropy totals of
  blocks 32·q … 32·q + r, and lane n of the lane accumulator the sum of those blocks' column sums of the softmax
  at code n. A block's totals are sums over its 1024 rows of the specification's row functions.
-/
import proofs.«149547_j42202348650760_2_alg».proof.Proof.KIPieces
import proofs.«149547_j42202348650760_2_alg».proof.Proof.KIPay
import proofs.«149547_j42202348650760_2_alg».proof.Proof.KIBlocks

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx
open Idealize.SL.Sem
open scoped BigOperators

variable (m : (ℓ : Loc nD τ sig) → Buf (Elt Ideal) ℓ)

/-- z's rows and the codebook's rows on core c. -/
abbrev zrA (c : Dev nD) : Fin 65536 → Fin 10 → EReal := Cert.RefEnt.zr (m ((c : Thread nD τ).loc main_arg0))
abbrev cbA (c : Dev nD) : Fin 1024 → Fin 10 → EReal := Cert.RefEnt.cbr (m ((c : Thread nD τ).loc main_arg1))

theorem hN64 : cfg0.N = 64 := N_0

/-- Block n's total of p · log p over its 1024 rows (0 past the grid). -/
def blkEnt (c : Dev nD) (n : ℕ) : EReal :=
  if h : n < cfg0.N then ∑ p : Fin 1024, Cert.Spec.rowEnt (zrA m c) (cbA m c) (rowOf ⟨n, h⟩ p) else 0
/-- Block n's column sum of the softmax at code k (0 past the grid). -/
def blkCol (c : Dev nD) (k : Fin 1024) (n : ℕ) : EReal :=
  if h : n < cfg0.N then ∑ p : Fin 1024, Cert.Spec.prob (zrA m c) (cbA m c) (rowOf ⟨n, h⟩ p) k else 0
/-- The scalar accumulator after position n, at its one index. -/
def acc2 (c : Dev nD) (j : S1x1x1.Idx) (n : ℕ) : EReal := if h : n < cfg0.N then (outsAt0 m c n h).1 j else 0
/-- Lane k of the lane accumulator after position n. -/
def acc3 (c : Dev nD) (a b : Fin 1) (k : Fin 1024) (n : ℕ) : EReal := if h : n < cfg0.N then (outsAt0 m c n h).2 (ix3 a b k) else 0

/-- The zero splats are zero. -/
theorem pay2_zero (j : S1x1x1.Idx) : k0_pay2 (F := Ideal) j = 0 := by
  unfold k0_pay2
  rw [broadcast_apply]
  exact Cert.RefEnt.word_zero
theorem pay3_zero (j : S1x1x1024.Idx) : k0_pay3 (F := Ideal) j = 0 := by
  unfold k0_pay3
  rw [broadcast_apply]
  exact Cert.RefEnt.word_zero

/-- A first point of a run: zero plus the block's totals. -/
theorem outs_first (c : Dev nD) (t : Fin cfg0.N) (h0 : t.val % 32 = 0) :
    (∀ j, (outsAt0 m c t.val t.isLt).1 j = 0 + blkEnt m c t.val)
    ∧ ∀ (a b : Fin 1) (k : Fin 1024), (outsAt0 m c t.val t.isLt).2 (ix3 a b k) = 0 + blkCol m c k t.val := by
  rw [outsAt0_A m c t h0]
  dsimp only
  rw [out0_A_2_eq, out0_A_3_eq]
  unfold blkEnt blkCol
  rw [dif_pos t.isLt]
  constructor
  · intro j
    rw [pay9_at (zrA m c) (cbA m c) _ _ (rowOf t) (iblk0_at m c t) (iblk1_at m c t) _ j, pay2_zero]
  · intro a b k
    rw [dif_pos t.isLt, pay1_at _ _ a b k, pay3_zero]
    congr 1
    exact Finset.sum_congr rfl fun p _ => pay8_at (zrA m c) (cbA m c) _ _ (rowOf t) (iblk0_at m c t) (iblk1_at m c t) p k

/-- A later point of a run: what the point before left plus the block's totals. -/
theorem outs_later (c : Dev nD) (t : Fin cfg0.N) (h0 : ¬t.val % 32 = 0) :
    (∀ j, (outsAt0 m c t.val t.isLt).1 j
        = (outsAt0 m c (t.val - 1) (Nat.lt_of_le_of_lt (Nat.sub_le _ _) t.isLt)).1 j + blkEnt m c t.val)
    ∧ ∀ (a b : Fin 1) (k : Fin 1024), (outsAt0 m c t.val t.isLt).2 (ix3 a b k)
        = (outsAt0 m c (t.val - 1) (Nat.lt_of_le_of_lt (Nat.sub_le _ _) t.isLt)).2 (ix3 a b k) + blkCol m c k t.val := by
  rw [outsAt0_B m c t h0]
  dsimp only
  rw [out0_B_2_eq, out0_B_3_eq]
  unfold blkEnt blkCol
  rw [dif_pos t.isLt]
  constructor
  · intro j
    rw [pay9_at (zrA m c) (cbA m c) _ _ (rowOf t) (iblk0_at m c t) (iblk1_at m c t) _ j]
  · intro a b k
    rw [dif_pos t.isLt, pay1_at _ _ a b k]
    congr 1
    exact Finset.sum_congr rfl fun p _ => pay8_at (zrA m c) (cbA m c) _ _ (rowOf t) (iblk0_at m c t) (iblk1_at m c t) p k

/-- r steps into run q the scalar accumulator holds that run's first r + 1 entropy totals. -/
theorem acc2_run (c : Dev nD) (j : S1x1x1.Idx) : ∀ q r, r < 32 → 32 * q + r < 64 →
    acc2 m c j (32 * q + r) = ∑ k ∈ Finset.range (r + 1), blkEnt m c (32 * q + k) := by
  refine Cert.LibTotals.restart_acc 32 64 (blkEnt m c) (acc2 m c j) (fun h => ?_) (fun n hn hm => ?_) (fun n hn hm => ?_)
  · have h64 : 0 < cfg0.N := by rw [hN64]; omega
    unfold acc2; rw [dif_pos h64]
    exact (outs_first m c ⟨0, h64⟩ (Nat.zero_mod _)).1 j
  · have h64 : n + 1 < cfg0.N := by rw [hN64]; exact hn
    unfold acc2; rw [dif_pos h64]
    exact (outs_first m c ⟨n + 1, h64⟩ hm).1 j
  · have h64 : n + 1 < cfg0.N := by rw [hN64]; exact hn
    have h64' : n < cfg0.N := by omega
    unfold acc2; rw [dif_pos h64, dif_pos h64']
    exact (outs_later m c ⟨n + 1, h64⟩ hm).1 j

/-- The same for lane k of the lane accumulator. -/
theorem acc3_run (c : Dev nD) (a b : Fin 1) (k : Fin 1024) : ∀ q r, r < 32 → 32 * q + r < 64 →
    acc3 m c a b k (32 * q + r) = ∑ i ∈ Finset.range (r + 1), blkCol m c k (32 * q + i) := by
  refine Cert.LibTotals.restart_acc 32 64 (blkCol m c k) (acc3 m c a b k) (fun h => ?_) (fun n hn hm => ?_) (fun n hn hm => ?_)
  · have h64 : 0 < cfg0.N := by rw [hN64]; omega
    unfold acc3; rw [dif_pos h64]
    exact (outs_first m c ⟨0, h64⟩ (Nat.zero_mod _)).2 a b k
  · have h64 : n + 1 < cfg0.N := by rw [hN64]; exact hn
    unfold acc3; rw [dif_pos h64]
    exact (outs_first m c ⟨n + 1, h64⟩ hm).2 a b k
  · have h64 : n + 1 < cfg0.N := by rw [hN64]; exact hn
    have h64' : n < cfg0.N := by omega
    unfold acc3; rw [dif_pos h64, dif_pos h64']
    exact (outs_later m c ⟨n + 1, h64⟩ hm).2 a b k

end Cert.KernelIdeal.Hand

end
-- ==== Proof.KIArr.lean ====
/-
  The two result arrays of the region after the run.

  Each core's accumulators are written back once, after the core's 32nd point, into block (core, 0, 0) of the
  arrays [2, 1, 1] and [2, 1, 1024]. So entry (q, 0, 0) of the first array is the sum of the entropy totals of
  blocks 32·q … 32·q + 31, and entry (q, 0, n) of the second the sum of those blocks' column sums of the softmax at
  code n. The two blocks cover the arrays. Summed over the two cores these are the totals over all 65536 rows.
-/
import proofs.«149547_j42202348650760_2_alg».proof.Proof.KIAcc
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ)

/-- The output windows' block index at point t is (t / 32, 0, 0). -/
theorem idx_facts_out : ∀ t : Fin cfg0.N, win0_2.index t (0 : Fin 3) = t.val / 32 ∧ win0_2.index t (1 : Fin 3) = 0
    ∧ win0_2.index t (2 : Fin 3) = 0 ∧ win0_3.index t (0 : Fin 3) = t.val / 32 ∧ win0_3.index t (1 : Fin 3) = 0
    ∧ win0_3.index t (2 : Fin 3) = 0 :=
  (by decide +kernel : ∀ t : Fin grid0.N, win0_2.index t (0 : Fin 3) = t.val / 32 ∧ win0_2.index t (1 : Fin 3) = 0
    ∧ win0_2.index t (2 : Fin 3) = 0 ∧ win0_3.index t (0 : Fin 3) = t.val / 32 ∧ win0_3.index t (1 : Fin 3) = 0
    ∧ win0_3.index t (2 : Fin 3) = 0)

/-- What the first result array ends holding: per core, the sum of its 32 blocks' entropy totals. -/
def G2 (c : Dev nD) : S2x1x1.Idx → EReal := fun i => ∑ k ∈ Finset.range 32, blkEnt m c (32 * (i 0).val + k)
/-- What the second ends holding: per core and code, the sum of its 32 blocks' column sums. -/
def G3 (c : Dev nD) : S2x1x1024.Idx → EReal := fun i =>
  ∑ k ∈ Finset.range 32, blkCol m c (⟨(i 2).val, (i 2).isLt⟩ : Fin 1024) (32 * (i 0).val + k)

theorem acc2_at (c : Dev nD) (j : S1x1x1.Idx) (t : Fin cfg0.N) : acc2 m c j t.val = (outsAt0 m c t.val t.isLt).1 j := dif_pos t.isLt
theorem acc3_at (c : Dev nD) (a b : Fin 1) (k : Fin 1024) (t : Fin cfg0.N) :
    acc3 m c a b k t.val = (outsAt0 m c t.val t.isLt).2 (ix3 a b k) := dif_pos t.isLt

/-- What a core's last point writes back is its block of G2. -/
theorem flushed2_eq (c : Dev nD) (t : Fin cfg0.N) (hf : (cfg0.win 2).flush t = true) :
    (dats m 0 c).flushed 2 t = ((cfg0.win 2).blk t).view.read (Elt Ideal) (G2 m c) := by
  show (cfg0.win 2).cut (grid0.coords t) ((dats m 0 c).after 2 t) = _
  rw [after0_2]
  have ht : t.val % 32 = 31 := (flush0_2 t).mp hf
  have hN : t.val < 64 := lt_of_lt_of_eq t.isLt hN64
  obtain ⟨e0, -, -, -, -, -⟩ := idx_facts_out t
  funext y
  have hy : (y 0).val = 0 := by have h1 : (y 0).val < 1 := (y 0).isLt; omega
  show (outsAt0 m c t.val t.isLt).1 y = G2 m c (((cfg0.win 2).blk t).view.emb y)
  have e : t.val = 32 * (t.val / 32) + 31 := by omega
  calc (outsAt0 m c t.val t.isLt).1 y = acc2 m c y t.val := (acc2_at m c y t).symm
    _ = acc2 m c y (32 * (t.val / 32) + 31) := congrArg (acc2 m c y) e
    _ = ∑ k ∈ Finset.range 32, blkEnt m c (32 * (t.val / 32) + k) := acc2_run m c y (t.val / 32) 31 (by omega) (by omega)
    _ = G2 m c (((cfg0.win 2).blk t).view.emb y) := by
      unfold G2
      have h0 : ((((cfg0.win 2).blk t).view.emb y) 0).val = t.val / 32 := by
        show win0_2.index t (0 : Fin 3) * 1 + 1 * (y 0).val = t.val / 32
        rw [e0, hy]; omega
      rw [h0]

/-- The same for the lane accumulator. -/
theorem flushed3_eq (c : Dev nD) (t : Fin cfg0.N) (hf : (cfg0.win 3).flush t = true) :
    (dats m 0 c).flushed 3 t = ((cfg0.win 3).blk t).view.read (Elt Ideal) (G3 m c) := by
  show (cfg0.win 3).cut (grid0.coords t) ((dats m 0 c).after 3 t) = _
  rw [after0_3]
  have ht : t.val % 32 = 31 := (flush0_3 t).mp hf
  have hN : t.val < 64 := lt_of_lt_of_eq t.isLt hN64
  obtain ⟨-, -, -, e0, -, e2⟩ := idx_facts_out t
  funext y
  have hy0 : (y 0).val = 0 := by have h1 : (y 0).val < 1 := (y 0).isLt; omega
  obtain ⟨a, b, k, rfl⟩ : ∃ (a b : Fin 1) (k : Fin 1024), y = ix3 a b k := ⟨y 0, y 1, y 2, eq_ix3 y⟩
  show (outsAt0 m c t.val t.isLt).2 (ix3 a b k) = G3 m c (((cfg0.win 3).blk t).view.emb (ix3 a b k))
  have e : t.val = 32 * (t.val / 32) + 31 := by omega
  calc (outsAt0 m c t.val t.isLt).2 (ix3 a b k) = acc3 m c a b k t.val := (acc3_at m c a b k t).symm
    _ = acc3 m c a b k (32 * (t.val / 32) + 31) := congrArg (acc3 m c a b k) e
    _ = ∑ i ∈ Finset.range 32, blkCol m c k (32 * (t.val / 32) + i) := acc3_run m c a b k (t.val / 32) 31 (by omega) (by omega)
    _ = G3 m c (((cfg0.win 3).blk t).view.emb (ix3 a b k)) := by
      unfold G3
      have h0 : ((((cfg0.win 3).blk t).view.emb (ix3 a b k)) 0).val = t.val / 32 := by
        show win0_3.index t (0 : Fin 3) * 1 + 1 * ((ix3 a b k : S1x1x1024.Idx) 0).val = t.val / 32
        rw [e0]; have := a.isLt; show t.val / 32 * 1 + 1 * a.val = _; omega
      have h2 : (⟨((((cfg0.win 3).blk t).view.emb (ix3 a b k)) 2).val, ((((cfg0.win 3).blk t).view.emb (ix3 a b k)) 2).isLt⟩ : Fin 1024) = k := by
        refine Fin.ext ?_
        show win0_3.index t (2 : Fin 3) * 1024 + 1 * k.val = k.val
        rw [e2]; omega
      rw [h0, h2]

/-- An index is in point t's block iff each coordinate is in the block's range. -/
theorem mem_blk2 (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v3_0).slice (win0_2.rect t)).set ↔ _
  rw [View.set_slice_whole, Rect.mem_set_unit]
  exact Iff.rfl
theorem mem_blk3 (t : Fin cfg0.N) (i : S2x1x1024.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v3_1).slice (win0_3.rect t)).set ↔ _
  rw [View.set_slice_whole, Rect.mem_set_unit]
  exact Iff.rfl

/-- Core q's last point is 32·q + 31. -/
def lastPt (q : ℕ) (hq : q < 2) : Fin cfg0.N := ⟨32 * q + 31, by rw [hN64]; omega⟩

theorem cover2 (i : S2x1x1.Idx) : ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 1 := (i 2).isLt
  refine ⟨lastPt (i 0).val h0, (flush0_2 _).mpr (by show (32 * (i 0).val + 31) % 32 = 31; omega), ?_⟩
  rw [mem_blk2]
  obtain ⟨e0, e1, e2, -, -, -⟩ := idx_facts_out (lastPt (i 0).val h0)
  have ev : (lastPt (i 0).val h0).val = 32 * (i 0).val + 31 := rfl
  intro a
  match a with
  | ⟨0, _⟩ => show win0_2.index _ (0 : Fin 3) * 1 ≤ (i 0).val ∧ (i 0).val < win0_2.index _ (0 : Fin 3) * 1 + 1; rw [e0, ev]; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 1 ≤ (i 2).val ∧ (i 2).val < win0_2.index _ (2 : Fin 3) * 1 + 1; rw [e2]; omega

theorem cover3 (i : S2x1x1024.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1024 := (i 2).isLt
  refine ⟨lastPt (i 0).val h0, (flush0_3 _).mpr (by show (32 * (i 0).val + 31) % 32 = 31; omega), ?_⟩
  rw [mem_blk3]
  obtain ⟨-, -, -, e0, e1, e2⟩ := idx_facts_out (lastPt (i 0).val h0)
  have ev : (lastPt (i 0).val h0).val = 32 * (i 0).val + 31 := rfl
  intro a
  match a with
  | ⟨0, _⟩ => show win0_3.index _ (0 : Fin 3) * 1 ≤ (i 0).val ∧ (i 0).val < win0_3.index _ (0 : Fin 3) * 1 + 1; rw [e0, ev]; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 1024 ≤ (i 2).val ∧ (i 2).val < win0_3.index _ (2 : Fin 3) * 1024 + 1024; rw [e2]; omega

/-- The arrays after the run. -/
theorem final2 (c : Dev nD) : (dats m 0 c).arrAt 2 cfg0.N = G2 m c :=
  (dats m 0 c).arrAt_eq_of_cover 2 (G2 m c) (fun t hf => flushed2_eq m c t hf) (cover2)
theorem final3 (c : Dev nD) : (dats m 0 c).arrAt 3 cfg0.N = G3 m c :=
  (dats m 0 c).arrAt_eq_of_cover 3 (G3 m c) (fun t hf => flushed3_eq m c t hf) (cover3)

end Cert.KernelIdeal.Hand

end
-- ==== Proof.KITotals.lean ====
/-
  The two facts the host lines after the region need about the region's result arrays: the first array's entries
  add up to the specification's total of p · log p over all 65536 rows, and at every code n the two cores' entries of
  the second add up to the column sum of the softmax over all rows. Both are regroupings of finite sums: two runs
  of 32 blocks are the 64 blocks, and 64 blocks of 1024 rows are the 65536 rows (row 1024·t + p is row p of block t).
-/
import proofs.«149547_j42202348650760_2_alg».proof.Proof.KIArr

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ)

/-- Two runs of 32 are the 64 positions. -/
theorem sum_runs (f : ℕ → EReal) :
    (∑ k ∈ Finset.range 32, f (32 * 0 + k)) + (∑ k ∈ Finset.range 32, f (32 * 1 + k)) = ∑ j : Fin 64, f j.val := by
  have h := Cert.LibTotals.sum_blocks_nat 2 32 f
  rw [Fin.sum_univ_two] at h
  rw [← h, Finset.sum_range, Finset.sum_range]
  congr 1 <;> exact Finset.sum_congr rfl fun k _ => congrArg f (by simp; omega)

/-- A function of the rows summed block by block is its sum over all rows. -/
theorem sum_rows (g : Fin 65536 → EReal) :
    (∑ j : Fin 64, ∑ p : Fin 1024, g ⟨1024 * j.val + p.val, by have := j.isLt; have := p.isLt; omega⟩) = ∑ r : Fin 65536, g r := by
  have h := Cert.LibTotals.sum_blocks_nat 64 1024 (fun n => if hn : n < 65536 then g ⟨n, hn⟩ else 0)
  have e : (∑ r : Fin (64 * 1024), (fun n => if hn : n < 65536 then g ⟨n, hn⟩ else 0) r.val) = ∑ r : Fin 65536, g r :=
    Finset.sum_congr rfl fun r _ => dif_pos r.isLt
  rw [← e, ← h]
  refine Finset.sum_congr rfl fun j _ => Finset.sum_congr rfl fun p _ => ?_
  have hlt : p.val + 1024 * j.val < 65536 := by have := j.isLt; have := p.isLt; omega
  show _ = (if hn : p.val + 1024 * j.val < 65536 then g ⟨p.val + 1024 * j.val, hn⟩ else 0)
  rw [dif_pos hlt]
  exact congrArg g (Fin.ext (by show 1024 * j.val + p.val = p.val + 1024 * j.val; omega))

/-- Block j's totals, for j on the grid. -/
theorem blkEnt_at (c : Dev nD) (j : Fin 64) :
    blkEnt m c j.val = ∑ p : Fin 1024, Cert.Spec.rowEnt (zrA m c) (cbA m c) ⟨1024 * j.val + p.val, by have := j.isLt; have := p.isLt; omega⟩ := by
  unfold blkEnt
  rw [dif_pos (lt_of_lt_of_eq j.isLt hN64.symm)]
  rfl
theorem blkCol_at (c : Dev nD) (k : Fin 1024) (j : Fin 64) :
    blkCol m c k j.val = ∑ p : Fin 1024, Cert.Spec.prob (zrA m c) (cbA m c) ⟨1024 * j.val + p.val, by have := j.isLt; have := p.isLt; omega⟩ k := by
  unfold blkCol
  rw [dif_pos (lt_of_lt_of_eq j.isLt hN64.symm)]
  rfl

/-- The first result array's entries add up to the total over all rows. -/
theorem sum_G2 (c : Dev nD) : ∑ j : S2x1x1.Idx, G2 m c j = Cert.Spec.totalEnt (zrA m c) (cbA m c) := by
  rw [Cert.LibTotals.sum_idx3 (n0 := 2) (n1 := 1) (n2 := 1), Fin.sum_univ_two]
  simp only [Fin.sum_univ_one]
  show (∑ k ∈ Finset.range 32, blkEnt m c (32 * 0 + k)) + (∑ k ∈ Finset.range 32, blkEnt m c (32 * 1 + k)) = _
  rw [sum_runs]
  unfold Cert.Spec.totalEnt
  rw [← sum_rows (fun r => Cert.Spec.rowEnt (zrA m c) (cbA m c) r)]
  exact Finset.sum_congr rfl fun j _ => blkEnt_at m c j

/-- At every code the two cores' entries of the second add up to the column sum over all rows. -/
theorem sum_G3 (c : Dev nD) (n : Fin 1024) :
    G3 m c (ix3 (0 : Fin 2) (0 : Fin 1) n) + G3 m c (ix3 (1 : Fin 2) (0 : Fin 1) n) = Cert.Spec.colProb (zrA m c) (cbA m c) n := by
  show (∑ k ∈ Finset.range 32, blkCol m c n (32 * 0 + k)) + (∑ k ∈ Finset.range 32, blkCol m c n (32 * 1 + k)) = _
  rw [sum_runs]
  unfold Cert.Spec.colProb
  rw [← sum_rows (fun r => Cert.Spec.prob (zrA m c) (cbA m c) r n)]
  exact Finset.sum_congr rfl fun j _ => blkCol_at m c n j

end Cert.KernelIdeal.Hand

end
-- ==== Proof.HostAKeep.lean ====
/-
  The host lines that follow the kernel's region come in seventeen stretches. For each stretch: the list of the
  buffers it writes, and hence that any other buffer holds after the stretch what it held before. Running the
  stretches one after the other is running their concatenation.
-/
import proofs.«149547_j42202348650760_2_alg».proof.Proof.Gen.KernelIdeal.Launch
import Idealize.ShloMosaic.Lib.Pipeline.Frame
import Idealize.ShloMosaic.Lib.StableHlo.Run

set_option maxRecDepth 16384

noncomputable section

namespace Cert.HostA

open Cert.KernelIdeal Cert.KernelIdeal.Gen
open Idealize.ShloMosaic Idealize.ShloMosaic.TcCoe Idealize.ShloMosaic.StableHlo

/-- The lines of a list of stretches, run in order, are the stretches run in order. -/
theorem after_flatten_cons {Val : EltTy → Type} (l : List (HloOp τ sig Val)) (L : List (List (HloOp τ sig Val)))
    (V : Valuation τ sig Val) :
    StableHlo.after (List.flatten (l :: L)) V = StableHlo.after (List.flatten L) (StableHlo.after l V) := by
  rw [List.flatten_cons, StableHlo.after_append]

/-- The buffers stretch 0 writes. -/
abbrev wr0 : List (Ref sig .tc) := [main_cst, main_v4, main_cst_0, main_v5, main_v6, main_cst_1, main_v7, main_v8, main_cst_2, main_v9, main_v10, main_cst_3, main_v11, main_v12, main_v13, main_v14, main_cst_4, main_v15, main_v16, main_cst_5, main_v17, main_v18, main_cst_6, main_v19, main_cst_7, main_v20, main_v21, main_cst_8, main_cst_9]
theorem writes0 : (hostOps1 (F := Ideal)).Forall fun op => op.writes ⊆ ((wr0).map (Proc.devRef (τ := τ) .tc)).toFinset := by
  simp only [List.Forall, wr0, nullary_writes, unary_writes, binary_writes, ternary_writes, reshape_writes, Finset.singleton_subset_iff, List.mem_toFinset, List.map_cons, List.map_nil, List.mem_cons, true_or, or_true, and_self]
/-- Any other buffer is left as it was. -/
theorem keep0 (V : Valuation τ sig (Elt Ideal)) (r : Ref sig .tc) (hr : r ∉ wr0) :
    StableHlo.after (hostOps1 (F := Ideal)) V (Proc.devRef .tc r) = V (Proc.devRef .tc r) :=
  after_of_writes_sub _ V writes0 hr

/-- The buffers stretch 1 writes. -/
abbrev wr1 : List (Ref sig .tc) := [main_call0_v0, main_call0_v1, main_v22]
theorem writes1 : (hostOps1_1 (F := Ideal)).Forall fun op => op.writes ⊆ ((wr1).map (Proc.devRef (τ := τ) .tc)).toFinset := by
  simp only [List.Forall, wr1, nullary_writes, unary_writes, binary_writes, ternary_writes, reshape_writes, Finset.singleton_subset_iff, List.mem_toFinset, List.map_cons, List.map_nil, List.mem_cons, true_or, or_true, and_self]
/-- Any other buffer is left as it was. -/
theorem keep1 (V : Valuation τ sig (Elt Ideal)) (r : Ref sig .tc) (hr : r ∉ wr1) :
    StableHlo.after (hostOps1_1 (F := Ideal)) V (Proc.devRef .tc r) = V (Proc.devRef .tc r) :=
  after_of_writes_sub _ V writes1 hr

/-- The buffers stretch 2 writes. -/
abbrev wr2 : List (Ref sig .tc) := [main_v23, main_v24, main_v25, main_cst_10, main_v26, main_cst_11, main_v27, main_cst_12, main_v28, main_v29, main_v30, main_c, main_c_13, main_v31, main_c_14, main_v32, main_v33, main_v34, main_v35, main_c_15, main_c_16]
theorem writes2 : (hostOps1_2 (F := Ideal)).Forall fun op => op.writes ⊆ ((wr2).map (Proc.devRef (τ := τ) .tc)).toFinset := by
  simp only [List.Forall, wr2, nullary_writes, unary_writes, binary_writes, ternary_writes, reshape_writes, Finset.singleton_subset_iff, List.mem_toFinset, List.map_cons, List.map_nil, List.mem_cons, true_or, or_true, and_self]
/-- Any other buffer is left as it was. -/
theorem keep2 (V : Valuation τ sig (Elt Ideal)) (r : Ref sig .tc) (hr : r ∉ wr2) :
    StableHlo.after (hostOps1_2 (F := Ideal)) V (Proc.devRef .tc r) = V (Proc.devRef .tc r) :=
  after_of_writes_sub _ V writes2 hr

/-- The buffers stretch 3 writes. -/
abbrev wr3 : List (Ref sig .tc) := [main_call1_v0, main_call1_v1, main_v36]
theorem writes3 : (hostOps1_3 (F := Ideal)).Forall fun op => op.writes ⊆ ((wr3).map (Proc.devRef (τ := τ) .tc)).toFinset := by
  simp only [List.Forall, wr3, nullary_writes, unary_writes, binary_writes, ternary_writes, reshape_writes, Finset.singleton_subset_iff, List.mem_toFinset, List.map_cons, List.map_nil, List.mem_cons, true_or, or_true, and_self]
/-- Any other buffer is left as it was. -/
theorem keep3 (V : Valuation τ sig (Elt Ideal)) (r : Ref sig .tc) (hr : r ∉ wr3) :
    StableHlo.after (hostOps1_3 (F := Ideal)) V (Proc.devRef .tc r) = V (Proc.devRef .tc r) :=
  after_of_writes_sub _ V writes3 hr

/-- The buffers stretch 4 writes. -/
abbrev wr4 : List (Ref sig .tc) := [main_c_17, main_v37, main_v38, main_c_18, main_v39, main_v40]
theorem writes4 : (hostOps1_4 (F := Ideal)).Forall fun op => op.writes ⊆ ((wr4).map (Proc.devRef (τ := τ) .tc)).toFinset := by
  simp only [List.Forall, wr4, nullary_writes, unary_writes, binary_writes, ternary_writes, reshape_writes, Finset.singleton_subset_iff, List.mem_toFinset, List.map_cons, List.map_nil, List.mem_cons, true_or, or_true, and_self]
/-- Any other buffer is left as it was. -/
theorem keep4 (V : Valuation τ sig (Elt Ideal)) (r : Ref sig .tc) (hr : r ∉ wr4) :
    StableHlo.after (hostOps1_4 (F := Ideal)) V (Proc.devRef .tc r) = V (Proc.devRef .tc r) :=
  after_of_writes_sub _ V writes4 hr

/-- The buffers stretch 5 writes. -/
abbrev wr5 : List (Ref sig .tc) := [main_call2_c, main_call2_v0, main_call2_v1, main_v41]
theorem writes5 : (hostOps1_5 (F := Ideal)).Forall fun op => op.writes ⊆ ((wr5).map (Proc.devRef (τ := τ) .tc)).toFinset := by
  simp only [List.Forall, wr5, nullary_writes, unary_writes, binary_writes, ternary_writes, reshape_writes, Finset.singleton_subset_iff, List.mem_toFinset, List.map_cons, List.map_nil, List.mem_cons, true_or, or_true, and_self]
/-- Any other buffer is left as it was. -/
theorem keep5 (V : Valuation τ sig (Elt Ideal)) (r : Ref sig .tc) (hr : r ∉ wr5) :
    StableHlo.after (hostOps1_5 (F := Ideal)) V (Proc.devRef .tc r) = V (Proc.devRef .tc r) :=
  after_of_writes_sub _ V writes5 hr

/-- The buffers stretch 6 writes. -/
abbrev wr6 : List (Ref sig .tc) := [main_c_19, main_c_20, main_v42, main_c_21, main_v43, main_v44, main_c_22, main_v45, main_v46, main_v47, main_v48]
theorem writes6 : (hostOps1_6 (F := Ideal)).Forall fun op => op.writes ⊆ ((wr6).map (Proc.devRef (τ := τ) .tc)).toFinset := by
  simp only [List.Forall, wr6, nullary_writes, unary_writes, binary_writes, ternary_writes, reshape_writes, Finset.singleton_subset_iff, List.mem_toFinset, List.map_cons, List.map_nil, List.mem_cons, true_or, or_true, and_self]
/-- Any other buffer is left as it was. -/
theorem keep6 (V : Valuation τ sig (Elt Ideal)) (r : Ref sig .tc) (hr : r ∉ wr6) :
    StableHlo.after (hostOps1_6 (F := Ideal)) V (Proc.devRef .tc r) = V (Proc.devRef .tc r) :=
  after_of_writes_sub _ V writes6 hr

/-- The buffers stretch 7 writes. -/
abbrev wr7 : List (Ref sig .tc) := [main_call3_c, main_call3_v0, main_call3_v1, main_v49]
theorem writes7 : (hostOps1_7 (F := Ideal)).Forall fun op => op.writes ⊆ ((wr7).map (Proc.devRef (τ := τ) .tc)).toFinset := by
  simp only [List.Forall, wr7, nullary_writes, unary_writes, binary_writes, ternary_writes, reshape_writes, Finset.singleton_subset_iff, List.mem_toFinset, List.map_cons, List.map_nil, List.mem_cons, true_or, or_true, and_self]
/-- Any other buffer is left as it was. -/
theorem keep7 (V : Valuation τ sig (Elt Ideal)) (r : Ref sig .tc) (hr : r ∉ wr7) :
    StableHlo.after (hostOps1_7 (F := Ideal)) V (Proc.devRef .tc r) = V (Proc.devRef .tc r) :=
  after_of_writes_sub _ V writes7 hr

/-- The buffers stretch 8 writes. -/
abbrev wr8 : List (Ref sig .tc) := [main_v50, main_c_23, main_v51, main_v52, main_c_24, main_v53, main_v54, main_v55, main_v56]
theorem writes8 : (hostOps1_8 (F := Ideal)).Forall fun op => op.writes ⊆ ((wr8).map (Proc.devRef (τ := τ) .tc)).toFinset := by
  simp only [List.Forall, wr8, nullary_writes, unary_writes, binary_writes, ternary_writes, reshape_writes, Finset.singleton_subset_iff, List.mem_toFinset, List.map_cons, List.map_nil, List.mem_cons, true_or, or_true, and_self]
/-- Any other buffer is left as it was. -/
theorem keep8 (V : Valuation τ sig (Elt Ideal)) (r : Ref sig .tc) (hr : r ∉ wr8) :
    StableHlo.after (hostOps1_8 (F := Ideal)) V (Proc.devRef .tc r) = V (Proc.devRef .tc r) :=
  after_of_writes_sub _ V writes8 hr

/-- The buffers stretch 9 writes. -/
abbrev wr9 : List (Ref sig .tc) := [main_call4_c, main_call4_v0, main_call4_v1, main_v57]
theorem writes9 : (hostOps1_9 (F := Ideal)).Forall fun op => op.writes ⊆ ((wr9).map (Proc.devRef (τ := τ) .tc)).toFinset := by
  simp only [List.Forall, wr9, nullary_writes, unary_writes, binary_writes, ternary_writes, reshape_writes, Finset.singleton_subset_iff, List.mem_toFinset, List.map_cons, List.map_nil, List.mem_cons, true_or, or_true, and_self]
/-- Any other buffer is left as it was. -/
theorem keep9 (V : Valuation τ sig (Elt Ideal)) (r : Ref sig .tc) (hr : r ∉ wr9) :
    StableHlo.after (hostOps1_9 (F := Ideal)) V (Proc.devRef .tc r) = V (Proc.devRef .tc r) :=
  after_of_writes_sub _ V writes9 hr

/-- The buffers stretch 10 writes. -/
abbrev wr10 : List (Ref sig .tc) := [main_v58, main_c_25, main_v59, main_v60, main_c_26, main_v61, main_v62, main_v63, main_v64]
theorem writes10 : (hostOps1_10 (F := Ideal)).Forall fun op => op.writes ⊆ ((wr10).map (Proc.devRef (τ := τ) .tc)).toFinset := by
  simp only [List.Forall, wr10, nullary_writes, unary_writes, binary_writes, ternary_writes, reshape_writes, Finset.singleton_subset_iff, List.mem_toFinset, List.map_cons, List.map_nil, List.mem_cons, true_or, or_true, and_self]
/-- Any other buffer is left as it was. -/
theorem keep10 (V : Valuation τ sig (Elt Ideal)) (r : Ref sig .tc) (hr : r ∉ wr10) :
    StableHlo.after (hostOps1_10 (F := Ideal)) V (Proc.devRef .tc r) = V (Proc.devRef .tc r) :=
  after_of_writes_sub _ V writes10 hr

/-- The buffers stretch 11 writes. -/
abbrev wr11 : List (Ref sig .tc) := [main_call5_c, main_call5_v0, main_call5_v1, main_v65]
theorem writes11 : (hostOps1_11 (F := Ideal)).Forall fun op => op.writes ⊆ ((wr11).map (Proc.devRef (τ := τ) .tc)).toFinset := by
  simp only [List.Forall, wr11, nullary_writes, unary_writes, binary_writes, ternary_writes, reshape_writes, Finset.singleton_subset_iff, List.mem_toFinset, List.map_cons, List.map_nil, List.mem_cons, true_or, or_true, and_self]
/-- Any other buffer is left as it was. -/
theorem keep11 (V : Valuation τ sig (Elt Ideal)) (r : Ref sig .tc) (hr : r ∉ wr11) :
    StableHlo.after (hostOps1_11 (F := Ideal)) V (Proc.devRef .tc r) = V (Proc.devRef .tc r) :=
  after_of_writes_sub _ V writes11 hr

/-- The buffers stretch 12 writes. -/
abbrev wr12 : List (Ref sig .tc) := [main_v66, main_c_27, main_v67, main_v68, main_c_28, main_v69, main_v70, main_v71, main_v72]
theorem writes12 : (hostOps1_12 (F := Ideal)).Forall fun op => op.writes ⊆ ((wr12).map (Proc.devRef (τ := τ) .tc)).toFinset := by
  simp only [List.Forall, wr12, nullary_writes, unary_writes, binary_writes, ternary_writes, reshape_writes, Finset.singleton_subset_iff, List.mem_toFinset, List.map_cons, List.map_nil, List.mem_cons, true_or, or_true, and_self]
/-- Any other buffer is left as it was. -/
theorem keep12 (V : Valuation τ sig (Elt Ideal)) (r : Ref sig .tc) (hr : r ∉ wr12) :
    StableHlo.after (hostOps1_12 (F := Ideal)) V (Proc.devRef .tc r) = V (Proc.devRef .tc r) :=
  after_of_writes_sub _ V writes12 hr

/-- The buffers stretch 13 writes. -/
abbrev wr13 : List (Ref sig .tc) := [main_call6_c, main_call6_v0, main_call6_v1, main_v73]
theorem writes13 : (hostOps1_13 (F := Ideal)).Forall fun op => op.writes ⊆ ((wr13).map (Proc.devRef (τ := τ) .tc)).toFinset := by
  simp only [List.Forall, wr13, nullary_writes, unary_writes, binary_writes, ternary_writes, reshape_writes, Finset.singleton_subset_iff, List.mem_toFinset, List.map_cons, List.map_nil, List.mem_cons, true_or, or_true, and_self]
/-- Any other buffer is left as it was. -/
theorem keep13 (V : Valuation τ sig (Elt Ideal)) (r : Ref sig .tc) (hr : r ∉ wr13) :
    StableHlo.after (hostOps1_13 (F := Ideal)) V (Proc.devRef .tc r) = V (Proc.devRef .tc r) :=
  after_of_writes_sub _ V writes13 hr

/-- The buffers stretch 14 writes. -/
abbrev wr14 : List (Ref sig .tc) := [main_v74, main_c_29, main_v75, main_v76, main_c_30, main_v77, main_v78, main_v79, main_v80]
theorem writes14 : (hostOps1_14 (F := Ideal)).Forall fun op => op.writes ⊆ ((wr14).map (Proc.devRef (τ := τ) .tc)).toFinset := by
  simp only [List.Forall, wr14, nullary_writes, unary_writes, binary_writes, ternary_writes, reshape_writes, Finset.singleton_subset_iff, List.mem_toFinset, List.map_cons, List.map_nil, List.mem_cons, true_or, or_true, and_self]
/-- Any other buffer is left as it was. -/
theorem keep14 (V : Valuation τ sig (Elt Ideal)) (r : Ref sig .tc) (hr : r ∉ wr14) :
    StableHlo.after (hostOps1_14 (F := Ideal)) V (Proc.devRef .tc r) = V (Proc.devRef .tc r) :=
  after_of_writes_sub _ V writes14 hr

/-- The buffers stretch 15 writes. -/
abbrev wr15 : List (Ref sig .tc) := [main_call7_c, main_call7_v0, main_call7_v1, main_v81]
theorem writes15 : (hostOps1_15 (F := Ideal)).Forall fun op => op.writes ⊆ ((wr15).map (Proc.devRef (τ := τ) .tc)).toFinset := by
  simp only [List.Forall, wr15, nullary_writes, unary_writes, binary_writes, ternary_writes, reshape_writes, Finset.singleton_subset_iff, List.mem_toFinset, List.map_cons, List.map_nil, List.mem_cons, true_or, or_true, and_self]
/-- Any other buffer is left as it was. -/
theorem keep15 (V : Valuation τ sig (Elt Ideal)) (r : Ref sig .tc) (hr : r ∉ wr15) :
    StableHlo.after (hostOps1_15 (F := Ideal)) V (Proc.devRef .tc r) = V (Proc.devRef .tc r) :=
  after_of_writes_sub _ V writes15 hr

/-- The buffers stretch 16 writes. -/
abbrev wr16 : List (Ref sig .tc) := [main_v82, main_c_31, main_v83, main_v84, main_v85, main_cst_32, main_v86, main_v87, main_v88, main_v89, main_v90, main_c_33, main_v91]
theorem writes16 : (hostOps1_16 (F := Ideal)).Forall fun op => op.writes ⊆ ((wr16).map (Proc.devRef (τ := τ) .tc)).toFinset := by
  simp only [List.Forall, wr16, nullary_writes, unary_writes, binary_writes, ternary_writes, reshape_writes, Finset.singleton_subset_iff, List.mem_toFinset, List.map_cons, List.map_nil, List.mem_cons, true_or, or_true, and_self]
/-- Any other buffer is left as it was. -/
theorem keep16 (V : Valuation τ sig (Elt Ideal)) (r : Ref sig .tc) (hr : r ∉ wr16) :
    StableHlo.after (hostOps1_16 (F := Ideal)) V (Proc.devRef .tc r) = V (Proc.devRef .tc r) :=
  after_of_writes_sub _ V writes16 hr

end Cert.HostA

end
-- ==== Proof.HostASign.lean ====
/-
  The sign-quantised array as the kernel program computes it: entry by entry, +1 where z is positive and −1 elsewhere.
  It is written by the host lines after the region, and no later line touches it.
-/
import proofs.«149547_j42202348650760_2_alg».proof.Proof.HostAKeep
import Idealize.ShloMosaic.PureOps.Ideal

set_option maxRecDepth 16384

noncomputable section

namespace Cert.HostA

open Cert.KernelIdeal Cert.KernelIdeal.Gen
open Idealize.ShloMosaic Idealize.ShloMosaic.TcCoe Idealize.ShloMosaic.StableHlo

/-- The kernel program's sign array of z: select (z > 0, 1, −1). -/
def signK (z : (⟨S64x10x32x32, .f32⟩ : BufTy).Contents (Elt Ideal)) : (⟨S64x10x32x32, .f32⟩ : BufTy).Contents (Elt Ideal) :=
  id (select (cmpf .ogt z (broadcastInDim S64x10x32x32 ![] bcast_S_S64x10x32x32 (constant (F := Ideal) S_ .f32 0x00000000#32)))
    (broadcastInDim S64x10x32x32 ![] bcast_S_S64x10x32x32 (constant (F := Ideal) S_ .f32 0x3F800000#32))
    (broadcastInDim S64x10x32x32 ![] bcast_S_S64x10x32x32 (constant (F := Ideal) S_ .f32 0xBF800000#32)))

/-- The comparison z > 0, as the first stretch leaves it. -/
theorem c0_v21 (V : Valuation τ sig (Elt Ideal)) :
    StableHlo.after (hostOps1 (F := Ideal)) V (Proc.devRef .tc main_v21)
      = cmpf .ogt (V (Proc.devRef .tc main_arg0)) (broadcastInDim S64x10x32x32 ![] bcast_S_S64x10x32x32 (constant (F := Ideal) S_ .f32 0x00000000#32)) := by
  after_results
theorem c0_cst8 (V : Valuation τ sig (Elt Ideal)) :
    StableHlo.after (hostOps1 (F := Ideal)) V (Proc.devRef .tc main_cst_8) = constant (F := Ideal) S_ .f32 0x3F800000#32 := by
  after_results
theorem c0_cst9 (V : Valuation τ sig (Elt Ideal)) :
    StableHlo.after (hostOps1 (F := Ideal)) V (Proc.devRef .tc main_cst_9) = constant (F := Ideal) S_ .f32 0xBF800000#32 := by
  after_results
/-- The selection, as the second stretch leaves it. -/
theorem c1_v22 (V : Valuation τ sig (Elt Ideal)) :
    StableHlo.after (hostOps1_1 (F := Ideal)) V (Proc.devRef .tc main_v22)
      = select (V (Proc.devRef .tc main_v21)) (broadcastInDim S64x10x32x32 ![] bcast_S_S64x10x32x32 (V (Proc.devRef .tc main_cst_8)))
          (broadcastInDim S64x10x32x32 ![] bcast_S_S64x10x32x32 (V (Proc.devRef .tc main_cst_9))) := by
  after_results
  rfl
theorem c2_v23 (V : Valuation τ sig (Elt Ideal)) :
    StableHlo.after (hostOps1_2 (F := Ideal)) V (Proc.devRef .tc main_v23) = id (V (Proc.devRef .tc main_v22)) := by
  after_results

/-- After the seventeen stretches, from any contents W, the quantised result is the sign array of what W holds at z. -/
theorem tail_v23 (W : Valuation τ sig (Elt Ideal)) :
    StableHlo.after (List.flatten [hostOps1 (F := Ideal), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) W (Proc.devRef .tc main_v23)
      = signK (W (Proc.devRef .tc main_arg0)) := by
  simp only [after_flatten_cons, List.flatten_nil, StableHlo.after_nil]
  rw [keep16 _ main_v23 (by decide), keep15 _ main_v23 (by decide), keep14 _ main_v23 (by decide), keep13 _ main_v23 (by decide),
    keep12 _ main_v23 (by decide), keep11 _ main_v23 (by decide), keep10 _ main_v23 (by decide), keep9 _ main_v23 (by decide),
    keep8 _ main_v23 (by decide), keep7 _ main_v23 (by decide), keep6 _ main_v23 (by decide), keep5 _ main_v23 (by decide),
    keep4 _ main_v23 (by decide), keep3 _ main_v23 (by decide)]
  rw [c2_v23, c1_v22, c0_v21, c0_cst8, c0_cst9]
  rfl

end Cert.HostA

end
-- ==== Proof.HostALaws.lean ====
/-
  Two facts about extended reals used where the reference re-derives the sign array through z itself:
  for a REAL x and any extended real b,  x + (b − x) = b,  hence  (x + (b − x)) − x = b − x.
  (For x infinite both fail: ⊤ + (b − ⊤) is ⊥ or ⊤, not b.)
-/
import Mathlib.Data.EReal.Basic
import Mathlib.Data.EReal.Operations

namespace Cert.HostA

/-- Adding back a real that was subtracted. -/
theorem coe_add_sub_cancel (x : ℝ) (b : EReal) : (x : EReal) + (b - (x : EReal)) = b := by
  induction b using EReal.rec with
  | bot => rw [EReal.bot_sub, EReal.add_bot]
  | coe r => rw [← EReal.coe_sub, ← EReal.coe_add]; congr 1; ring
  | top => rw [EReal.top_sub_coe, EReal.add_top_of_ne_bot (EReal.coe_ne_bot x)]

/-- The same with the real subtracted once more. -/
theorem coe_add_sub_sub (x : ℝ) (b : EReal) : ((x : EReal) + (b - (x : EReal))) - (x : EReal) = b - (x : EReal) := by
  rw [coe_add_sub_cancel]

end Cert.HostA
-- ==== Proof.HostAZq.lean ====
/-
  The quantised result of the two programs is one array. The kernel program selects +1 or −1 by the sign of z, entry by
  entry. The reference moves the channel axis last (zc), forms zc + (sign(zc) − zc) and moves the axis back; entry
  (b, c, h, w) of that is z + (s − z) with z the REAL entry of the argument at (b, c, h, w) and s its selected sign, which
  is s because z is real.
-/
import proofs.«149547_j42202348650760_2_alg».proof.Proof.HostASign
import proofs.«149547_j42202348650760_2_alg».proof.Proof.HostALaws
import proofs.«149547_j42202348650760_2_alg».proof.Proof.RefReadP

set_option maxRecDepth 16384

noncomputable section

namespace Cert.HostA

open Cert.KernelIdeal Cert.KernelIdeal.Gen
open Idealize.ShloMosaic Idealize.ShloMosaic.TcCoe Idealize.ShloMosaic.StableHlo
open Cert.ReferenceIdeal (ReadP.val_main_v113)

/-- Moving the channel axis last and back again returns every index to itself. -/
theorem chan_back (i : S64x10x32x32.Idx) :
    Cert.ReferenceIdeal.ReadP.idx_main_v0 (Cert.ReferenceIdeal.ReadP.idx_main_v113 i) = i :=
  funext fun a => Fin.ext (match a with
    | ⟨0, _⟩ => rfl
    | ⟨1, _⟩ => rfl
    | ⟨2, _⟩ => rfl
    | ⟨3, _⟩ => rfl)

/-- The kernel program's sign array is the reference's quantised result, when every entry of z is real. -/
theorem signK_eq_ref (z : (⟨S64x10x32x32, .f32⟩ : BufTy).Contents (Elt Ideal)) (hz : ∀ i, ∃ x : ℝ, z i = (x : EReal)) :
    signK z = Cert.ReferenceIdeal.ReadP.val_main_v113 (F := Ideal) z := by
  funext i
  obtain ⟨x, hx⟩ := hz i
  rw [Cert.ReferenceIdeal.ReadP.val_main_v113_apply, Cert.ReferenceIdeal.ReadP.val_main_v106_apply,
    Cert.ReferenceIdeal.ReadP.val_main_v105_apply, Cert.ReferenceIdeal.ReadP.val_main_v4_apply,
    Cert.ReferenceIdeal.ReadP.val_main_v3_apply, Cert.ReferenceIdeal.ReadP.val_main_v2_apply,
    Cert.ReferenceIdeal.ReadP.val_main_v0_apply, chan_back i, Cert.ReferenceIdeal.ReadP.val_main_v1_apply,
    Cert.ReferenceIdeal.ReadP.val_main_call0_v0_apply, Cert.ReferenceIdeal.ReadP.val_main_call0_v1_apply,
    Cert.ReferenceIdeal.ReadP.val_main_cst_apply, Cert.ReferenceIdeal.ReadP.val_main_cst_0_apply,
    Cert.ReferenceIdeal.ReadP.val_main_cst_1_apply]
  show Scalar.select (FloatOps.cmpf .ogt (z i) (FloatOps.ofBits (F := Ideal) .f32 0x00000000#32))
      (FloatOps.ofBits (F := Ideal) .f32 0x3F800000#32) (FloatOps.ofBits (F := Ideal) .f32 0xBF800000#32) = _
  generalize Scalar.select (FloatOps.cmpf .ogt (z i) (FloatOps.ofBits (F := Ideal) .f32 0x00000000#32))
      (FloatOps.ofBits (F := Ideal) .f32 0x3F800000#32) (FloatOps.ofBits (F := Ideal) .f32 0xBF800000#32) = b
  rw [hx]
  exact (coe_add_sub_cancel x b).symm

/-- The quantised result: after the host lines that follow the region, from any contents W holding z at the first
    argument, the kernel program's result is the reference's stage for its result, at the same z. -/
theorem zq_out (W : Valuation τ sig (Elt Ideal)) (z : (⟨S64x10x32x32, .f32⟩ : BufTy).Contents (Elt Ideal))
    (hW : W (Proc.devRef .tc main_arg0) = z) (hz : ∀ i, ∃ x : ℝ, z i = (x : EReal)) :
    StableHlo.after (List.flatten [hostOps1 (F := Ideal), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) W (Proc.devRef .tc main_v23)
      = Cert.ReferenceIdeal.ReadP.val_main_v113 (F := Ideal) z := by
  rw [tail_v23, hW, signK_eq_ref z hz]

end Cert.HostA

end
-- ==== Proof.HostACommitK.lean ====
/-
  The commitment loss as the kernel program computes it: a quarter of the mean, over all 655360 entries, of the
  squared difference between the sign array and z. It is written in the third stretch of host lines after the
  region and no later line touches it.
-/
import proofs.«149547_j42202348650760_2_alg».proof.Proof.HostASign

set_option maxRecDepth 16384

noncomputable section

namespace Cert.HostA

open Cert.KernelIdeal Cert.KernelIdeal.Gen
open Idealize.ShloMosaic Idealize.ShloMosaic.TcCoe Idealize.ShloMosaic.StableHlo

/-- The kernel program's commitment loss of z: 0.25 · (Σ (sign − z)²) / 655360. -/
def commitK (z : (⟨S64x10x32x32, .f32⟩ : BufTy).Contents (Elt Ideal)) : (⟨S_, .f32⟩ : BufTy).Contents (Elt Ideal) :=
  mulf (constant (F := Ideal) S_ .f32 0x3E800000#32)
    (Host.divf (Host.reduceAdd (mulf (subf (signK z) z) (subf (signK z) z)) (constant (F := Ideal) S_ .f32 0x00000000#32)
      reducesTo_S64x10x32x32_S_d0_1_2_3 h_S_) (constant (F := Ideal) S_ .f32 0x49200000#32))

/-- The third stretch computes it from the selection and z. -/
theorem c2_v28 (V : Valuation τ sig (Elt Ideal)) :
    StableHlo.after (hostOps1_2 (F := Ideal)) V (Proc.devRef .tc main_v28)
      = mulf (constant (F := Ideal) S_ .f32 0x3E800000#32)
          (Host.divf (Host.reduceAdd (mulf (subf (id (V (Proc.devRef .tc main_v22))) (V (Proc.devRef .tc main_arg0)))
              (subf (id (V (Proc.devRef .tc main_v22))) (V (Proc.devRef .tc main_arg0))))
            (constant (F := Ideal) S_ .f32 0x00000000#32) reducesTo_S64x10x32x32_S_d0_1_2_3 h_S_)
            (constant (F := Ideal) S_ .f32 0x49200000#32)) := by
  after_results

/-- After the seventeen stretches, from any contents W, the commitment loss is that of what W holds at z. -/
theorem tail_v28 (W : Valuation τ sig (Elt Ideal)) :
    StableHlo.after (List.flatten [hostOps1 (F := Ideal), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) W (Proc.devRef .tc main_v28)
      = commitK (W (Proc.devRef .tc main_arg0)) := by
  simp only [after_flatten_cons, List.flatten_nil, StableHlo.after_nil]
  rw [keep16 _ main_v28 (by decide), keep15 _ main_v28 (by decide), keep14 _ main_v28 (by decide), keep13 _ main_v28 (by decide), keep12 _ main_v28 (by decide), keep11 _ main_v28 (by decide), keep10 _ main_v28 (by decide), keep9 _ main_v28 (by decide), keep8 _ main_v28 (by decide), keep7 _ main_v28 (by decide), keep6 _ main_v28 (by decide), keep5 _ main_v28 (by decide), keep4 _ main_v28 (by decide), keep3 _ main_v28 (by decide)]
  rw [c2_v28, c1_v22, c0_v21, c0_cst8, c0_cst9, keep1 _ main_arg0 (by decide), keep0 _ main_arg0 (by decide)]
  rfl

end Cert.HostA

end
-- ==== Proof.HostACommit.lean ====
/-
  The commitment loss of the two programs is one number. Both are 0.25 · (Σ d²) / 655360 with d the difference between
  the sign array and z. The kernel program sums over the index set of z as given (channel axis second); the reference
  sums over the index set with the channel axis last, and writes each difference as (zc + (s − zc)) − zc. Moving the
  channel axis is a bijection of the two index sets, so the sums have the same terms in another order; and for a real
  zc the reference's difference is s − zc.
-/
import proofs.«149547_j42202348650760_2_alg».proof.Proof.HostACommitK
import proofs.«149547_j42202348650760_2_alg».proof.Proof.HostALaws
import proofs.«149547_j42202348650760_2_alg».proof.Proof.HostAZq
import proofs.«149547_j42202348650760_2_alg».proof.Proof.RefReadP
import Idealize.ShloMosaic.Lib.IdealHost

set_option maxRecDepth 16384

noncomputable section

open scoped BigOperators

namespace Cert.HostA

open Cert.KernelIdeal Cert.KernelIdeal.Gen
open Idealize.ShloMosaic Idealize.ShloMosaic.TcCoe Idealize.ShloMosaic.StableHlo Idealize.ShloMosaic.ValueIdx

/-- Moving the channel axis last, as a bijection between the two index sets. -/
def chanLast : Cert.ReferenceIdeal.S64x32x32x10.Idx ≃ S64x10x32x32.Idx where
  toFun := Cert.ReferenceIdeal.ReadP.idx_main_v0
  invFun := Cert.ReferenceIdeal.ReadP.idx_main_v113
  left_inv j := funext fun a => Fin.ext (match a with
    | ⟨0, _⟩ => rfl
    | ⟨1, _⟩ => rfl
    | ⟨2, _⟩ => rfl
    | ⟨3, _⟩ => rfl)
  right_inv i := chan_back i

/-- The two sums of squared differences have the same terms. -/
theorem sq_sum (z : (⟨S64x10x32x32, .f32⟩ : BufTy).Contents (Elt Ideal)) (hz : ∀ i, ∃ x : ℝ, z i = (x : EReal)) :
    (∑ i : S64x10x32x32.Idx, (((signK z i : EReal) - (z i : EReal)) * ((signK z i : EReal) - (z i : EReal))))
      = ∑ j : Cert.ReferenceIdeal.S64x32x32x10.Idx, (Cert.ReferenceIdeal.ReadP.val_main_v108 (F := Ideal) z j : EReal) := by
  refine ((Equiv.sum_comp chanLast (fun i : S64x10x32x32.Idx => (((signK z i : EReal) - (z i : EReal)) * ((signK z i : EReal) - (z i : EReal))))).symm).trans
    (Fintype.sum_congr _ _ fun j => ?_)
  obtain ⟨x, hx⟩ := hz (Cert.ReferenceIdeal.ReadP.idx_main_v0 j)
  rw [Cert.ReferenceIdeal.ReadP.val_main_v108_apply, Cert.ReferenceIdeal.ReadP.val_main_v107_apply, Cert.ReferenceIdeal.ReadP.val_main_v106_apply,
    Cert.ReferenceIdeal.ReadP.val_main_v105_apply, Cert.ReferenceIdeal.ReadP.val_main_v4_apply, Cert.ReferenceIdeal.ReadP.val_main_v3_apply, Cert.ReferenceIdeal.ReadP.val_main_v2_apply,
    Cert.ReferenceIdeal.ReadP.val_main_v0_apply, Cert.ReferenceIdeal.ReadP.val_main_v1_apply, Cert.ReferenceIdeal.ReadP.val_main_call0_v0_apply, Cert.ReferenceIdeal.ReadP.val_main_call0_v1_apply,
    Cert.ReferenceIdeal.ReadP.val_main_cst_apply, Cert.ReferenceIdeal.ReadP.val_main_cst_0_apply, Cert.ReferenceIdeal.ReadP.val_main_cst_1_apply]
  show ((Scalar.select (FloatOps.cmpf .ogt (z (Cert.ReferenceIdeal.ReadP.idx_main_v0 j)) (FloatOps.ofBits (F := Ideal) .f32 0x00000000#32))
          (FloatOps.ofBits (F := Ideal) .f32 0x3F800000#32) (FloatOps.ofBits (F := Ideal) .f32 0xBF800000#32) : EReal) - (z (Cert.ReferenceIdeal.ReadP.idx_main_v0 j) : EReal))
        * ((Scalar.select (FloatOps.cmpf .ogt (z (Cert.ReferenceIdeal.ReadP.idx_main_v0 j)) (FloatOps.ofBits (F := Ideal) .f32 0x00000000#32))
          (FloatOps.ofBits (F := Ideal) .f32 0x3F800000#32) (FloatOps.ofBits (F := Ideal) .f32 0xBF800000#32) : EReal) - (z (Cert.ReferenceIdeal.ReadP.idx_main_v0 j) : EReal))
      = (((z (Cert.ReferenceIdeal.ReadP.idx_main_v0 j) : EReal) + ((Scalar.select (FloatOps.cmpf .ogt (z (Cert.ReferenceIdeal.ReadP.idx_main_v0 j)) (FloatOps.ofBits (F := Ideal) .f32 0x00000000#32))
          (FloatOps.ofBits (F := Ideal) .f32 0x3F800000#32) (FloatOps.ofBits (F := Ideal) .f32 0xBF800000#32) : EReal) - (z (Cert.ReferenceIdeal.ReadP.idx_main_v0 j) : EReal))) - (z (Cert.ReferenceIdeal.ReadP.idx_main_v0 j) : EReal))
        * (((z (Cert.ReferenceIdeal.ReadP.idx_main_v0 j) : EReal) + ((Scalar.select (FloatOps.cmpf .ogt (z (Cert.ReferenceIdeal.ReadP.idx_main_v0 j)) (FloatOps.ofBits (F := Ideal) .f32 0x00000000#32))
          (FloatOps.ofBits (F := Ideal) .f32 0x3F800000#32) (FloatOps.ofBits (F := Ideal) .f32 0xBF800000#32) : EReal) - (z (Cert.ReferenceIdeal.ReadP.idx_main_v0 j) : EReal))) - (z (Cert.ReferenceIdeal.ReadP.idx_main_v0 j) : EReal))
  generalize (Scalar.select (FloatOps.cmpf .ogt (z (Cert.ReferenceIdeal.ReadP.idx_main_v0 j)) (FloatOps.ofBits (F := Ideal) .f32 0x00000000#32))
          (FloatOps.ofBits (F := Ideal) .f32 0x3F800000#32) (FloatOps.ofBits (F := Ideal) .f32 0xBF800000#32) : EReal) = b
  rw [hx, coe_add_sub_sub]

/-- The kernel program's commitment loss is the reference's, when every entry of z is real. -/
theorem commitK_eq_ref (z : (⟨S64x10x32x32, .f32⟩ : BufTy).Contents (Elt Ideal)) (hz : ∀ i, ∃ x : ℝ, z i = (x : EReal)) :
    commitK z = Cert.ReferenceIdeal.ReadP.val_main_v111 (F := Ideal) z := by
  funext i
  rw [Cert.ReferenceIdeal.ReadP.val_main_v111_apply, Cert.ReferenceIdeal.ReadP.val_main_v110_apply, Cert.ReferenceIdeal.ReadP.val_main_v109_apply]
  unfold commitK
  rw [mulf_apply, hostDivf_apply, hostReduceAdd_apply,
    Ideal.hostReduceAdd_total reducesTo_S64x10x32x32_S_d0_1_2_3 (fun b => b.elim0)]
  exact congrArg (fun s : EReal => Ideal.ofBits .f32 0x3E800000#32
    * Ideal.div (Ideal.ofBits .f32 0x00000000#32 + s) (Ideal.ofBits .f32 0x49200000#32)) (sq_sum z hz)

/-- The commitment loss: after the host lines that follow the region, from any contents W holding z at the first
    argument, the kernel program's result is the reference's stage for its result, at the same z. -/
theorem commit_out (W : Valuation τ sig (Elt Ideal)) (z : (⟨S64x10x32x32, .f32⟩ : BufTy).Contents (Elt Ideal))
    (hW : W (Proc.devRef .tc main_arg0) = z) (hz : ∀ i, ∃ x : ℝ, z i = (x : EReal)) :
    StableHlo.after (List.flatten [hostOps1 (F := Ideal), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) W (Proc.devRef .tc main_v28)
      = Cert.ReferenceIdeal.ReadP.val_main_v111 (F := Ideal) z := by
  rw [tail_v28, hW, commitK_eq_ref z hz]

end Cert.HostA

end
-- ==== Proof.HostATblK.lean ====
/-
  The table of powers of two as the kernel program computes it, first half (the squares up to 2^8 and the partial products through bit 2 of the exponent). The table 2^c (c = 0 … 9) is
  built by repeated squaring: the running square 2, 4, 16, 256, … is multiplied in where the matching bit of c is set.
  Each stretch of host lines is read at the buffers a later stretch uses; the packed index at (b, h, w) is the sum over
  the channel c of (z[b, c, h, w] > 0) · 2^c, as integer words.
-/
import proofs.«149547_j42202348650760_2_alg».proof.Proof.HostAKeep
import Idealize.ShloMosaic.PureOps.Ideal

set_option maxRecDepth 16384

noncomputable section

namespace Cert.HostA

open Cert.KernelIdeal Cert.KernelIdeal.Gen
open Idealize.ShloMosaic Idealize.ShloMosaic.TcCoe Idealize.ShloMosaic.StableHlo

/-- Stretch 2 at %v30. -/
theorem ck_main_v30 (V : Valuation τ sig (Elt Ideal)) :
    StableHlo.after (hostOps1_2 (F := Ideal)) V (Proc.devRef .tc main_v30)
      = (iotaInDim S10 32 0) := by
  after_results
  first | done | rfl
/-- The contents of %v30: a constant array. -/
def kv_main_v30 : (⟨S10, .i32⟩ : BufTy).Contents (Elt Ideal) :=
  (iotaInDim S10 32 0)
theorem st_main_v30 (W : Valuation τ sig (Elt Ideal)) :
    (StableHlo.after (hostOps1_2 (F := Ideal)) (StableHlo.after (hostOps1_1 (F := Ideal)) (StableHlo.after (hostOps1 (F := Ideal)) W))) (Proc.devRef .tc main_v30) = kv_main_v30 := by
  rw [ck_main_v30]
  first | done | rfl

/-- Stretch 2 at %v35. -/
theorem ck_main_v35 (V : Valuation τ sig (Elt Ideal)) :
    StableHlo.after (hostOps1_2 (F := Ideal)) V (Proc.devRef .tc main_v35)
      = (andi (broadcastInDim S10 ![] bcast_S_S10 (cmpi .eq (constantI S_ 32 2#32) (constantI S_ 32 0#32))) (cmpi .ne (iotaInDim S10 32 0) (broadcastInDim S10 ![] bcast_S_S10 (constantI S_ 32 0#32)))) := by
  after_results
  first | done | rfl
/-- The contents of %v35: a constant array. -/
def kv_main_v35 : (⟨S10, .i1⟩ : BufTy).Contents (Elt Ideal) :=
  (andi (broadcastInDim S10 ![] bcast_S_S10 (cmpi .eq (constantI S_ 32 2#32) (constantI S_ 32 0#32))) (cmpi .ne (iotaInDim S10 32 0) (broadcastInDim S10 ![] bcast_S_S10 (constantI S_ 32 0#32))))
theorem st_main_v35 (W : Valuation τ sig (Elt Ideal)) :
    (StableHlo.after (hostOps1_2 (F := Ideal)) (StableHlo.after (hostOps1_1 (F := Ideal)) (StableHlo.after (hostOps1 (F := Ideal)) W))) (Proc.devRef .tc main_v35) = kv_main_v35 := by
  rw [ck_main_v35]
  first | done | rfl

/-- Stretch 2 at %c_15. -/
theorem ck_main_c_15 (V : Valuation τ sig (Elt Ideal)) :
    StableHlo.after (hostOps1_2 (F := Ideal)) V (Proc.devRef .tc main_c_15)
      = (constantI S_ 32 0#32) := by
  after_results
  first | done | rfl
/-- The contents of %c_15: a constant array. -/
def kv_main_c_15 : (⟨S_, .i32⟩ : BufTy).Contents (Elt Ideal) :=
  (constantI S_ 32 0#32)
theorem st_main_c_15 (W : Valuation τ sig (Elt Ideal)) :
    (StableHlo.after (hostOps1_2 (F := Ideal)) (StableHlo.after (hostOps1_1 (F := Ideal)) (StableHlo.after (hostOps1 (F := Ideal)) W))) (Proc.devRef .tc main_c_15) = kv_main_c_15 := by
  rw [ck_main_c_15]
  first | done | rfl

/-- Stretch 2 at %c_16. -/
theorem ck_main_c_16 (V : Valuation τ sig (Elt Ideal)) :
    StableHlo.after (hostOps1_2 (F := Ideal)) V (Proc.devRef .tc main_c_16)
      = (constantI S_ 32 1#32) := by
  after_results
  first | done | rfl
/-- The contents of %c_16: a constant array. -/
def kv_main_c_16 : (⟨S_, .i32⟩ : BufTy).Contents (Elt Ideal) :=
  (constantI S_ 32 1#32)
theorem st_main_c_16 (W : Valuation τ sig (Elt Ideal)) :
    (StableHlo.after (hostOps1_2 (F := Ideal)) (StableHlo.after (hostOps1_1 (F := Ideal)) (StableHlo.after (hostOps1 (F := Ideal)) W))) (Proc.devRef .tc main_c_16) = kv_main_c_16 := by
  rw [ck_main_c_16]
  first | done | rfl

/-- Stretch 3 at %v36. -/
theorem ck_main_v36 (V : Valuation τ sig (Elt Ideal)) :
    StableHlo.after (hostOps1_3 (F := Ideal)) V (Proc.devRef .tc main_v36)
      = (select (V (Proc.devRef .tc main_v35) : (⟨S10, .i1⟩ : BufTy).Contents (Elt Ideal)) (broadcastInDim S10 ![] bcast_S_S10 (V (Proc.devRef .tc main_c_15) : (⟨S_, .i32⟩ : BufTy).Contents (Elt Ideal))) (broadcastInDim S10 ![] bcast_S_S10 (V (Proc.devRef .tc main_c_16) : (⟨S_, .i32⟩ : BufTy).Contents (Elt Ideal)))) := by
  after_results
  first | done | rfl
/-- The contents of %v36: a constant array. -/
def kv_main_v36 : (⟨S10, .i32⟩ : BufTy).Contents (Elt Ideal) :=
  (select kv_main_v35 (broadcastInDim S10 ![] bcast_S_S10 kv_main_c_15) (broadcastInDim S10 ![] bcast_S_S10 kv_main_c_16))
theorem st_main_v36 (W : Valuation τ sig (Elt Ideal)) :
    (StableHlo.after (hostOps1_3 (F := Ideal)) (StableHlo.after (hostOps1_2 (F := Ideal)) (StableHlo.after (hostOps1_1 (F := Ideal)) (StableHlo.after (hostOps1 (F := Ideal)) W)))) (Proc.devRef .tc main_v36) = kv_main_v36 := by
  rw [ck_main_v36, st_main_v35 W, st_main_c_15 W, st_main_c_16 W]
  first | done | rfl

/-- Stretch 4 at %v38. -/
theorem ck_main_v38 (V : Valuation τ sig (Elt Ideal)) :
    StableHlo.after (hostOps1_4 (F := Ideal)) V (Proc.devRef .tc main_v38)
      = (andi (V (Proc.devRef .tc main_v30) : (⟨S10, .i32⟩ : BufTy).Contents (Elt Ideal)) (broadcastInDim S10 ![] bcast_S_S10 (constantI S_ 32 1#32))) := by
  after_results
  first | done | rfl
/-- The contents of %v38: a constant array. -/
def kv_main_v38 : (⟨S10, .i32⟩ : BufTy).Contents (Elt Ideal) :=
  (andi kv_main_v30 (broadcastInDim S10 ![] bcast_S_S10 (constantI S_ 32 1#32)))
theorem st_main_v38 (W : Valuation τ sig (Elt Ideal)) :
    (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))) (Proc.devRef .tc main_v38) = kv_main_v38 := by
  rw [ck_main_v38, keep3 _ main_v30 (by decide), st_main_v30 W]
  first | done | rfl

/-- Stretch 4 at %v40. -/
theorem ck_main_v40 (V : Valuation τ sig (Elt Ideal)) :
    StableHlo.after (hostOps1_4 (F := Ideal)) V (Proc.devRef .tc main_v40)
      = (muli (V (Proc.devRef .tc main_v36) : (⟨S10, .i32⟩ : BufTy).Contents (Elt Ideal)) (broadcastInDim S10 ![] bcast_S_S10 (constantI S_ 32 2#32))) := by
  after_results
  first | done | rfl
/-- The contents of %v40: a constant array. -/
def kv_main_v40 : (⟨S10, .i32⟩ : BufTy).Contents (Elt Ideal) :=
  (muli kv_main_v36 (broadcastInDim S10 ![] bcast_S_S10 (constantI S_ 32 2#32)))
theorem st_main_v40 (W : Valuation τ sig (Elt Ideal)) :
    (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))) (Proc.devRef .tc main_v40) = kv_main_v40 := by
  rw [ck_main_v40, st_main_v36 W]
  first | done | rfl

/-- Stretch 5 at %v41. -/
theorem ck_main_v41 (V : Valuation τ sig (Elt Ideal)) :
    StableHlo.after (hostOps1_5 (F := Ideal)) V (Proc.devRef .tc main_v41)
      = (select (cmpi .ne (V (Proc.devRef .tc main_v38) : (⟨S10, .i32⟩ : BufTy).Contents (Elt Ideal)) (broadcastInDim S10 ![] bcast_S_S10 (constantI S_ 32 0#32))) (V (Proc.devRef .tc main_v40) : (⟨S10, .i32⟩ : BufTy).Contents (Elt Ideal)) (V (Proc.devRef .tc main_v36) : (⟨S10, .i32⟩ : BufTy).Contents (Elt Ideal))) := by
  after_results
  first | done | rfl
/-- The contents of %v41: a constant array. -/
def kv_main_v41 : (⟨S10, .i32⟩ : BufTy).Contents (Elt Ideal) :=
  (select (cmpi .ne kv_main_v38 (broadcastInDim S10 ![] bcast_S_S10 (constantI S_ 32 0#32))) kv_main_v40 kv_main_v36)
theorem st_main_v41 (W : Valuation τ sig (Elt Ideal)) :
    (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W)))))) (Proc.devRef .tc main_v41) = kv_main_v41 := by
  rw [ck_main_v41, st_main_v38 W, st_main_v40 W, keep4 _ main_v36 (by decide), st_main_v36 W]
  first | done | rfl

/-- Stretch 6 at %v44. -/
theorem ck_main_v44 (V : Valuation τ sig (Elt Ideal)) :
    StableHlo.after (hostOps1_6 (F := Ideal)) V (Proc.devRef .tc main_v44)
      = (Host.shrui (V (Proc.devRef .tc main_v30) : (⟨S10, .i32⟩ : BufTy).Contents (Elt Ideal)) (broadcastInDim S10 ![] bcast_S_S10 (constantI S_ 32 1#32))) := by
  after_results
  first | done | rfl
/-- The contents of %v44: a constant array. -/
def kv_main_v44 : (⟨S10, .i32⟩ : BufTy).Contents (Elt Ideal) :=
  (Host.shrui kv_main_v30 (broadcastInDim S10 ![] bcast_S_S10 (constantI S_ 32 1#32)))
theorem st_main_v44 (W : Valuation τ sig (Elt Ideal)) :
    (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))) (Proc.devRef .tc main_v44) = kv_main_v44 := by
  rw [ck_main_v44, keep5 _ main_v30 (by decide), keep4 _ main_v30 (by decide), keep3 _ main_v30 (by decide), st_main_v30 W]
  first | done | rfl

/-- Stretch 6 at %v42. -/
theorem ck_main_v42 (V : Valuation τ sig (Elt Ideal)) :
    StableHlo.after (hostOps1_6 (F := Ideal)) V (Proc.devRef .tc main_v42)
      = (muli (constantI S_ 32 2#32) (constantI S_ 32 2#32)) := by
  after_results
  first | done | rfl
/-- The contents of %v42: a constant array. -/
def kv_main_v42 : (⟨S_, .i32⟩ : BufTy).Contents (Elt Ideal) :=
  (muli (constantI S_ 32 2#32) (constantI S_ 32 2#32))
theorem st_main_v42 (W : Valuation τ sig (Elt Ideal)) :
    (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))) (Proc.devRef .tc main_v42) = kv_main_v42 := by
  rw [ck_main_v42]
  first | done | rfl

/-- Stretch 6 at %v46. -/
theorem ck_main_v46 (V : Valuation τ sig (Elt Ideal)) :
    StableHlo.after (hostOps1_6 (F := Ideal)) V (Proc.devRef .tc main_v46)
      = (andi (Host.shrui (V (Proc.devRef .tc main_v30) : (⟨S10, .i32⟩ : BufTy).Contents (Elt Ideal)) (broadcastInDim S10 ![] bcast_S_S10 (constantI S_ 32 1#32))) (broadcastInDim S10 ![] bcast_S_S10 (constantI S_ 32 1#32))) := by
  after_results
  first | done | rfl
/-- The contents of %v46: a constant array. -/
def kv_main_v46 : (⟨S10, .i32⟩ : BufTy).Contents (Elt Ideal) :=
  (andi (Host.shrui kv_main_v30 (broadcastInDim S10 ![] bcast_S_S10 (constantI S_ 32 1#32))) (broadcastInDim S10 ![] bcast_S_S10 (constantI S_ 32 1#32)))
theorem st_main_v46 (W : Valuation τ sig (Elt Ideal)) :
    (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))) (Proc.devRef .tc main_v46) = kv_main_v46 := by
  rw [ck_main_v46, keep5 _ main_v30 (by decide), keep4 _ main_v30 (by decide), keep3 _ main_v30 (by decide), st_main_v30 W]
  first | done | rfl

/-- Stretch 6 at %v48. -/
theorem ck_main_v48 (V : Valuation τ sig (Elt Ideal)) :
    StableHlo.after (hostOps1_6 (F := Ideal)) V (Proc.devRef .tc main_v48)
      = (muli (V (Proc.devRef .tc main_v41) : (⟨S10, .i32⟩ : BufTy).Contents (Elt Ideal)) (broadcastInDim S10 ![] bcast_S_S10 (muli (constantI S_ 32 2#32) (constantI S_ 32 2#32)))) := by
  after_results
  first | done | rfl
/-- The contents of %v48: a constant array. -/
def kv_main_v48 : (⟨S10, .i32⟩ : BufTy).Contents (Elt Ideal) :=
  (muli kv_main_v41 (broadcastInDim S10 ![] bcast_S_S10 (muli (constantI S_ 32 2#32) (constantI S_ 32 2#32))))
theorem st_main_v48 (W : Valuation τ sig (Elt Ideal)) :
    (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))) (Proc.devRef .tc main_v48) = kv_main_v48 := by
  rw [ck_main_v48, st_main_v41 W]
  first | done | rfl

/-- Stretch 7 at %v49. -/
theorem ck_main_v49 (V : Valuation τ sig (Elt Ideal)) :
    StableHlo.after (hostOps1_7 (F := Ideal)) V (Proc.devRef .tc main_v49)
      = (select (cmpi .ne (V (Proc.devRef .tc main_v46) : (⟨S10, .i32⟩ : BufTy).Contents (Elt Ideal)) (broadcastInDim S10 ![] bcast_S_S10 (constantI S_ 32 0#32))) (V (Proc.devRef .tc main_v48) : (⟨S10, .i32⟩ : BufTy).Contents (Elt Ideal)) (V (Proc.devRef .tc main_v41) : (⟨S10, .i32⟩ : BufTy).Contents (Elt Ideal))) := by
  after_results
  first | done | rfl
/-- The contents of %v49: a constant array. -/
def kv_main_v49 : (⟨S10, .i32⟩ : BufTy).Contents (Elt Ideal) :=
  (select (cmpi .ne kv_main_v46 (broadcastInDim S10 ![] bcast_S_S10 (constantI S_ 32 0#32))) kv_main_v48 kv_main_v41)
theorem st_main_v49 (W : Valuation τ sig (Elt Ideal)) :
    (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W)))))))) (Proc.devRef .tc main_v49) = kv_main_v49 := by
  rw [ck_main_v49, st_main_v46 W, st_main_v48 W, keep6 _ main_v41 (by decide), st_main_v41 W]
  first | done | rfl

/-- Stretch 8 at %v52. -/
theorem ck_main_v52 (V : Valuation τ sig (Elt Ideal)) :
    StableHlo.after (hostOps1_8 (F := Ideal)) V (Proc.devRef .tc main_v52)
      = (Host.shrui (V (Proc.devRef .tc main_v44) : (⟨S10, .i32⟩ : BufTy).Contents (Elt Ideal)) (broadcastInDim S10 ![] bcast_S_S10 (constantI S_ 32 1#32))) := by
  after_results
  first | done | rfl
/-- The contents of %v52: a constant array. -/
def kv_main_v52 : (⟨S10, .i32⟩ : BufTy).Contents (Elt Ideal) :=
  (Host.shrui kv_main_v44 (broadcastInDim S10 ![] bcast_S_S10 (constantI S_ 32 1#32)))
theorem st_main_v52 (W : Valuation τ sig (Elt Ideal)) :
    (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))) (Proc.devRef .tc main_v52) = kv_main_v52 := by
  rw [ck_main_v52, keep7 _ main_v44 (by decide), st_main_v44 W]
  first | done | rfl

/-- Stretch 8 at %v50. -/
theorem ck_main_v50 (V : Valuation τ sig (Elt Ideal)) :
    StableHlo.after (hostOps1_8 (F := Ideal)) V (Proc.devRef .tc main_v50)
      = (muli (V (Proc.devRef .tc main_v42) : (⟨S_, .i32⟩ : BufTy).Contents (Elt Ideal)) (V (Proc.devRef .tc main_v42) : (⟨S_, .i32⟩ : BufTy).Contents (Elt Ideal))) := by
  after_results
  first | done | rfl
/-- The contents of %v50: a constant array. -/
def kv_main_v50 : (⟨S_, .i32⟩ : BufTy).Contents (Elt Ideal) :=
  (muli kv_main_v42 kv_main_v42)
theorem st_main_v50 (W : Valuation τ sig (Elt Ideal)) :
    (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))) (Proc.devRef .tc main_v50) = kv_main_v50 := by
  rw [ck_main_v50, keep7 _ main_v42 (by decide), st_main_v42 W]
  first | done | rfl

/-- Stretch 8 at %v54. -/
theorem ck_main_v54 (V : Valuation τ sig (Elt Ideal)) :
    StableHlo.after (hostOps1_8 (F := Ideal)) V (Proc.devRef .tc main_v54)
      = (andi (Host.shrui (V (Proc.devRef .tc main_v44) : (⟨S10, .i32⟩ : BufTy).Contents (Elt Ideal)) (broadcastInDim S10 ![] bcast_S_S10 (constantI S_ 32 1#32))) (broadcastInDim S10 ![] bcast_S_S10 (constantI S_ 32 1#32))) := by
  after_results
  first | done | rfl
/-- The contents of %v54: a constant array. -/
def kv_main_v54 : (⟨S10, .i32⟩ : BufTy).Contents (Elt Ideal) :=
  (andi (Host.shrui kv_main_v44 (broadcastInDim S10 ![] bcast_S_S10 (constantI S_ 32 1#32))) (broadcastInDim S10 ![] bcast_S_S10 (constantI S_ 32 1#32)))
theorem st_main_v54 (W : Valuation τ sig (Elt Ideal)) :
    (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))) (Proc.devRef .tc main_v54) = kv_main_v54 := by
  rw [ck_main_v54, keep7 _ main_v44 (by decide), st_main_v44 W]
  first | done | rfl

/-- Stretch 8 at %v56. -/
theorem ck_main_v56 (V : Valuation τ sig (Elt Ideal)) :
    StableHlo.after (hostOps1_8 (F := Ideal)) V (Proc.devRef .tc main_v56)
      = (muli (V (Proc.devRef .tc main_v49) : (⟨S10, .i32⟩ : BufTy).Contents (Elt Ideal)) (broadcastInDim S10 ![] bcast_S_S10 (muli (V (Proc.devRef .tc main_v42) : (⟨S_, .i32⟩ : BufTy).Contents (Elt Ideal)) (V (Proc.devRef .tc main_v42) : (⟨S_, .i32⟩ : BufTy).Contents (Elt Ideal))))) := by
  after_results
  first | done | rfl
/-- The contents of %v56: a constant array. -/
def kv_main_v56 : (⟨S10, .i32⟩ : BufTy).Contents (Elt Ideal) :=
  (muli kv_main_v49 (broadcastInDim S10 ![] bcast_S_S10 (muli kv_main_v42 kv_main_v42)))
theorem st_main_v56 (W : Valuation τ sig (Elt Ideal)) :
    (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))) (Proc.devRef .tc main_v56) = kv_main_v56 := by
  rw [ck_main_v56, st_main_v49 W, keep7 _ main_v42 (by decide), st_main_v42 W]
  first | done | rfl

/-- Stretch 9 at %v57. -/
theorem ck_main_v57 (V : Valuation τ sig (Elt Ideal)) :
    StableHlo.after (hostOps1_9 (F := Ideal)) V (Proc.devRef .tc main_v57)
      = (select (cmpi .ne (V (Proc.devRef .tc main_v54) : (⟨S10, .i32⟩ : BufTy).Contents (Elt Ideal)) (broadcastInDim S10 ![] bcast_S_S10 (constantI S_ 32 0#32))) (V (Proc.devRef .tc main_v56) : (⟨S10, .i32⟩ : BufTy).Contents (Elt Ideal)) (V (Proc.devRef .tc main_v49) : (⟨S10, .i32⟩ : BufTy).Contents (Elt Ideal))) := by
  after_results
  first | done | rfl
/-- The contents of %v57: a constant array. -/
def kv_main_v57 : (⟨S10, .i32⟩ : BufTy).Contents (Elt Ideal) :=
  (select (cmpi .ne kv_main_v54 (broadcastInDim S10 ![] bcast_S_S10 (constantI S_ 32 0#32))) kv_main_v56 kv_main_v49)
theorem st_main_v57 (W : Valuation τ sig (Elt Ideal)) :
    (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W)))))))))) (Proc.devRef .tc main_v57) = kv_main_v57 := by
  rw [ck_main_v57, st_main_v54 W, st_main_v56 W, keep8 _ main_v49 (by decide), st_main_v49 W]
  first | done | rfl

end Cert.HostA

end
-- ==== Proof.HostAIdxK.lean ====
/-
  The table of powers of two and the packed sign bits, as the kernel program computes them. The table 2^c (c = 0 … 9) is
  built by repeated squaring: the running square 2, 4, 16, 256, … is multiplied in where the matching bit of c is set.
  Each stretch of host lines is read at the buffers a later stretch uses; the packed index at (b, h, w) is the sum over
  the channel c of (z[b, c, h, w] > 0) · 2^c, as integer words.
-/
import proofs.«149547_j42202348650760_2_alg».proof.Proof.HostATblK
import Idealize.ShloMosaic.PureOps.Ideal

set_option maxRecDepth 16384

noncomputable section

namespace Cert.HostA

open Cert.KernelIdeal Cert.KernelIdeal.Gen
open Idealize.ShloMosaic Idealize.ShloMosaic.TcCoe Idealize.ShloMosaic.StableHlo

/-- Stretch 10 at %v60. -/
theorem ck_main_v60 (V : Valuation τ sig (Elt Ideal)) :
    StableHlo.after (hostOps1_10 (F := Ideal)) V (Proc.devRef .tc main_v60)
      = (Host.shrui (V (Proc.devRef .tc main_v52) : (⟨S10, .i32⟩ : BufTy).Contents (Elt Ideal)) (broadcastInDim S10 ![] bcast_S_S10 (constantI S_ 32 1#32))) := by
  after_results
  first | done | rfl
/-- The contents of %v60: a constant array. -/
def kv_main_v60 : (⟨S10, .i32⟩ : BufTy).Contents (Elt Ideal) :=
  (Host.shrui kv_main_v52 (broadcastInDim S10 ![] bcast_S_S10 (constantI S_ 32 1#32)))
theorem st_main_v60 (W : Valuation τ sig (Elt Ideal)) :
    (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))))) (Proc.devRef .tc main_v60) = kv_main_v60 := by
  rw [ck_main_v60, keep9 _ main_v52 (by decide), st_main_v52 W]
  first | done | rfl

/-- Stretch 10 at %v58. -/
theorem ck_main_v58 (V : Valuation τ sig (Elt Ideal)) :
    StableHlo.after (hostOps1_10 (F := Ideal)) V (Proc.devRef .tc main_v58)
      = (muli (V (Proc.devRef .tc main_v50) : (⟨S_, .i32⟩ : BufTy).Contents (Elt Ideal)) (V (Proc.devRef .tc main_v50) : (⟨S_, .i32⟩ : BufTy).Contents (Elt Ideal))) := by
  after_results
  first | done | rfl
/-- The contents of %v58: a constant array. -/
def kv_main_v58 : (⟨S_, .i32⟩ : BufTy).Contents (Elt Ideal) :=
  (muli kv_main_v50 kv_main_v50)
theorem st_main_v58 (W : Valuation τ sig (Elt Ideal)) :
    (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))))) (Proc.devRef .tc main_v58) = kv_main_v58 := by
  rw [ck_main_v58, keep9 _ main_v50 (by decide), st_main_v50 W]
  first | done | rfl

/-- Stretch 10 at %v62. -/
theorem ck_main_v62 (V : Valuation τ sig (Elt Ideal)) :
    StableHlo.after (hostOps1_10 (F := Ideal)) V (Proc.devRef .tc main_v62)
      = (andi (Host.shrui (V (Proc.devRef .tc main_v52) : (⟨S10, .i32⟩ : BufTy).Contents (Elt Ideal)) (broadcastInDim S10 ![] bcast_S_S10 (constantI S_ 32 1#32))) (broadcastInDim S10 ![] bcast_S_S10 (constantI S_ 32 1#32))) := by
  after_results
  first | done | rfl
/-- The contents of %v62: a constant array. -/
def kv_main_v62 : (⟨S10, .i32⟩ : BufTy).Contents (Elt Ideal) :=
  (andi (Host.shrui kv_main_v52 (broadcastInDim S10 ![] bcast_S_S10 (constantI S_ 32 1#32))) (broadcastInDim S10 ![] bcast_S_S10 (constantI S_ 32 1#32)))
theorem st_main_v62 (W : Valuation τ sig (Elt Ideal)) :
    (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))))) (Proc.devRef .tc main_v62) = kv_main_v62 := by
  rw [ck_main_v62, keep9 _ main_v52 (by decide), st_main_v52 W]
  first | done | rfl

/-- Stretch 10 at %v64. -/
theorem ck_main_v64 (V : Valuation τ sig (Elt Ideal)) :
    StableHlo.after (hostOps1_10 (F := Ideal)) V (Proc.devRef .tc main_v64)
      = (muli (V (Proc.devRef .tc main_v57) : (⟨S10, .i32⟩ : BufTy).Contents (Elt Ideal)) (broadcastInDim S10 ![] bcast_S_S10 (muli (V (Proc.devRef .tc main_v50) : (⟨S_, .i32⟩ : BufTy).Contents (Elt Ideal)) (V (Proc.devRef .tc main_v50) : (⟨S_, .i32⟩ : BufTy).Contents (Elt Ideal))))) := by
  after_results
  first | done | rfl
/-- The contents of %v64: a constant array. -/
def kv_main_v64 : (⟨S10, .i32⟩ : BufTy).Contents (Elt Ideal) :=
  (muli kv_main_v57 (broadcastInDim S10 ![] bcast_S_S10 (muli kv_main_v50 kv_main_v50)))
theorem st_main_v64 (W : Valuation τ sig (Elt Ideal)) :
    (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))))) (Proc.devRef .tc main_v64) = kv_main_v64 := by
  rw [ck_main_v64, st_main_v57 W, keep9 _ main_v50 (by decide), st_main_v50 W]
  first | done | rfl

/-- Stretch 11 at %v65. -/
theorem ck_main_v65 (V : Valuation τ sig (Elt Ideal)) :
    StableHlo.after (hostOps1_11 (F := Ideal)) V (Proc.devRef .tc main_v65)
      = (select (cmpi .ne (V (Proc.devRef .tc main_v62) : (⟨S10, .i32⟩ : BufTy).Contents (Elt Ideal)) (broadcastInDim S10 ![] bcast_S_S10 (constantI S_ 32 0#32))) (V (Proc.devRef .tc main_v64) : (⟨S10, .i32⟩ : BufTy).Contents (Elt Ideal)) (V (Proc.devRef .tc main_v57) : (⟨S10, .i32⟩ : BufTy).Contents (Elt Ideal))) := by
  after_results
  first | done | rfl
/-- The contents of %v65: a constant array. -/
def kv_main_v65 : (⟨S10, .i32⟩ : BufTy).Contents (Elt Ideal) :=
  (select (cmpi .ne kv_main_v62 (broadcastInDim S10 ![] bcast_S_S10 (constantI S_ 32 0#32))) kv_main_v64 kv_main_v57)
theorem st_main_v65 (W : Valuation τ sig (Elt Ideal)) :
    (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W)))))))))))) (Proc.devRef .tc main_v65) = kv_main_v65 := by
  rw [ck_main_v65, st_main_v62 W, st_main_v64 W, keep10 _ main_v57 (by decide), st_main_v57 W]
  first | done | rfl

/-- Stretch 12 at %v68. -/
theorem ck_main_v68 (V : Valuation τ sig (Elt Ideal)) :
    StableHlo.after (hostOps1_12 (F := Ideal)) V (Proc.devRef .tc main_v68)
      = (Host.shrui (V (Proc.devRef .tc main_v60) : (⟨S10, .i32⟩ : BufTy).Contents (Elt Ideal)) (broadcastInDim S10 ![] bcast_S_S10 (constantI S_ 32 1#32))) := by
  after_results
  first | done | rfl
/-- The contents of %v68: a constant array. -/
def kv_main_v68 : (⟨S10, .i32⟩ : BufTy).Contents (Elt Ideal) :=
  (Host.shrui kv_main_v60 (broadcastInDim S10 ![] bcast_S_S10 (constantI S_ 32 1#32)))
theorem st_main_v68 (W : Valuation τ sig (Elt Ideal)) :
    (StableHlo.after (hostOps1_12 (F := Ideal)) (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))))))) (Proc.devRef .tc main_v68) = kv_main_v68 := by
  rw [ck_main_v68, keep11 _ main_v60 (by decide), st_main_v60 W]
  first | done | rfl

/-- Stretch 12 at %v66. -/
theorem ck_main_v66 (V : Valuation τ sig (Elt Ideal)) :
    StableHlo.after (hostOps1_12 (F := Ideal)) V (Proc.devRef .tc main_v66)
      = (muli (V (Proc.devRef .tc main_v58) : (⟨S_, .i32⟩ : BufTy).Contents (Elt Ideal)) (V (Proc.devRef .tc main_v58) : (⟨S_, .i32⟩ : BufTy).Contents (Elt Ideal))) := by
  after_results
  first | done | rfl
/-- The contents of %v66: a constant array. -/
def kv_main_v66 : (⟨S_, .i32⟩ : BufTy).Contents (Elt Ideal) :=
  (muli kv_main_v58 kv_main_v58)
theorem st_main_v66 (W : Valuation τ sig (Elt Ideal)) :
    (StableHlo.after (hostOps1_12 (F := Ideal)) (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))))))) (Proc.devRef .tc main_v66) = kv_main_v66 := by
  rw [ck_main_v66, keep11 _ main_v58 (by decide), st_main_v58 W]
  first | done | rfl

/-- Stretch 12 at %v70. -/
theorem ck_main_v70 (V : Valuation τ sig (Elt Ideal)) :
    StableHlo.after (hostOps1_12 (F := Ideal)) V (Proc.devRef .tc main_v70)
      = (andi (Host.shrui (V (Proc.devRef .tc main_v60) : (⟨S10, .i32⟩ : BufTy).Contents (Elt Ideal)) (broadcastInDim S10 ![] bcast_S_S10 (constantI S_ 32 1#32))) (broadcastInDim S10 ![] bcast_S_S10 (constantI S_ 32 1#32))) := by
  after_results
  first | done | rfl
/-- The contents of %v70: a constant array. -/
def kv_main_v70 : (⟨S10, .i32⟩ : BufTy).Contents (Elt Ideal) :=
  (andi (Host.shrui kv_main_v60 (broadcastInDim S10 ![] bcast_S_S10 (constantI S_ 32 1#32))) (broadcastInDim S10 ![] bcast_S_S10 (constantI S_ 32 1#32)))
theorem st_main_v70 (W : Valuation τ sig (Elt Ideal)) :
    (StableHlo.after (hostOps1_12 (F := Ideal)) (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))))))) (Proc.devRef .tc main_v70) = kv_main_v70 := by
  rw [ck_main_v70, keep11 _ main_v60 (by decide), st_main_v60 W]
  first | done | rfl

/-- Stretch 12 at %v72. -/
theorem ck_main_v72 (V : Valuation τ sig (Elt Ideal)) :
    StableHlo.after (hostOps1_12 (F := Ideal)) V (Proc.devRef .tc main_v72)
      = (muli (V (Proc.devRef .tc main_v65) : (⟨S10, .i32⟩ : BufTy).Contents (Elt Ideal)) (broadcastInDim S10 ![] bcast_S_S10 (muli (V (Proc.devRef .tc main_v58) : (⟨S_, .i32⟩ : BufTy).Contents (Elt Ideal)) (V (Proc.devRef .tc main_v58) : (⟨S_, .i32⟩ : BufTy).Contents (Elt Ideal))))) := by
  after_results
  first | done | rfl
/-- The contents of %v72: a constant array. -/
def kv_main_v72 : (⟨S10, .i32⟩ : BufTy).Contents (Elt Ideal) :=
  (muli kv_main_v65 (broadcastInDim S10 ![] bcast_S_S10 (muli kv_main_v58 kv_main_v58)))
theorem st_main_v72 (W : Valuation τ sig (Elt Ideal)) :
    (StableHlo.after (hostOps1_12 (F := Ideal)) (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))))))) (Proc.devRef .tc main_v72) = kv_main_v72 := by
  rw [ck_main_v72, st_main_v65 W, keep11 _ main_v58 (by decide), st_main_v58 W]
  first | done | rfl

/-- Stretch 13 at %v73. -/
theorem ck_main_v73 (V : Valuation τ sig (Elt Ideal)) :
    StableHlo.after (hostOps1_13 (F := Ideal)) V (Proc.devRef .tc main_v73)
      = (select (cmpi .ne (V (Proc.devRef .tc main_v70) : (⟨S10, .i32⟩ : BufTy).Contents (Elt Ideal)) (broadcastInDim S10 ![] bcast_S_S10 (constantI S_ 32 0#32))) (V (Proc.devRef .tc main_v72) : (⟨S10, .i32⟩ : BufTy).Contents (Elt Ideal)) (V (Proc.devRef .tc main_v65) : (⟨S10, .i32⟩ : BufTy).Contents (Elt Ideal))) := by
  after_results
  first | done | rfl
/-- The contents of %v73: a constant array. -/
def kv_main_v73 : (⟨S10, .i32⟩ : BufTy).Contents (Elt Ideal) :=
  (select (cmpi .ne kv_main_v70 (broadcastInDim S10 ![] bcast_S_S10 (constantI S_ 32 0#32))) kv_main_v72 kv_main_v65)
theorem st_main_v73 (W : Valuation τ sig (Elt Ideal)) :
    (StableHlo.after (hostOps1_13 (F := Ideal)) (StableHlo.after (hostOps1_12 (F := Ideal)) (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W)))))))))))))) (Proc.devRef .tc main_v73) = kv_main_v73 := by
  rw [ck_main_v73, st_main_v70 W, st_main_v72 W, keep12 _ main_v65 (by decide), st_main_v65 W]
  first | done | rfl

/-- Stretch 14 at %v78. -/
theorem ck_main_v78 (V : Valuation τ sig (Elt Ideal)) :
    StableHlo.after (hostOps1_14 (F := Ideal)) V (Proc.devRef .tc main_v78)
      = (andi (Host.shrui (V (Proc.devRef .tc main_v68) : (⟨S10, .i32⟩ : BufTy).Contents (Elt Ideal)) (broadcastInDim S10 ![] bcast_S_S10 (constantI S_ 32 1#32))) (broadcastInDim S10 ![] bcast_S_S10 (constantI S_ 32 1#32))) := by
  after_results
  first | done | rfl
/-- The contents of %v78: a constant array. -/
def kv_main_v78 : (⟨S10, .i32⟩ : BufTy).Contents (Elt Ideal) :=
  (andi (Host.shrui kv_main_v68 (broadcastInDim S10 ![] bcast_S_S10 (constantI S_ 32 1#32))) (broadcastInDim S10 ![] bcast_S_S10 (constantI S_ 32 1#32)))
theorem st_main_v78 (W : Valuation τ sig (Elt Ideal)) :
    (StableHlo.after (hostOps1_14 (F := Ideal)) (StableHlo.after (hostOps1_13 (F := Ideal)) (StableHlo.after (hostOps1_12 (F := Ideal)) (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))))))))) (Proc.devRef .tc main_v78) = kv_main_v78 := by
  rw [ck_main_v78, keep13 _ main_v68 (by decide), st_main_v68 W]
  first | done | rfl

/-- Stretch 14 at %v80. -/
theorem ck_main_v80 (V : Valuation τ sig (Elt Ideal)) :
    StableHlo.after (hostOps1_14 (F := Ideal)) V (Proc.devRef .tc main_v80)
      = (muli (V (Proc.devRef .tc main_v73) : (⟨S10, .i32⟩ : BufTy).Contents (Elt Ideal)) (broadcastInDim S10 ![] bcast_S_S10 (muli (V (Proc.devRef .tc main_v66) : (⟨S_, .i32⟩ : BufTy).Contents (Elt Ideal)) (V (Proc.devRef .tc main_v66) : (⟨S_, .i32⟩ : BufTy).Contents (Elt Ideal))))) := by
  after_results
  first | done | rfl
/-- The contents of %v80: a constant array. -/
def kv_main_v80 : (⟨S10, .i32⟩ : BufTy).Contents (Elt Ideal) :=
  (muli kv_main_v73 (broadcastInDim S10 ![] bcast_S_S10 (muli kv_main_v66 kv_main_v66)))
theorem st_main_v80 (W : Valuation τ sig (Elt Ideal)) :
    (StableHlo.after (hostOps1_14 (F := Ideal)) (StableHlo.after (hostOps1_13 (F := Ideal)) (StableHlo.after (hostOps1_12 (F := Ideal)) (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))))))))) (Proc.devRef .tc main_v80) = kv_main_v80 := by
  rw [ck_main_v80, st_main_v73 W, keep13 _ main_v66 (by decide), st_main_v66 W]
  first | done | rfl

/-- Stretch 15 at %v81. -/
theorem ck_main_v81 (V : Valuation τ sig (Elt Ideal)) :
    StableHlo.after (hostOps1_15 (F := Ideal)) V (Proc.devRef .tc main_v81)
      = (select (cmpi .ne (V (Proc.devRef .tc main_v78) : (⟨S10, .i32⟩ : BufTy).Contents (Elt Ideal)) (broadcastInDim S10 ![] bcast_S_S10 (constantI S_ 32 0#32))) (V (Proc.devRef .tc main_v80) : (⟨S10, .i32⟩ : BufTy).Contents (Elt Ideal)) (V (Proc.devRef .tc main_v73) : (⟨S10, .i32⟩ : BufTy).Contents (Elt Ideal))) := by
  after_results
  first | done | rfl
/-- The contents of %v81: a constant array. -/
def kv_main_v81 : (⟨S10, .i32⟩ : BufTy).Contents (Elt Ideal) :=
  (select (cmpi .ne kv_main_v78 (broadcastInDim S10 ![] bcast_S_S10 (constantI S_ 32 0#32))) kv_main_v80 kv_main_v73)
theorem st_main_v81 (W : Valuation τ sig (Elt Ideal)) :
    (StableHlo.after (hostOps1_15 (F := Ideal)) (StableHlo.after (hostOps1_14 (F := Ideal)) (StableHlo.after (hostOps1_13 (F := Ideal)) (StableHlo.after (hostOps1_12 (F := Ideal)) (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W)))))))))))))))) (Proc.devRef .tc main_v81) = kv_main_v81 := by
  rw [ck_main_v81, st_main_v78 W, st_main_v80 W, keep14 _ main_v73 (by decide), st_main_v73 W]
  first | done | rfl

/-- Stretch 16 at %v91. -/
theorem ck_main_v91 (V : Valuation τ sig (Elt Ideal)) :
    StableHlo.after (hostOps1_16 (F := Ideal)) V (Proc.devRef .tc main_v91)
      = (Host.reduce IntOp.addi (muli (extui 32 (cmpf .ogt (V (Proc.devRef .tc main_arg0) : (⟨S64x10x32x32, .f32⟩ : BufTy).Contents (Elt Ideal)) (broadcastInDim S64x10x32x32 ![] bcast_S_S64x10x32x32 (constant (F := Ideal) S_ .f32 0x00000000#32))) natLt_1_32) (broadcastInDim S64x10x32x32 ![0, 1, 2, 3] bcast_S1x10x1x1_S64x10x32x32_0_1_2_3 (shapeCast S1x10x1x1 (V (Proc.devRef .tc main_v81) : (⟨S10, .i32⟩ : BufTy).Contents (Elt Ideal)) shapeCasts_S10_S1x10x1x1))) (constantI S_ 32 0#32) reducesTo_S64x10x32x32_S64x32x32_d1 h_S_) := by
  after_results
  first | done | rfl
/-- The contents of %v91 as a function of z. -/
def kv_main_v91 (z : (⟨S64x10x32x32, .f32⟩ : BufTy).Contents (Elt Ideal)) : (⟨S64x32x32, .i32⟩ : BufTy).Contents (Elt Ideal) :=
  (Host.reduce IntOp.addi (muli (extui 32 (cmpf .ogt z (broadcastInDim S64x10x32x32 ![] bcast_S_S64x10x32x32 (constant (F := Ideal) S_ .f32 0x00000000#32))) natLt_1_32) (broadcastInDim S64x10x32x32 ![0, 1, 2, 3] bcast_S1x10x1x1_S64x10x32x32_0_1_2_3 (shapeCast S1x10x1x1 kv_main_v81 shapeCasts_S10_S1x10x1x1))) (constantI S_ 32 0#32) reducesTo_S64x10x32x32_S64x32x32_d1 h_S_)
theorem st_main_v91 (W : Valuation τ sig (Elt Ideal)) :
    (StableHlo.after (hostOps1_16 (F := Ideal)) (StableHlo.after (hostOps1_15 (F := Ideal)) (StableHlo.after (hostOps1_14 (F := Ideal)) (StableHlo.after (hostOps1_13 (F := Ideal)) (StableHlo.after (hostOps1_12 (F := Ideal)) (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))))))))))))) (Proc.devRef .tc main_v91) = kv_main_v91 (W (Proc.devRef .tc main_arg0)) := by
  rw [ck_main_v91, keep15 _ main_arg0 (by decide), keep14 _ main_arg0 (by decide), keep13 _ main_arg0 (by decide), keep12 _ main_arg0 (by decide), keep11 _ main_arg0 (by decide), keep10 _ main_arg0 (by decide), keep9 _ main_arg0 (by decide), keep8 _ main_arg0 (by decide), keep7 _ main_arg0 (by decide), keep6 _ main_arg0 (by decide), keep5 _ main_arg0 (by decide), keep4 _ main_arg0 (by decide), keep3 _ main_arg0 (by decide), keep2 _ main_arg0 (by decide), keep1 _ main_arg0 (by decide), keep0 _ main_arg0 (by decide), st_main_v81 W]
  first | done | rfl

/-- After the seventeen stretches, from any contents W, the packed indices are those of what W holds at z. -/
theorem tail_v91 (W : Valuation τ sig (Elt Ideal)) :
    StableHlo.after (List.flatten [hostOps1 (F := Ideal), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) W (Proc.devRef .tc main_v91)
      = kv_main_v91 (W (Proc.devRef .tc main_arg0)) := by
  simp only [after_flatten_cons, List.flatten_nil, StableHlo.after_nil]
  exact st_main_v91 W

end Cert.HostA

end
-- ==== Proof.HostAIdx.lean ====
/-
  The packed sign bits of the two programs are one array of integer words. Both programs build the table 2^c by the same
  lines, so the two tables are one term. The kernel program multiplies (z > 0), widened to 32 bits, by the table laid
  along the channel axis (second of four) and sums over that axis; the reference does the same with the channel axis
  last. At a result index (b, h, w) each is the fold of word addition, from 0, over the ten channels c of
  (z[b, c, h, w] > 0) · 2^c: the same ten words.
-/
import proofs.«149547_j42202348650760_2_alg».proof.Proof.HostAIdxK
import proofs.«149547_j42202348650760_2_alg».proof.Proof.RefReadP
import Idealize.ShloMosaic.Lib.IdealHost
import Idealize.ShloMosaic.Lib.Pipeline.Value
import Idealize.ShloMosaic.PureOps.Reduce

set_option maxRecDepth 16384

noncomputable section

namespace Cert.HostA

open Cert.KernelIdeal Cert.KernelIdeal.Gen
open Idealize.ShloMosaic Idealize.ShloMosaic.TcCoe Idealize.ShloMosaic.StableHlo Idealize.ShloMosaic.ValueIdx

/-- The two programs' tables of powers of two are the same term. -/
theorem tbl_eq_ref : kv_main_v81 = Cert.ReferenceIdeal.ReadP.val_main_v56 (F := Ideal) := rfl

/-- An index's channel, as an index of the table. -/
abbrev chanOf (i : S64x10x32x32.Idx) : S10.Idx := fun a => match a with
  | ⟨0, _⟩ => ⟨(i 1).val, (i 1).isLt⟩

/-- The index of the table laid along the channel axis: (0, c, 0, 0). -/
abbrev chanIdx (i : S64x10x32x32.Idx) : S1x10x1x1.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩

/-- A table of ten words reshaped to [1, 10, 1, 1] and spread over [64, 10, 32, 32] reads, at any index, the word of the
    index's channel. -/
theorem tbl_spread_apply (T : S10.Idx → BitVec 32) (i : S64x10x32x32.Idx) :
    broadcastInDim S64x10x32x32 ![0, 1, 2, 3] bcast_S1x10x1x1_S64x10x32x32_0_1_2_3
        (shapeCast S1x10x1x1 T shapeCasts_S10_S1x10x1x1) i
      = T (chanOf i) := by
  rw [broadcastInDim_apply _ bcast_S1x10x1x1_S64x10x32x32_0_1_2_3 _ i (chanIdx i) (fun a => match a with
    | ⟨0, _⟩ => by show 0 = if (1 : Nat) = 1 then 0 else (i 0).val; rw [if_pos rfl]
    | ⟨1, _⟩ => by show (i 1).val = if (10 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl])]
  refine shapeCast_apply T shapeCasts_S10_S1x10x1x1 (chanIdx i) (chanOf i) ?_
  rw [Shape.rowMajor_val_one, Shape.rowMajor_val_four]
  show (i 1).val = (((0 * 10 + (i 1).val) * 1 + 0) * 1 + 0)
  omega

/-- The kernel program's packed indices are the reference's. -/
theorem idx_eq_ref (z : (⟨S64x10x32x32, .f32⟩ : BufTy).Contents (Elt Ideal)) :
    kv_main_v91 z = Cert.ReferenceIdeal.ReadP.val_main_v66 (F := Ideal) z := by
  funext j
  have hK : Shape.Reduces S64x10x32x32 [1] S64x32x32 := by decide
  have hR : Shape.Reduces Cert.ReferenceIdeal.S64x32x32x10 [3] Cert.ReferenceIdeal.S64x32x32 := by decide
  unfold kv_main_v91 Cert.ReferenceIdeal.ReadP.val_main_v66
  rw [Host.reduce_eq_fold_single IntOp.addi _ _ reducesTo_S64x10x32x32_S64x32x32_d1 hK h_S_ j,
    Host.reduce_eq_fold_single IntOp.addi _ _ Cert.ReferenceIdeal.Gen.reducesTo_S64x32x32x10_S64x32x32_d3 hR Cert.ReferenceIdeal.Gen.h_S_ j]
  show Finset.fold IntOp.addi (0#32) (fun k : Fin 10 =>
        (muli (extui 32 (cmpf .ogt z (broadcastInDim S64x10x32x32 ![] bcast_S_S64x10x32x32 (constant (F := Ideal) S_ .f32 0x00000000#32))) natLt_1_32)
          (broadcastInDim S64x10x32x32 ![0, 1, 2, 3] bcast_S1x10x1x1_S64x10x32x32_0_1_2_3 (shapeCast S1x10x1x1 kv_main_v81 shapeCasts_S10_S1x10x1x1)))
          (hK.lift j k)) Finset.univ
      = Finset.fold IntOp.addi (0#32) (fun k : Fin 10 => Cert.ReferenceIdeal.ReadP.val_main_v65 (F := Ideal) z (hR.lift j k)) Finset.univ
  refine congrArg (fun f : Fin 10 → BitVec 32 => Finset.fold IntOp.addi (0#32) f Finset.univ) (funext fun k => ?_)
  have hz : Cert.ReferenceIdeal.ReadP.idx_main_v0 (hR.lift j k) = hK.lift j k := funext fun a => Fin.ext (match a with
    | ⟨0, _⟩ => rfl
    | ⟨1, _⟩ => rfl
    | ⟨2, _⟩ => rfl
    | ⟨3, _⟩ => rfl)
  have hc : Cert.ReferenceIdeal.ReadP.idx_main_v63 (Cert.ReferenceIdeal.ReadP.idx_main_v64 (hR.lift j k)) = chanOf (hK.lift j k) :=
    funext fun a => Fin.ext (match a with
      | ⟨0, _⟩ => rfl)
  rw [Cert.ReferenceIdeal.ReadP.val_main_v65_apply, Cert.ReferenceIdeal.ReadP.val_main_v62_apply, Cert.ReferenceIdeal.ReadP.val_main_v61_apply, Cert.ReferenceIdeal.ReadP.val_main_v0_apply, hz,
    Cert.ReferenceIdeal.ReadP.val_main_v60_apply, Cert.ReferenceIdeal.ReadP.val_main_cst_21_apply, Cert.ReferenceIdeal.ReadP.val_main_v64_apply, Cert.ReferenceIdeal.ReadP.val_main_v63_apply, hc, ← tbl_eq_ref]
  show IntOp.muli ((FloatOps.cmpf .ogt (z (hK.lift j k)) (FloatOps.ofBits (F := Ideal) .f32 0x00000000#32)).setWidth 32)
      (broadcastInDim S64x10x32x32 ![0, 1, 2, 3] bcast_S1x10x1x1_S64x10x32x32_0_1_2_3 (shapeCast S1x10x1x1 kv_main_v81 shapeCasts_S10_S1x10x1x1) (hK.lift j k)) = _
  rw [tbl_spread_apply]

/-- The packed indices: after the host lines that follow the region, from any contents W holding z at the first
    argument, the kernel program's result is the reference's stage for its result, at the same z. -/
theorem idx_out (W : Valuation τ sig (Elt Ideal)) (z : (⟨S64x10x32x32, .f32⟩ : BufTy).Contents (Elt Ideal))
    (hW : W (Proc.devRef .tc main_arg0) = z) :
    StableHlo.after (List.flatten [hostOps1 (F := Ideal), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) W (Proc.devRef .tc main_v91)
      = Cert.ReferenceIdeal.ReadP.val_main_v66 (F := Ideal) z := by
  rw [tail_v91, hW, idx_eq_ref z]

end Cert.HostA

end
-- ==== Proof.RefEntRowMax.lean ====
/-
  A host max-reduce over the code axis of a [65536, 1024] array, read at a row.

  From an initial value of -∞ the reduce is, at row r, the fold of max from -∞ over the row's 1024 entries (the reduced
  index r with code n put back is (r, n)); one more maximum with -∞, which a printed softmax applies to the reduce's
  result, leaves the supremum of the row.
-/
import Idealize.ShloMosaic.PureOps.Reduce
import Idealize.ShloMosaic.PureOps.Ideal.Laws
import Idealize.ShloMosaic.Lib.ValueIdx
import proofs.«149547_j42202348650760_2_alg».proof.Proof.RefEntLaws

noncomputable section

namespace Cert.RefEnt

open Idealize.ShloMosaic Idealize.ShloMosaic.ValueIdx

/-- The reduced index r with code n put back is (r, n). -/
theorem lift_row (h : (⟨2, ![65536, 1024]⟩ : Shape).Reduces [1] (⟨1, ![65536]⟩ : Shape)) (r : Fin 65536)
    (k : Fin ((⟨2, ![65536, 1024]⟩ : Shape).size 1)) :
    h.lift (ix1 r) k = ix2 r (⟨k.val, k.isLt⟩ : Fin 1024) := by
  funext c; apply Fin.ext
  fin_cases c <;> rfl

/-- A max-reduce over the code axis from -∞, followed by a maximum with -∞, is at row r the supremum of the row. -/
theorem rowmax_read (x : (⟨2, ![65536, 1024]⟩ : Shape).Idx → Ideal .f32) (init : (⟨0, ![]⟩ : Shape).Idx → Ideal .f32)
    (h' : (⟨2, ![65536, 1024]⟩ : Shape).ReducesTo [1] (⟨1, ![65536]⟩ : Shape)) (hu : 0 < (⟨0, ![]⟩ : Shape).numel)
    (hinit : init (Shape.Idx.first hu) = (⊥ : EReal)) (r : Fin 65536) :
    max (⊥ : EReal) (Host.reduce (FloatOps.maximumf (F := Ideal) (φ := .f32)) x init h' hu (ix1 r))
      = Finset.univ.sup fun n : Fin 1024 => x (ix2 r n) := by
  have h : (⟨2, ![65536, 1024]⟩ : Shape).Reduces [1] (⟨1, ![65536]⟩ : Shape) := by decide
  rw [Host.reduce_eq_fold_single (FloatOps.maximumf (F := Ideal) (φ := .f32)) x init h' h hu, hinit]
  have hf : (x ∘ h.lift (ix1 r)) = fun k : Fin 1024 => x (ix2 r k) :=
    funext fun k => congrArg x (lift_row h r k)
  rw [hf]
  exact max_bot_fold Finset.univ _

end Cert.RefEnt

end
-- ==== Proof.RefEntReadA.lean ====
/-
  The reference's affinities and their row maxima, read at an index.

  %73 at (r, n): the inner product of row r of the transposed z with code n (a dot_general over the channel axis, read
  at the index the reshape [64,32,32,1024] → [65536,1024] sends (r, n) to, namely (r / 1024, (r / 32) % 32, r % 32, n)),
  times -2, negated, divided by the temperature word: the affinity aff r n of the specification.

  A max-reduce over the code axis from -∞, read at row r, is the fold of max from -∞ over the row's 1024 entries;
  one more maximum with -∞ (which the printed softmax applies) leaves the supremum of the row.
-/
import proofs.«149547_j42202348650760_2_alg».proof.Proof.RefReadP
import proofs.«149547_j42202348650760_2_alg».proof.Proof.RefEntConsts
import proofs.«149547_j42202348650760_2_alg».proof.Proof.RefEntLaws
import proofs.«149547_j42202348650760_2_alg».proof.Proof.RefEntRows
import proofs.«149547_j42202348650760_2_alg».proof.Proof.RefEntRowMax

noncomputable section

namespace Cert.RefEnt

open Cert.ReferenceIdeal Cert.ReferenceIdeal.Gen Cert.ReferenceIdeal.ReadP Idealize.ShloMosaic Idealize.ShloMosaic.ValueIdx

variable (z : (⟨S64x10x32x32, .f32⟩ : BufTy).Contents (Elt Ideal)) (cb : (⟨S1024x10, .f32⟩ : BufTy).Contents (Elt Ideal))

/-- The index of z that entry k of row r reads, through the reshape, the dot_general and the transpose. -/
theorem lidx_at (r : Fin 65536) (n : Fin 1024) (k : Fin 10) :
    idx_main_v0 (lidx_main_v67 (idx_main_v71 (ix2 r n)) k)
      = ix4 (⟨r.val / 1024, by have := r.isLt; omega⟩ : Fin 64) k (⟨r.val / 32 % 32, by omega⟩ : Fin 32) (⟨r.val % 32, by omega⟩ : Fin 32) := by
  have hr := r.isLt
  have hn := n.isLt
  funext a
  match a with
  | ⟨0, _⟩ => exact Fin.ext (by show (r.val * 1024 + n.val) / 1048576 = r.val / 1024; omega)
  | ⟨1, _⟩ => exact Fin.ext rfl
  | ⟨2, _⟩ => exact Fin.ext (by show (r.val * 1024 + n.val) / 32768 % 32 = r.val / 32 % 32; omega)
  | ⟨3, _⟩ => exact Fin.ext (by show (r.val * 1024 + n.val) / 1024 % 32 = r.val % 32; omega)

/-- The index of the codebook that entry k of code n reads. -/
theorem ridx_at (r : Fin 65536) (n : Fin 1024) (k : Fin 10) :
    ridx_main_v67 (idx_main_v71 (ix2 r n)) k = ix2 n k := by
  have hr := r.isLt
  have hn := n.isLt
  funext a
  match a with
  | ⟨0, _⟩ => exact Fin.ext (by show (r.val * 1024 + n.val) % 1024 = n.val; omega)
  | ⟨1, _⟩ => exact Fin.ext rfl

/-- %73 at (r, n) is the affinity of row r to code n. -/
theorem v73_at (r : Fin 65536) (n : Fin 1024) :
    val_main_v73 (F := Ideal) z cb (ix2 r n) = Cert.Spec.aff (zr z) (cbr cb) r n := by
  rw [val_main_v73_apply, val_main_v71_apply, val_main_v70_apply, val_main_v69_apply, val_main_v68_apply,
    val_main_cst_23_apply, val_main_v67_apply, val_main_v72_apply, val_main_cst_24_apply]
  simp only [val_main_v0_apply, lidx_at, ridx_at, Ideal.hostDivf_def, Ideal.hostNegf_def, Ideal.negf_def, Ideal.mulf_def,
    Ideal.ofBits_def]
  rw [scale_law]
  rfl

/-- %76 at row r is the row's largest affinity. -/
theorem v76_at (r : Fin 65536) :
    val_main_v76 (F := Ideal) z cb (ix1 r) = Cert.Spec.rowMax (zr z) (cbr cb) r := by
  rw [val_main_v76_apply, val_main_v75_apply, val_main_cst_26_apply]
  simp only [Ideal.ofBits_def, Ideal.maximumf_def]
  rw [word_neg_inf]
  unfold val_main_v74
  rw [rowmax_read (val_main_v73 (F := Ideal) z cb) (val_main_cst_25 (F := Ideal)) reducesTo_S65536x1024_S65536_d1 h_S_
    (by rw [val_main_cst_25_apply, Ideal.ofBits_def, word_neg_inf]) r]
  unfold Cert.Spec.rowMax
  exact congrArg (fun f : Fin 1024 → EReal => Finset.univ.sup f) (funext fun n => v73_at z cb r n)

/-- %78 at (r, n) is the row's largest affinity. -/
theorem v78_at (r : Fin 65536) (n : Fin 1024) :
    val_main_v78 (F := Ideal) z cb (ix2 r n) = Cert.Spec.rowMax (zr z) (cbr cb) r := by
  rw [val_main_v78_apply, val_main_v77_apply]
  have e : idx_main_v77 (idx_main_v78 (ix2 r n)) = ix1 r := funext fun a => by match a with | ⟨0, _⟩ => rfl
  rw [e, v76_at]

end Cert.RefEnt

end
-- ==== Proof.RefEntReadB.lean ====
/-
  The reference's softmax, log-softmax and the two entropy totals, read at an index.

  Softmax of a row (%79 … %84): subtract the row maximum, exponentiate, sum from 0, divide: the specification's ex,
  rowSum and prob, term for term. The log-softmax (%87) is applied to the affinities plus a small real constant; for
  real affinities the shifted scores (aff + ε) - max (aff + ε) are aff - max aff, so its exponentials, their sum and
  its result are those of the unshifted row: the specification's logProb. This is where the inputs' finiteness enters.
  %89 sums prob · logProb over a row, %90 sums %89 over all rows, and %93 sums prob over the rows of a column.
-/
import proofs.«149547_j42202348650760_2_alg».proof.Proof.RefEntReadA

noncomputable section

namespace Cert.RefEnt

open Cert.ReferenceIdeal Cert.ReferenceIdeal.Gen Cert.ReferenceIdeal.ReadP Idealize.ShloMosaic Idealize.ShloMosaic.ValueIdx

variable (z : (⟨S64x10x32x32, .f32⟩ : BufTy).Contents (Elt Ideal)) (cb : (⟨S1024x10, .f32⟩ : BufTy).Contents (Elt Ideal))

/-- %80 at (r, n): the shifted exponential. -/
theorem v80_at (r : Fin 65536) (n : Fin 1024) :
    val_main_v80 (F := Ideal) z cb (ix2 r n) = Cert.Spec.ex (zr z) (cbr cb) r n := by
  rw [val_main_v80_apply, val_main_v79_apply, v73_at, v78_at]
  rfl

/-- %81 at row r: the sum of the row's shifted exponentials. -/
theorem v81_at (r : Fin 65536) :
    val_main_v81 (F := Ideal) z cb (ix1 r) = Cert.Spec.rowSum (zr z) (cbr cb) r := by
  rw [val_main_v81_apply, val_main_cst_27_apply, Ideal.ofBits_def, word_zero, zero_add]
  unfold Cert.Spec.rowSum
  refine Finset.sum_congr rfl fun k _ => ?_
  have e : idx_main_v81 (ix1 r) k = ix2 r k := funext fun a => by match a with | ⟨0, _⟩ => rfl | ⟨1, _⟩ => rfl
  rw [e, v80_at]

/-- %83 at (r, n): the row's sum. -/
theorem v83_at (r : Fin 65536) (n : Fin 1024) :
    val_main_v83 (F := Ideal) z cb (ix2 r n) = Cert.Spec.rowSum (zr z) (cbr cb) r := by
  rw [val_main_v83_apply, val_main_v82_apply]
  have e : idx_main_v82 (idx_main_v83 (ix2 r n)) = ix1 r := funext fun a => by match a with | ⟨0, _⟩ => rfl
  rw [e, v81_at]

/-- %84 at (r, n): the softmax. -/
theorem v84_at (r : Fin 65536) (n : Fin 1024) :
    val_main_v84 (F := Ideal) z cb (ix2 r n) = Cert.Spec.prob (zr z) (cbr cb) r n := by
  rw [val_main_v84_apply, v80_at, v83_at]
  rfl

/-- %86 at (r, n): the affinity plus the small constant. -/
theorem v86_at (r : Fin 65536) (n : Fin 1024) :
    val_main_v86 (F := Ideal) z cb (ix2 r n) = Cert.Spec.aff (zr z) (cbr cb) r n + Ideal.ofBits .f32 0x3727C5AC#32 := by
  rw [val_main_v86_apply, v73_at, val_main_v85_apply, val_main_cst_28_apply]
  rfl

/-- The log-softmax's row maximum at row r: the supremum of the shifted row. -/
theorem c8v2_at (r : Fin 65536) :
    val_main_call8_v2 (F := Ideal) z cb (ix1 r)
      = Finset.univ.sup fun n : Fin 1024 => Cert.Spec.aff (zr z) (cbr cb) r n + Ideal.ofBits .f32 0x3727C5AC#32 := by
  rw [val_main_call8_v2_apply, val_main_call8_v1_apply, val_main_call8_cst_0_apply]
  simp only [Ideal.ofBits_def, Ideal.maximumf_def]
  rw [word_neg_inf]
  unfold val_main_call8_v0
  rw [rowmax_read (val_main_v86 (F := Ideal) z cb) (val_main_call8_cst (F := Ideal)) reducesTo_S65536x1024_S65536_d1 h_S_
    (by rw [val_main_call8_cst_apply, Ideal.ofBits_def, word_neg_inf]) r]
  exact congrArg (fun f : Fin 1024 → EReal => Finset.univ.sup f) (funext fun n => v86_at z cb r n)

variable (hz : ∀ i, ∃ x : ℝ, z i = (x : EReal)) (hc : ∀ i, ∃ x : ℝ, cb i = (x : EReal))

include hz hc in
/-- The log-softmax's shifted score at (r, n) is the unshifted row's: aff r n minus the row maximum. -/
theorem c8v5_at (r : Fin 65536) (n : Fin 1024) :
    val_main_call8_v5 (F := Ideal) z cb (ix2 r n)
      = Cert.Spec.aff (zr z) (cbr cb) r n - Cert.Spec.rowMax (zr z) (cbr cb) r := by
  rw [val_main_call8_v5_apply, v86_at, val_main_call8_v4_apply, val_main_call8_v3_apply]
  have e : idx_main_call8_v3 (idx_main_call8_v4 (ix2 r n)) = ix1 r := funext fun a => by match a with | ⟨0, _⟩ => rfl
  rw [e, c8v2_at]
  obtain ⟨ε, hε⟩ := word_eps
  rw [hε]
  exact aff_shift (zr z) (cbr cb) (zr_real z hz) (cbr_real cb hc) ε r n

include hz hc in
/-- The log-softmax's exponential at (r, n) is the softmax's. -/
theorem c8v6_at (r : Fin 65536) (n : Fin 1024) :
    val_main_call8_v6 (F := Ideal) z cb (ix2 r n) = Cert.Spec.ex (zr z) (cbr cb) r n := by
  rw [val_main_call8_v6_apply, c8v5_at z cb hz hc]
  rfl

include hz hc in
/-- The log-softmax's row sum at row r is the softmax's. -/
theorem c8v7_at (r : Fin 65536) :
    val_main_call8_v7 (F := Ideal) z cb (ix1 r) = Cert.Spec.rowSum (zr z) (cbr cb) r := by
  rw [val_main_call8_v7_apply, val_main_call8_cst_1_apply, Ideal.ofBits_def, word_zero, zero_add]
  unfold Cert.Spec.rowSum
  refine Finset.sum_congr rfl fun k _ => ?_
  have e : idx_main_call8_v7 (ix1 r) k = ix2 r k := funext fun a => by match a with | ⟨0, _⟩ => rfl | ⟨1, _⟩ => rfl
  rw [e, c8v6_at z cb hz hc]

include hz hc in
/-- %87 at (r, n): the log-softmax of the specification. -/
theorem v87_at (r : Fin 65536) (n : Fin 1024) :
    val_main_v87 (F := Ideal) z cb (ix2 r n) = Cert.Spec.logProb (zr z) (cbr cb) r n := by
  rw [val_main_v87_apply, c8v5_at z cb hz hc, val_main_call8_v10_apply, val_main_call8_v9_apply, val_main_call8_v8_apply]
  have e : idx_main_call8_v8 (idx_main_call8_v10 (ix2 r n)) = ix1 r := funext fun a => by match a with | ⟨0, _⟩ => rfl
  rw [e, c8v7_at z cb hz hc]
  rfl

include hz hc in
/-- %89 at row r: the row's ∑ p log p. -/
theorem v89_at (r : Fin 65536) :
    val_main_v89 (F := Ideal) z cb (ix1 r) = Cert.Spec.rowEnt (zr z) (cbr cb) r := by
  rw [val_main_v89_apply, val_main_cst_29_apply, Ideal.ofBits_def, word_zero, zero_add]
  unfold Cert.Spec.rowEnt
  refine Finset.sum_congr rfl fun k _ => ?_
  have e : idx_main_v89 (ix1 r) k = ix2 r k := funext fun a => by match a with | ⟨0, _⟩ => rfl | ⟨1, _⟩ => rfl
  rw [e, val_main_v88_apply, v84_at, v87_at z cb hz hc]
  rfl

/-- A rank-1 index set is its one coordinate's range. -/
def idxEquiv1 : S65536.Idx ≃ Fin 65536 where
  toFun j := j 0
  invFun r := ix1 r
  left_inv j := (eq_ix1 j).symm
  right_inv _ := rfl

include hz hc in
/-- (1) %90 at its one index: the total of ∑ p log p over all rows. -/
theorem v90_eq (i : S_.Idx) :
    val_main_v90 (F := Ideal) z cb i = Cert.Spec.totalEnt (zr z) (cbr cb) := by
  rw [val_main_v90_apply, val_main_cst_30_apply, Ideal.ofBits_def, word_zero, zero_add]
  unfold Cert.Spec.totalEnt
  rw [← Equiv.sum_comp idxEquiv1.symm]
  exact Finset.sum_congr rfl fun r _ => v89_at z cb hz hc r

/-- (2) %93 at code n: the column sum of the softmax. -/
theorem v93_at (n : Fin 1024) :
    val_main_v93 (F := Ideal) z cb (ix1 n) = Cert.Spec.colProb (zr z) (cbr cb) n := by
  rw [val_main_v93_apply, val_main_cst_32_apply, Ideal.ofBits_def, word_zero, zero_add]
  unfold Cert.Spec.colProb
  refine Finset.sum_congr rfl fun k _ => ?_
  have e : idx_main_v93 (ix1 n) k = ix2 k n := funext fun a => by match a with | ⟨0, _⟩ => rfl | ⟨1, _⟩ => rfl
  rw [e, v84_at]

end Cert.RefEnt

end
-- ==== Proof.TailEntTotals.lean ====
/-
  The kernel program's two entropy totals after its region, and when they are the reference's.

  The region leaves two partial totals (one per half of the rows) in an array of shape [2,1,1] and two partial column
  sums in an array of shape [2,1,1024]. The host lines add the parts: the total is the sum over the first array, from 0;
  the column sum of code n is the sum over the leading axis of the second, (0,0,n) plus (1,0,n), re-read as a vector of
  1024. When the parts add up to the specification's totalEnt and colProb, these are the reference's %90 and %93.
-/
import proofs.«149547_j42202348650760_2_alg».proof.Proof.Gen.KernelIdeal.Launch
import proofs.«149547_j42202348650760_2_alg».proof.Proof.HostAKeep
import proofs.«149547_j42202348650760_2_alg».proof.Proof.RefEntReadB

set_option maxRecDepth 16384

noncomputable section

namespace Cert.TailEnt

open Cert.KernelIdeal Cert.KernelIdeal.Gen
open Idealize.ShloMosaic Idealize.ShloMosaic.TcCoe Idealize.ShloMosaic.StableHlo Idealize.ShloMosaic.ValueIdx
open Cert.HostA Cert.RefEnt

/-- The kernel program's total: the sum of the region's two partial totals, from 0. -/
def totK (SE : (⟨S2x1x1, .f32⟩ : BufTy).Contents (Elt Ideal)) : (⟨S_, .f32⟩ : BufTy).Contents (Elt Ideal) :=
  Host.reduceAdd SE (constant (F := Ideal) S_ .f32 0x00000000#32) reducesTo_S2x1x1_S_d0_1_2 h_S_

/-- The kernel program's column sums: the two partial column sums added, as a vector of 1024. -/
def colK (SP : (⟨S2x1x1024, .f32⟩ : BufTy).Contents (Elt Ideal)) : (⟨S1024, .f32⟩ : BufTy).Contents (Elt Ideal) :=
  shapeCast S1024 (Host.reduceAdd SP (constant (F := Ideal) S_ .f32 0x00000000#32) reducesTo_S2x1x1024_S1x1024_d0 h_S_)
    shapeCasts_S1x1024_S1024

/-- The total at its one index is the sum of the region's partial totals. -/
theorem totK_apply (SE : (⟨S2x1x1, .f32⟩ : BufTy).Contents (Elt Ideal)) (i : S_.Idx) : totK SE i = ∑ j : S2x1x1.Idx, SE j := by
  have h : totK SE i = (constant (F := Ideal) S_ .f32 0x00000000#32) (Shape.Idx.first h_S_) + ∑ j : S2x1x1.Idx, SE j := by
    unfold totK
    simp only [Host.reduceAdd, Ideal.hostReduceAdd_def]
    exact Ideal.hostReduceAdd_total reducesTo_S2x1x1_S_d0_1_2 (fun b => b.elim0) SE _ i
  rw [h]
  show Ideal.ofBits .f32 0x00000000#32 + _ = _
  rw [word_zero, zero_add]

/-- The reduced index (0, n) with the part k put back is (k, 0, n). -/
theorem lift_col (h : S2x1x1024.Reduces [0] S1x1024) (n : Fin 1024) (k : Fin (S2x1x1024.size 0)) :
    h.lift (ix2 (0 : Fin 1) n) k = ix3 (⟨k.val, k.isLt⟩ : Fin 2) (0 : Fin 1) n := by
  funext c; apply Fin.ext
  fin_cases c <;> rfl

/-- The column sums at code n: the two partial column sums added. -/
theorem colK_apply (SP : (⟨S2x1x1024, .f32⟩ : BufTy).Contents (Elt Ideal)) (n : Fin 1024) :
    colK SP (ix1 n) = SP (ix3 (0 : Fin 2) (0 : Fin 1) n) + SP (ix3 (1 : Fin 2) (0 : Fin 1) n) := by
  unfold colK
  rw [shapeCast_apply _ shapeCasts_S1x1024_S1024 (ix1 n) (ix2 (0 : Fin 1) n)
    (by rw [Shape.rowMajor_val_two, Shape.rowMajor_val_one]; show 0 * 1024 + n.val = n.val; omega)]
  simp only [Host.reduceAdd, Ideal.hostReduceAdd_def]
  have hr : S2x1x1024.Reduces [0] S1x1024 := by decide
  rw [Ideal.hostReduceAdd_single reducesTo_S2x1x1024_S1x1024_d0 hr]
  have e : (∑ k : Fin (S2x1x1024.size 0), SP (hr.lift (ix2 (0 : Fin 1) n) k))
      = SP (ix3 (0 : Fin 2) (0 : Fin 1) n) + SP (ix3 (1 : Fin 2) (0 : Fin 1) n) :=
    (Finset.sum_congr rfl fun k _ => congrArg SP (lift_col hr n k)).trans
      (Fin.sum_univ_two fun k : Fin 2 => SP (ix3 k (0 : Fin 1) n))
  rw [e]
  show Ideal.ofBits .f32 0x00000000#32 + _ = _
  rw [word_zero, zero_add]

variable (z : (⟨S64x10x32x32, .f32⟩ : BufTy).Contents (Elt Ideal)) (cb : (⟨S1024x10, .f32⟩ : BufTy).Contents (Elt Ideal))
  (hz : ∀ i, ∃ x : ℝ, z i = (x : EReal)) (hc : ∀ i, ∃ x : ℝ, cb i = (x : EReal))

include hz hc in
/-- When the region's partial totals add up to the specification's total, the kernel program's total is the reference's. -/
theorem totK_eq (SE : (⟨S2x1x1, .f32⟩ : BufTy).Contents (Elt Ideal))
    (hSE : ∑ j : S2x1x1.Idx, SE j = Cert.Spec.totalEnt (zr z) (cbr cb)) :
    totK SE = Cert.ReferenceIdeal.ReadP.val_main_v90 (F := Ideal) z cb := by
  funext i
  rw [totK_apply, hSE]
  exact (v90_eq z cb hz hc i).symm

/-- When the region's partial column sums add up to the specification's, the kernel program's column sums are the reference's. -/
theorem colK_eq (SP : (⟨S2x1x1024, .f32⟩ : BufTy).Contents (Elt Ideal))
    (hSP : ∀ n : Fin 1024, SP (ix3 (0 : Fin 2) (0 : Fin 1) n) + SP (ix3 (1 : Fin 2) (0 : Fin 1) n) = Cert.Spec.colProb (zr z) (cbr cb) n) :
    colK SP = Cert.ReferenceIdeal.ReadP.val_main_v93 (F := Ideal) z cb := by
  funext j
  obtain ⟨n, rfl⟩ : ∃ n : Fin 1024, j = ix1 n := ⟨j 0, eq_ix1 j⟩
  rw [colK_apply, hSP]
  exact (v93_at z cb n).symm

end Cert.TailEnt

end
-- ==== Proof.TailEntRef.lean ====
/-
  The scalar lines both programs apply to the two entropy totals, as functions of the totals, and the reference's
  results as these functions of its own totals.

  From the total t = ∑ p log p over all rows and codes: the per-sample entropy is -(t / 65536).
  From the column sums c of the softmax: with q = c / 65536 the average distribution, the entropy of the average is
  -(∑ q · log (q + ε)) · 1. The entropy loss is 0.1 · (per-sample entropy - entropy of the average), and the loss adds
  the commitment term m to it. The reference computes exactly these lines after its totals %90 and %93, so each of its
  results is the corresponding function of %90 and %93 by unfolding.
-/
import proofs.«149547_j42202348650760_2_alg».proof.Proof.RefReadP

noncomputable section

namespace Cert.TailEnt

open Cert.ReferenceIdeal Cert.ReferenceIdeal.Gen Cert.ReferenceIdeal.ReadP Idealize.ShloMosaic

/-- The per-sample entropy from the total t: -(t / 65536). -/
def perSample (t : (⟨S_, .f32⟩ : BufTy).Contents (Elt Ideal)) : (⟨S_, .f32⟩ : BufTy).Contents (Elt Ideal) :=
  Host.negf (Host.divf t (constant (F := Ideal) S_ .f32 0x47800000#32))

/-- The average code distribution from the column sums c: c / 65536. -/
def avgProb (c : (⟨S1024, .f32⟩ : BufTy).Contents (Elt Ideal)) : (⟨S1024, .f32⟩ : BufTy).Contents (Elt Ideal) :=
  Host.divf c (broadcastInDim S1024 ![] bcast_S_S1024 (constant (F := Ideal) S_ .f32 0x47800000#32))

/-- The entropy of the average code distribution: -(∑ q · log (q + ε)) · 1 with q = c / 65536. -/
def avgEnt (c : (⟨S1024, .f32⟩ : BufTy).Contents (Elt Ideal)) : (⟨S_, .f32⟩ : BufTy).Contents (Elt Ideal) :=
  mulf (Host.negf (Host.reduceAdd
      (mulf (avgProb c)
        (Host.log (addf (avgProb c) (broadcastInDim S1024 ![] bcast_S_S1024 (constant (F := Ideal) S_ .f32 0x3727C5AC#32)))))
      (constant (F := Ideal) S_ .f32 0x00000000#32) reducesTo_S1024_S_d0 h_S_))
    (constant (F := Ideal) S_ .f32 0x3F800000#32)

/-- The entropy loss: 0.1 · (per-sample entropy - entropy of the average). -/
def entLoss (t : (⟨S_, .f32⟩ : BufTy).Contents (Elt Ideal)) (c : (⟨S1024, .f32⟩ : BufTy).Contents (Elt Ideal)) :
    (⟨S_, .f32⟩ : BufTy).Contents (Elt Ideal) :=
  mulf (constant (F := Ideal) S_ .f32 0x3DCCCCCD#32) (subf (perSample t) (avgEnt c))

/-- The loss: the commitment term plus the entropy loss. -/
def loss (m t : (⟨S_, .f32⟩ : BufTy).Contents (Elt Ideal)) (c : (⟨S1024, .f32⟩ : BufTy).Contents (Elt Ideal)) :
    (⟨S_, .f32⟩ : BufTy).Contents (Elt Ideal) :=
  addf (show FVec Ideal S_ .f32 from m) (entLoss t c)

variable (z : (⟨S64x10x32x32, .f32⟩ : BufTy).Contents (Elt Ideal)) (cb : (⟨S1024x10, .f32⟩ : BufTy).Contents (Elt Ideal))

/-- The reference's per-sample entropy %92 is this function of its total %90. -/
theorem ref_v92 : val_main_v92 (F := Ideal) z cb = perSample (val_main_v90 (F := Ideal) z cb) := rfl

/-- The reference's entropy of the average %102 is this function of its column sums %93. -/
theorem ref_v102 : val_main_v102 (F := Ideal) z cb = avgEnt (val_main_v93 (F := Ideal) z cb) := rfl

/-- The reference's entropy loss %104. -/
theorem ref_v104 : val_main_v104 (F := Ideal) z cb = entLoss (val_main_v90 (F := Ideal) z cb) (val_main_v93 (F := Ideal) z cb) := rfl

/-- The reference's loss %112. -/
theorem ref_v112 : val_main_v112 (F := Ideal) z cb
    = loss (val_main_v111 (F := Ideal) z) (val_main_v90 (F := Ideal) z cb) (val_main_v93 (F := Ideal) z cb) := rfl

end Cert.TailEnt

end
-- ==== Proof.TailEntK0.lean ====
/-
  What the first stretch of host lines after the region leaves in the three entropy results, as the shared scalar
  functions of the kernel program's two totals: per-sample entropy, entropy of the average, entropy loss.
-/
import proofs.«149547_j42202348650760_2_alg».proof.Proof.TailEntTotals
import proofs.«149547_j42202348650760_2_alg».proof.Proof.TailEntRef

set_option maxRecDepth 16384

noncomputable section

namespace Cert.TailEnt

open Cert.KernelIdeal Cert.KernelIdeal.Gen
open Idealize.ShloMosaic Idealize.ShloMosaic.TcCoe Idealize.ShloMosaic.StableHlo Idealize.ShloMosaic.ValueIdx
open Cert.HostA Cert.RefEnt

/-- The first stretch leaves the per-sample entropy of the region's total. -/
theorem k0_v8 (V : Valuation τ sig (Elt Ideal)) :
    StableHlo.after (hostOps1 (F := Ideal)) V (Proc.devRef .tc main_v8) = perSample (totK (V (Proc.devRef .tc main_v3_0))) := by
  after_results
  rfl

/-- The first stretch leaves the entropy of the average of the region's column sums. -/
theorem k0_v17 (V : Valuation τ sig (Elt Ideal)) :
    StableHlo.after (hostOps1 (F := Ideal)) V (Proc.devRef .tc main_v17) = avgEnt (colK (V (Proc.devRef .tc main_v3_1))) := by
  after_results
  rfl

/-- The first stretch leaves the entropy loss. -/
theorem k0_v19 (V : Valuation τ sig (Elt Ideal)) :
    StableHlo.after (hostOps1 (F := Ideal)) V (Proc.devRef .tc main_v19)
      = entLoss (totK (V (Proc.devRef .tc main_v3_0))) (colK (V (Proc.devRef .tc main_v3_1))) := by
  after_results
  rfl

end Cert.TailEnt

end
-- ==== Proof.TailEntK2.lean ====
/-
  What the third stretch of host lines leaves: the commitment term 0.25 · ((∑ (q - z)²) / 655360) of the quantised
  array q and z it finds, and the loss, that term plus the entropy loss it finds.
-/
import proofs.«149547_j42202348650760_2_alg».proof.Proof.Gen.KernelIdeal.Launch
import proofs.«149547_j42202348650760_2_alg».proof.Proof.HostAKeep

set_option maxRecDepth 16384

noncomputable section

namespace Cert.TailEnt

open Cert.KernelIdeal Cert.KernelIdeal.Gen
open Idealize.ShloMosaic Idealize.ShloMosaic.TcCoe Idealize.ShloMosaic.StableHlo
open Cert.HostA

/-- The commitment term as the third stretch computes it from the quantised array q and z: 0.25 · ((∑ (q - z)²) / 655360). -/
def commitK (q z : (⟨S64x10x32x32, .f32⟩ : BufTy).Contents (Elt Ideal)) : (⟨S_, .f32⟩ : BufTy).Contents (Elt Ideal) :=
  mulf (constant (F := Ideal) S_ .f32 0x3E800000#32)
    (Host.divf
      (Host.reduceAdd (mulf (subf (id q) z) (subf (id q) z)) (constant (F := Ideal) S_ .f32 0x00000000#32)
        reducesTo_S64x10x32x32_S_d0_1_2_3 h_S_)
      (constant (F := Ideal) S_ .f32 0x49200000#32))

/-- The third stretch leaves the commitment term of the quantised array and z it finds. -/
theorem k2_v28 (V : Valuation τ sig (Elt Ideal)) :
    StableHlo.after (hostOps1_2 (F := Ideal)) V (Proc.devRef .tc main_v28)
      = commitK (V (Proc.devRef .tc main_v22)) (V (Proc.devRef .tc main_arg0)) := by
  after_results
  rfl

/-- The third stretch adds the entropy loss it finds to that commitment term. -/
theorem k2_v29 (V : Valuation τ sig (Elt Ideal)) :
    @Eq (FVec Ideal S_ .f32) (StableHlo.after (hostOps1_2 (F := Ideal)) V (Proc.devRef .tc main_v29))
      (addf (commitK (V (Proc.devRef .tc main_v22)) (V (Proc.devRef .tc main_arg0))) (V (Proc.devRef .tc main_v19))) := by
  after_results
  rfl

end Cert.TailEnt

end
-- ==== Proof.TailEnt.lean ====
/-
  The kernel program's four entropy results after all its host lines are the reference's.

  Each result is written in one stretch of host lines and touched by no later one, so after all seventeen stretches it
  holds what that stretch left. That value is a shared scalar function of the kernel program's two totals; the totals
  are the reference's %90 and %93 once the region's partial totals add up to the specification's; and the reference's
  result is the same function of %90 and %93. The loss also adds the commitment term, taken as given equal to the
  reference's %111.
-/
import proofs.«149547_j42202348650760_2_alg».proof.Proof.TailEntK0
import proofs.«149547_j42202348650760_2_alg».proof.Proof.TailEntK2

set_option maxRecDepth 16384

noncomputable section

namespace Cert.TailEnt

open Cert.KernelIdeal Cert.KernelIdeal.Gen
open Idealize.ShloMosaic Idealize.ShloMosaic.TcCoe Idealize.ShloMosaic.StableHlo Idealize.ShloMosaic.ValueIdx
open Cert.HostA Cert.RefEnt

variable (z : (⟨S64x10x32x32, .f32⟩ : BufTy).Contents (Elt Ideal)) (cb : (⟨S1024x10, .f32⟩ : BufTy).Contents (Elt Ideal))
  (hz : ∀ i, ∃ x : ℝ, z i = (x : EReal)) (hc : ∀ i, ∃ x : ℝ, cb i = (x : EReal))

variable (W : Valuation τ sig (Elt Ideal))
  (SE : (⟨S2x1x1, .f32⟩ : BufTy).Contents (Elt Ideal)) (SP : (⟨S2x1x1024, .f32⟩ : BufTy).Contents (Elt Ideal))
  (hW0 : W (Proc.devRef .tc main_v3_0) = SE) (hW1 : W (Proc.devRef .tc main_v3_1) = SP)
  (hSE : ∑ j : S2x1x1.Idx, SE j = Cert.Spec.totalEnt (zr z) (cbr cb))
  (hSP : ∀ n : Fin 1024, SP (ix3 (0 : Fin 2) (0 : Fin 1) n) + SP (ix3 (1 : Fin 2) (0 : Fin 1) n) = Cert.Spec.colProb (zr z) (cbr cb) n)

include hz hc hW0 hSE in
/-- (T4) per-sample entropy: after all the host lines the kernel program's result is the reference's %92. -/
theorem tail_v8 :
    StableHlo.after (List.flatten [hostOps1 (F := Ideal), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) W (Proc.devRef .tc main_v8)
      = Cert.ReferenceIdeal.ReadP.val_main_v92 (F := Ideal) z cb := by
  simp only [after_flatten_cons, List.flatten_nil, StableHlo.after_nil]
  rw [keep16 _ main_v8 (by decide), keep15 _ main_v8 (by decide), keep14 _ main_v8 (by decide), keep13 _ main_v8 (by decide), keep12 _ main_v8 (by decide), keep11 _ main_v8 (by decide), keep10 _ main_v8 (by decide), keep9 _ main_v8 (by decide), keep8 _ main_v8 (by decide), keep7 _ main_v8 (by decide), keep6 _ main_v8 (by decide), keep5 _ main_v8 (by decide), keep4 _ main_v8 (by decide), keep3 _ main_v8 (by decide), keep2 _ main_v8 (by decide), keep1 _ main_v8 (by decide)]
  rw [k0_v8, hW0, ref_v92, totK_eq z cb hz hc SE hSE]

include hW1 hSP in
/-- (T5) entropy of the average: the kernel program's result is the reference's %102. -/
theorem tail_v17 :
    StableHlo.after (List.flatten [hostOps1 (F := Ideal), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) W (Proc.devRef .tc main_v17)
      = Cert.ReferenceIdeal.ReadP.val_main_v102 (F := Ideal) z cb := by
  simp only [after_flatten_cons, List.flatten_nil, StableHlo.after_nil]
  rw [keep16 _ main_v17 (by decide), keep15 _ main_v17 (by decide), keep14 _ main_v17 (by decide), keep13 _ main_v17 (by decide), keep12 _ main_v17 (by decide), keep11 _ main_v17 (by decide), keep10 _ main_v17 (by decide), keep9 _ main_v17 (by decide), keep8 _ main_v17 (by decide), keep7 _ main_v17 (by decide), keep6 _ main_v17 (by decide), keep5 _ main_v17 (by decide), keep4 _ main_v17 (by decide), keep3 _ main_v17 (by decide), keep2 _ main_v17 (by decide), keep1 _ main_v17 (by decide)]
  rw [k0_v17, hW1, ref_v102, colK_eq z cb SP hSP]

include hz hc hW0 hW1 hSE hSP in
/-- (T3) entropy loss: the kernel program's result is the reference's %104. -/
theorem tail_v19 :
    StableHlo.after (List.flatten [hostOps1 (F := Ideal), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) W (Proc.devRef .tc main_v19)
      = Cert.ReferenceIdeal.ReadP.val_main_v104 (F := Ideal) z cb := by
  simp only [after_flatten_cons, List.flatten_nil, StableHlo.after_nil]
  rw [keep16 _ main_v19 (by decide), keep15 _ main_v19 (by decide), keep14 _ main_v19 (by decide), keep13 _ main_v19 (by decide), keep12 _ main_v19 (by decide), keep11 _ main_v19 (by decide), keep10 _ main_v19 (by decide), keep9 _ main_v19 (by decide), keep8 _ main_v19 (by decide), keep7 _ main_v19 (by decide), keep6 _ main_v19 (by decide), keep5 _ main_v19 (by decide), keep4 _ main_v19 (by decide), keep3 _ main_v19 (by decide), keep2 _ main_v19 (by decide), keep1 _ main_v19 (by decide)]
  rw [k0_v19, hW0, hW1, ref_v104, totK_eq z cb hz hc SE hSE, colK_eq z cb SP hSP]

include hz hc hW0 hW1 hSE hSP in
/-- (T1) loss: given that the commitment term is the reference's %111, the kernel program's loss is the reference's %112. -/
theorem tail_v29
    (hcommit : StableHlo.after (List.flatten [hostOps1 (F := Ideal), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) W (Proc.devRef .tc main_v28)
      = Cert.ReferenceIdeal.ReadP.val_main_v111 (F := Ideal) z) :
    StableHlo.after (List.flatten [hostOps1 (F := Ideal), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) W (Proc.devRef .tc main_v29)
      = Cert.ReferenceIdeal.ReadP.val_main_v112 (F := Ideal) z cb := by
  have h28 : commitK (StableHlo.after (hostOps1_1 (F := Ideal)) (StableHlo.after (hostOps1 (F := Ideal)) W) (Proc.devRef .tc main_v22))
      (StableHlo.after (hostOps1_1 (F := Ideal)) (StableHlo.after (hostOps1 (F := Ideal)) W) (Proc.devRef .tc main_arg0))
      = Cert.ReferenceIdeal.ReadP.val_main_v111 (F := Ideal) z := by
    rw [← hcommit]
    simp only [after_flatten_cons, List.flatten_nil, StableHlo.after_nil]
    rw [keep16 _ main_v28 (by decide), keep15 _ main_v28 (by decide), keep14 _ main_v28 (by decide), keep13 _ main_v28 (by decide), keep12 _ main_v28 (by decide), keep11 _ main_v28 (by decide), keep10 _ main_v28 (by decide), keep9 _ main_v28 (by decide), keep8 _ main_v28 (by decide), keep7 _ main_v28 (by decide), keep6 _ main_v28 (by decide), keep5 _ main_v28 (by decide), keep4 _ main_v28 (by decide), keep3 _ main_v28 (by decide), k2_v28]
  simp only [after_flatten_cons, List.flatten_nil, StableHlo.after_nil]
  rw [keep16 _ main_v29 (by decide), keep15 _ main_v29 (by decide), keep14 _ main_v29 (by decide), keep13 _ main_v29 (by decide), keep12 _ main_v29 (by decide), keep11 _ main_v29 (by decide), keep10 _ main_v29 (by decide), keep9 _ main_v29 (by decide), keep8 _ main_v29 (by decide), keep7 _ main_v29 (by decide), keep6 _ main_v29 (by decide), keep5 _ main_v29 (by decide), keep4 _ main_v29 (by decide), keep3 _ main_v29 (by decide)]
  rw [k2_v29, h28, keep1 _ main_v19 (by decide), k0_v19, hW0, hW1, ref_v112, totK_eq z cb hz hc SE hSE, colK_eq z cb SP hSP]
  rfl

end Cert.TailEnt

end
-- ==== Proof.KIValue.lean ====
/-
  The idealized kernel's run with every result named.

  The frame run leaves each window's array at what the proof data compute and every other buffer at what the 146
  host lines after the region make of the region's exit contents. Three results (the sign quantization, the
  commitment loss, the packed indices) are functions of z alone; the four entropy results are functions of the two
  accumulator arrays, whose entries add up to the specification's totals. Each is the reference's stage function of
  the same arguments, for entrywise real z and codebook.
-/
import proofs.«149547_j42202348650760_2_alg».proof.Proof.KITotals
import proofs.«149547_j42202348650760_2_alg».proof.Proof.HostAZq
import proofs.«149547_j42202348650760_2_alg».proof.Proof.HostACommit
import proofs.«149547_j42202348650760_2_alg».proof.Proof.HostAIdx
import proofs.«149547_j42202348650760_2_alg».proof.Proof.TailEnt

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The region's exit contents on core c: the windows' arrays at their final contents, the rest as found. -/
abbrev Wexit (c : Dev nD) : Valuation τ sig (Elt Ideal) :=
  Pipeline.withArrays spec0 c (V0 m c) fun w => (dats m 0 c).arrAt w cfg0.N

theorem Wexit_arg0 (c : Dev nD) : Wexit m c (Proc.devRef .tc main_arg0) = m ((c : Thread nD τ).loc main_arg0) :=
  (Pipeline.withArrays_of_ne _ c (V0 m c) _ main_arg0 (by exact (by decide : ∀ w, Pipeline.arrRef spec0 w ≠ main_arg0))).trans
    (V_main_arg0 m c)
theorem Wexit_ent (c : Dev nD) : Wexit m c (Proc.devRef .tc main_v3_0) = G2 m c :=
  (Pipeline.withArrays_arr spec0 launch0.win.arr_inj c _ _ 2).trans (final2 m c)
theorem Wexit_col (c : Dev nD) : Wexit m c (Proc.devRef .tc main_v3_1) = G3 m c :=
  (Pipeline.withArrays_arr spec0 launch0.win.arr_inj c _ _ 3).trans (final3 m c)

/-- Every weakly fair execution of the idealized kernel ends with each result at the reference's stage function of
    the argument arrays, and the arguments unchanged. -/
theorem run_value
    (hz : ∀ (c : Dev nD) i, ∃ x : ℝ, m ((c : Thread nD τ).loc main_arg0) i = (x : EReal))
    (hc : ∀ (c : Dev nD) i, ∃ x : ℝ, m ((c : Thread nD τ).loc main_arg1) i = (x : EReal)) :
    θ_run defs (onTc (τ := τ) (main (F := Ideal))) ⟨m, fun _ => 0, ρ⟩ (fun r => ∀ c : Dev nD,
      r.2.mem ((c.tc : Thread nD τ).loc main_v23) = Cert.ReferenceIdeal.ReadP.val_main_v113 (F := Ideal) (m ((c : Thread nD τ).loc main_arg0))
      ∧ r.2.mem ((c.tc : Thread nD τ).loc main_v29) = Cert.ReferenceIdeal.ReadP.val_main_v112 (F := Ideal) (m ((c : Thread nD τ).loc main_arg0)) (m ((c : Thread nD τ).loc main_arg1))
      ∧ r.2.mem ((c.tc : Thread nD τ).loc main_v28) = Cert.ReferenceIdeal.ReadP.val_main_v111 (F := Ideal) (m ((c : Thread nD τ).loc main_arg0))
      ∧ r.2.mem ((c.tc : Thread nD τ).loc main_v19) = Cert.ReferenceIdeal.ReadP.val_main_v104 (F := Ideal) (m ((c : Thread nD τ).loc main_arg0)) (m ((c : Thread nD τ).loc main_arg1))
      ∧ r.2.mem ((c.tc : Thread nD τ).loc main_v8) = Cert.ReferenceIdeal.ReadP.val_main_v92 (F := Ideal) (m ((c : Thread nD τ).loc main_arg0)) (m ((c : Thread nD τ).loc main_arg1))
      ∧ r.2.mem ((c.tc : Thread nD τ).loc main_v17) = Cert.ReferenceIdeal.ReadP.val_main_v102 (F := Ideal) (m ((c : Thread nD τ).loc main_arg0)) (m ((c : Thread nD τ).loc main_arg1))
      ∧ r.2.mem ((c.tc : Thread nD τ).loc main_v91) = Cert.ReferenceIdeal.ReadP.val_main_v66 (F := Ideal) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  have hrest := (h c).2
  have hW := Wexit_arg0 m c
  have hE := Wexit_ent m c
  have hP := Wexit_col m c
  have hSE := sum_G2 m c
  have hSP := sum_G3 m c
  have hcommit := Cert.HostA.commit_out (Wexit m c) _ hW (hz c)
  refine ⟨?_, ?_, ?_, ?_, ?_, ?_, ?_, ?_, ?_⟩
  · exact (hrest main_v23 (Pipeline.mem_restRefs_of main_v23 (by decide) (by decide))).trans
      (Cert.HostA.zq_out (Wexit m c) _ hW (hz c))
  · exact (hrest main_v29 (Pipeline.mem_restRefs_of main_v29 (by decide) (by decide))).trans
      (Cert.TailEnt.tail_v29 _ _ (hz c) (hc c) (Wexit m c) _ _ hE hP hSE hSP hcommit)
  · exact (hrest main_v28 (Pipeline.mem_restRefs_of main_v28 (by decide) (by decide))).trans hcommit
  · exact (hrest main_v19 (Pipeline.mem_restRefs_of main_v19 (by decide) (by decide))).trans
      (Cert.TailEnt.tail_v19 _ _ (hz c) (hc c) (Wexit m c) _ _ hE hP hSE hSP)
  · exact (hrest main_v8 (Pipeline.mem_restRefs_of main_v8 (by decide) (by decide))).trans
      (Cert.TailEnt.tail_v8 _ _ (hz c) (hc c) (Wexit m c) _ hE hSE)
  · exact (hrest main_v17 (Pipeline.mem_restRefs_of main_v17 (by decide) (by decide))).trans
      (Cert.TailEnt.tail_v17 _ (m ((c : Thread nD τ).loc main_arg1)) (Wexit m c) _ hP hSP)
  · exact (hrest main_v91 (Pipeline.mem_restRefs_of main_v91 (by decide) (by decide))).trans
      (Cert.HostA.idx_out (Wexit m c) _ hW)
  · exact (hrest main_arg0 (Pipeline.mem_restRefs_of main_arg0 (by decide) (by decide))).trans (W_main_arg0 m (dats m) c)
  · exact (hrest main_arg1 (Pipeline.mem_restRefs_of main_arg1 (by decide) (by decide))).trans (W_main_arg1 m (dats m) c)

end Cert.KernelIdeal.Hand

end
-- ==== Proof.LibTypedRefs.lean ====
/-
  GENERAL lemma on typed buffer references (the references a module-local function's operations are stated over): contents
  stored through a typed reference and read back through the same reference are the contents. Storing transports the
  contents along the reference's type equation and reading transports them back.
-/
import Idealize.ShloMosaic.Lib.StableHlo

namespace Cert.LibTypedRefs

open Idealize.ShloMosaic Idealize.ShloMosaic.StableHlo

/-- Contents stored through a typed reference and read back through it are the contents. -/
theorem ofBuf_toBuf {sg : RefSig} {Val : EltTy → Type} {T : BufTy} (x : TRef sg T) (v : T.Contents Val) :
    x.ofBuf (x.toBuf v) = v := by
  obtain ⟨r, rfl, _, _⟩ := x
  rfl

end Cert.LibTypedRefs
-- ==== Proof.RefRunArgs.lean ====
/-
  No host line of the reference writes an argument array: after all the lines, run from arbitrary contents V of the
  buffers, the two argument buffers hold what V held.
-/
import proofs.«149547_j42202348650760_2_alg».proof.Proof.RefRunP
import proofs.«149547_j42202348650760_2_alg».proof.Proof.RefReadP
import proofs.«149547_j42202348650760_2_alg».proof.Proof.LibTypedRefs

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 131072 in
set_option maxHeartbeats 40000000 in
/-- The first argument array is left as it was. -/
theorem after_arg0 (V : Valuation τ sig (Elt Ideal)) :
    StableHlo.after (Cert.ReferenceIdeal.ValueP.ops (F := Ideal)) V (Proc.devRef .tc main_arg0) = V (Proc.devRef .tc main_arg0) := by
  after_results_simp <;> rfl

set_option maxRecDepth 131072 in
set_option maxHeartbeats 40000000 in
/-- The second argument array is left as it was. -/
theorem after_arg1 (V : Valuation τ sig (Elt Ideal)) :
    StableHlo.after (Cert.ReferenceIdeal.ValueP.ops (F := Ideal)) V (Proc.devRef .tc main_arg1) = V (Proc.devRef .tc main_arg1) := by
  after_results_simp <;> rfl

end Cert.ReferenceIdeal.RefRun

end
-- ==== Proof.RefRunV113.lean ====
/-
  The reference's host lines are in single-assignment form: every buffer is written by exactly one line, after the
  lines that write its operands. So after all the lines, run from arbitrary contents V of the buffers, a buffer holds
  its line's operation applied to what its operands hold, and so on down to the two argument arrays, which no line
  writes. For the buffer of %113 (the straight-through quantised array, moved back to channel-second layout) that composite is the stage function of V's argument.
-/
import proofs.«149547_j42202348650760_2_alg».proof.Proof.RefRunP
import proofs.«149547_j42202348650760_2_alg».proof.Proof.RefReadP
import proofs.«149547_j42202348650760_2_alg».proof.Proof.LibTypedRefs

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 131072 in
set_option maxHeartbeats 40000000 in
/-- After the reference's lines, from any contents V, the buffer of %113 holds its stage function of V's argument. -/
theorem after_v113 (V : Valuation τ sig (Elt Ideal)) :
    StableHlo.after (Cert.ReferenceIdeal.ValueP.ops (F := Ideal)) V (Proc.devRef .tc main_v113)
      = Cert.ReferenceIdeal.ReadP.val_main_v113 (F := Ideal) (V (Proc.devRef .tc main_arg0)) := by
  after_results_simp <;> (try simp only [Cert.LibTypedRefs.ofBuf_toBuf]) <;> rfl

end Cert.ReferenceIdeal.RefRun

end
-- ==== Proof.RefRunV112.lean ====
/-
  The reference's host lines are in single-assignment form: every buffer is written by exactly one line, after the
  lines that write its operands. So after all the lines, run from arbitrary contents V of the buffers, a buffer holds
  its line's operation applied to what its operands hold, and so on down to the two argument arrays, which no line
  writes. For the buffer of %112 (the loss) that composite is the stage function of V's arguments.
-/
import proofs.«149547_j42202348650760_2_alg».proof.Proof.RefRunP
import proofs.«149547_j42202348650760_2_alg».proof.Proof.RefReadP
import proofs.«149547_j42202348650760_2_alg».proof.Proof.LibTypedRefs

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 131072 in
set_option maxHeartbeats 40000000 in
/-- After the reference's lines, from any contents V, the buffer of %112 holds its stage function of V's arguments. -/
theorem after_v112 (V : Valuation τ sig (Elt Ideal)) :
    StableHlo.after (Cert.ReferenceIdeal.ValueP.ops (F := Ideal)) V (Proc.devRef .tc main_v112)
      = Cert.ReferenceIdeal.ReadP.val_main_v112 (F := Ideal) (V (Proc.devRef .tc main_arg0)) (V (Proc.devRef .tc main_arg1)) := by
  after_results_simp <;> (try simp only [Cert.LibTypedRefs.ofBuf_toBuf]) <;> rfl

end Cert.ReferenceIdeal.RefRun

end
-- ==== Proof.RefRunV111.lean ====
/-
  The reference's host lines are in single-assignment form: every buffer is written by exactly one line, after the
  lines that write its operands. So after all the lines, run from arbitrary contents V of the buffers, a buffer holds
  its line's operation applied to what its operands hold, and so on down to the two argument arrays, which no line
  writes. For the buffer of %111 (the commitment term) that composite is the stage function of V's argument.
-/
import proofs.«149547_j42202348650760_2_alg».proof.Proof.RefRunP
import proofs.«149547_j42202348650760_2_alg».proof.Proof.RefReadP
import proofs.«149547_j42202348650760_2_alg».proof.Proof.LibTypedRefs

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 131072 in
set_option maxHeartbeats 40000000 in
/-- After the reference's lines, from any contents V, the buffer of %111 holds its stage function of V's argument. -/
theorem after_v111 (V : Valuation τ sig (Elt Ideal)) :
    StableHlo.after (Cert.ReferenceIdeal.ValueP.ops (F := Ideal)) V (Proc.devRef .tc main_v111)
      = Cert.ReferenceIdeal.ReadP.val_main_v111 (F := Ideal) (V (Proc.devRef .tc main_arg0)) := by
  after_results_simp <;> (try simp only [Cert.LibTypedRefs.ofBuf_toBuf]) <;> rfl

end Cert.ReferenceIdeal.RefRun

end
-- ==== Proof.RefRunV104.lean ====
/-
  The reference's host lines are in single-assignment form: every buffer is written by exactly one line, after the
  lines that write its operands. So after all the lines, run from arbitrary contents V of the buffers, a buffer holds
  its line's operation applied to what its operands hold, and so on down to the two argument arrays, which no line
  writes. For the buffer of %104 (the entropy loss) that composite is the stage function of V's arguments.
-/
import proofs.«149547_j42202348650760_2_alg».proof.Proof.RefRunP
import proofs.«149547_j42202348650760_2_alg».proof.Proof.RefReadP
import proofs.«149547_j42202348650760_2_alg».proof.Proof.LibTypedRefs

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 131072 in
set_option maxHeartbeats 40000000 in
/-- After the reference's lines, from any contents V, the buffer of %104 holds its stage function of V's arguments. -/
theorem after_v104 (V : Valuation τ sig (Elt Ideal)) :
    StableHlo.after (Cert.ReferenceIdeal.ValueP.ops (F := Ideal)) V (Proc.devRef .tc main_v104)
      = Cert.ReferenceIdeal.ReadP.val_main_v104 (F := Ideal) (V (Proc.devRef .tc main_arg0)) (V (Proc.devRef .tc main_arg1)) := by
  after_results_simp <;> (try simp only [Cert.LibTypedRefs.ofBuf_toBuf]) <;> rfl

end Cert.ReferenceIdeal.RefRun

end
-- ==== Proof.RefRunV92.lean ====
/-
  The reference's host lines are in single-assignment form: every buffer is written by exactly one line, after the
  lines that write its operands. So after all the lines, run from arbitrary contents V of the buffers, a buffer holds
  its line's operation applied to what its operands hold, and so on down to the two argument arrays, which no line
  writes. For the buffer of %92 (the per-sample entropy) that composite is the stage function of V's arguments.
-/
import proofs.«149547_j42202348650760_2_alg».proof.Proof.RefRunP
import proofs.«149547_j42202348650760_2_alg».proof.Proof.RefReadP
import proofs.«149547_j42202348650760_2_alg».proof.Proof.LibTypedRefs

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 131072 in
set_option maxHeartbeats 40000000 in
/-- After the reference's lines, from any contents V, the buffer of %92 holds its stage function of V's arguments. -/
theorem after_v92 (V : Valuation τ sig (Elt Ideal)) :
    StableHlo.after (Cert.ReferenceIdeal.ValueP.ops (F := Ideal)) V (Proc.devRef .tc main_v92)
      = Cert.ReferenceIdeal.ReadP.val_main_v92 (F := Ideal) (V (Proc.devRef .tc main_arg0)) (V (Proc.devRef .tc main_arg1)) := by
  after_results_simp <;> (try simp only [Cert.LibTypedRefs.ofBuf_toBuf]) <;> rfl

end Cert.ReferenceIdeal.RefRun

end
-- ==== Proof.RefRunV102.lean ====
/-
  The reference's host lines are in single-assignment form: every buffer is written by exactly one line, after the
  lines that write its operands. So after all the lines, run from arbitrary contents V of the buffers, a buffer holds
  its line's operation applied to what its operands hold, and so on down to the two argument arrays, which no line
  writes. For the buffer of %102 (the entropy of the average code distribution) that composite is the stage function of V's arguments.
-/
import proofs.«149547_j42202348650760_2_alg».proof.Proof.RefRunP
import proofs.«149547_j42202348650760_2_alg».proof.Proof.RefReadP
import proofs.«149547_j42202348650760_2_alg».proof.Proof.LibTypedRefs

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 131072 in
set_option maxHeartbeats 40000000 in
/-- After the reference's lines, from any contents V, the buffer of %102 holds its stage function of V's arguments. -/
theorem after_v102 (V : Valuation τ sig (Elt Ideal)) :
    StableHlo.after (Cert.ReferenceIdeal.ValueP.ops (F := Ideal)) V (Proc.devRef .tc main_v102)
      = Cert.ReferenceIdeal.ReadP.val_main_v102 (F := Ideal) (V (Proc.devRef .tc main_arg0)) (V (Proc.devRef .tc main_arg1)) := by
  after_results_simp <;> (try simp only [Cert.LibTypedRefs.ofBuf_toBuf]) <;> rfl

end Cert.ReferenceIdeal.RefRun

end
-- ==== Proof.RefRunV66.lean ====
/-
  The reference's host lines are in single-assignment form: every buffer is written by exactly one line, after the
  lines that write its operands. So after all the lines, run from arbitrary contents V of the buffers, a buffer holds
  its line's operation applied to what its operands hold, and so on down to the two argument arrays, which no line
  writes. For the buffer of %66 (the code indices) that composite is the stage function of V's argument.
-/
import proofs.«149547_j42202348650760_2_alg».proof.Proof.RefRunP
import proofs.«149547_j42202348650760_2_alg».proof.Proof.RefReadP
import proofs.«149547_j42202348650760_2_alg».proof.Proof.LibTypedRefs

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 131072 in
set_option maxHeartbeats 40000000 in
/-- After the reference's lines, from any contents V, the buffer of %66 holds its stage function of V's argument. -/
theorem after_v66 (V : Valuation τ sig (Elt Ideal)) :
    StableHlo.after (Cert.ReferenceIdeal.ValueP.ops (F := Ideal)) V (Proc.devRef .tc main_v66)
      = Cert.ReferenceIdeal.ReadP.val_main_v66 (F := Ideal) (V (Proc.devRef .tc main_arg0)) := by
  after_results_simp <;> (try simp only [Cert.LibTypedRefs.ofBuf_toBuf]) <;> rfl

end Cert.ReferenceIdeal.RefRun

end
-- ==== Proof.RefRun.lean ====
/-
  The reference's run, stated against its stage functions.

  Every weakly fair execution of the reference terminates, and each of its seven result buffers then holds the stage
  function of the two argument arrays as they were at launch, while the argument arrays are unchanged: a straight-line
  program's final buffers are the fold of its lines' results over the launch contents, and that fold at a result buffer
  is the stage function (one module per result), at an argument buffer the launch contents.
-/
import proofs.«149547_j42202348650760_2_alg».proof.Proof.RefRunArgs
import proofs.«149547_j42202348650760_2_alg».proof.Proof.RefRunV113
import proofs.«149547_j42202348650760_2_alg».proof.Proof.RefRunV112
import proofs.«149547_j42202348650760_2_alg».proof.Proof.RefRunV111
import proofs.«149547_j42202348650760_2_alg».proof.Proof.RefRunV104
import proofs.«149547_j42202348650760_2_alg».proof.Proof.RefRunV92
import proofs.«149547_j42202348650760_2_alg».proof.Proof.RefRunV102
import proofs.«149547_j42202348650760_2_alg».proof.Proof.RefRunV66

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The reference's run: its results at the stage functions of the launch arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v113) = Cert.ReferenceIdeal.ReadP.val_main_v113 (F := Ideal) (m ((c.tc : Thread nD τ).loc main_arg0))
      ∧ r.2.mem ((c.tc : Thread nD τ).loc main_v112) = Cert.ReferenceIdeal.ReadP.val_main_v112 (F := Ideal) (m ((c.tc : Thread nD τ).loc main_arg0)) (m ((c.tc : Thread nD τ).loc main_arg1))
      ∧ r.2.mem ((c.tc : Thread nD τ).loc main_v111) = Cert.ReferenceIdeal.ReadP.val_main_v111 (F := Ideal) (m ((c.tc : Thread nD τ).loc main_arg0))
      ∧ r.2.mem ((c.tc : Thread nD τ).loc main_v104) = Cert.ReferenceIdeal.ReadP.val_main_v104 (F := Ideal) (m ((c.tc : Thread nD τ).loc main_arg0)) (m ((c.tc : Thread nD τ).loc main_arg1))
      ∧ r.2.mem ((c.tc : Thread nD τ).loc main_v92) = Cert.ReferenceIdeal.ReadP.val_main_v92 (F := Ideal) (m ((c.tc : Thread nD τ).loc main_arg0)) (m ((c.tc : Thread nD τ).loc main_arg1))
      ∧ r.2.mem ((c.tc : Thread nD τ).loc main_v102) = Cert.ReferenceIdeal.ReadP.val_main_v102 (F := Ideal) (m ((c.tc : Thread nD τ).loc main_arg0)) (m ((c.tc : Thread nD τ).loc main_arg1))
      ∧ r.2.mem ((c.tc : Thread nD τ).loc main_v66) = Cert.ReferenceIdeal.ReadP.val_main_v66 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v113).trans (after_v113 _),
      (h c main_v112).trans (after_v112 _),
      (h c main_v111).trans (after_v111 _),
      (h c main_v104).trans (after_v104 _),
      (h c main_v92).trans (after_v92 _),
      (h c main_v102).trans (after_v102 _),
      (h c main_v66).trans (after_v66 _),
      (h c main_arg0).trans (after_arg0 _), (h c main_arg1).trans (after_arg1 _)⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.RefRun

end
-- ==== Proof.PreFinite.lean ====
/-
  The precondition read back: if "every entry of both inputs has absolute value below +∞" evaluates to true, then
  every entry of both inputs is a real number. The printed predicate compares |x| with the f32 word of +∞ entry by
  entry, takes the conjunction over all entries of each array, and the conjunction of the two; a conjunction that is 1
  has every conjunct 1, and an extended real with |x| < ⊤ is neither ⊤ nor ⊥.
-/
import proofs.«149547_j42202348650760_2_alg».proof.Pre_finite_inputs
import Idealize.ShloMosaic.Lib.ReduceAll
import Idealize.ShloMosaic.Lib.ValueIdx
import Idealize.ShloMosaic.PureOps.Ideal

noncomputable section

namespace Cert.PreFinite

open Idealize.ShloMosaic Cert.Pre_finite_inputs

/-- A rank-0 array has one index. -/
instance : Subsingleton S_.Idx := ⟨fun a b => funext fun d => d.elim0⟩

/-- The f32 word 0x7F800000 is +∞. -/
theorem inf_word : Ideal.ofBits .f32 0x7F800000#32 = (⊤ : EReal) := by simp [Ideal.ofBits, Ideal.ieee]

/-- An extended real whose absolute value is below +∞ is a real. -/
theorem real_of_abs_lt_top (x : EReal)
    (h : Ideal.cmp .olt (max x (-x)) (Ideal.ofBits .f32 0x7F800000#32) = 1#1) : ∃ r : ℝ, x = (r : EReal) := by
  rw [inf_word] at h
  induction x using EReal.rec with
  | bot =>
    exfalso
    have e : Ideal.cmp .olt (max (⊥ : EReal) (-⊥)) ⊤ = 0#1 := by simp [Ideal.cmp]
    rw [e] at h
    exact absurd h (by decide)
  | coe r => exact ⟨r, rfl⟩
  | top =>
    exfalso
    have e : Ideal.cmp .olt (max (⊤ : EReal) (-⊤)) ⊤ = 0#1 := by simp [Ideal.cmp]
    rw [e] at h
    exact absurd h (by decide)

/-- Under the precondition every entry of both inputs is a real. -/
theorem finite_of_pre [Facts] (x0 : (⟨S64x10x32x32, .f32⟩ : BufTy).Contents (Elt Ideal))
    (x1 : (⟨S1024x10, .f32⟩ : BufTy).Contents (Elt Ideal))
    (h : Cert.Pre_finite_inputs.fn (F := Ideal) x0 x1 = fun _ => 1#1) :
    (∀ i, ∃ x : ℝ, x0 i = (x : EReal)) ∧ (∀ i, ∃ x : ℝ, x1 i = (x : EReal)) := by
  have h0 := congrFun h ValueIdx.ix0
  dsimp only [fn] at h0
  obtain ⟨ha, hb⟩ := IntOp.andi_eq_one.1 h0
  exact ⟨fun i => real_of_abs_lt_top (x0 i) (Host.reduce_andi_all _ _ _ _ _ ha i),
    fun i => real_of_abs_lt_top (x1 i) (Host.reduce_andi_all _ _ _ _ _ hb i)⟩

end Cert.PreFinite

end
-- ==== Proof.lean ====
/-
  The entropy term of a lookup-free quantizer: a kernel that accumulates, per core and block of 1024 rows, the
  total of p · log p and the column sums of p of the row softmax of the scaled affinities z · codebookᵀ, against
  the jnp reference that forms the whole 65536 × 1024 softmax and log-softmax.

  The kernel multiplies the inner products by the temperature factor folded to one constant, 2 / T; the reference
  multiplies by −2, negates and divides by T, the f32 word of 0.01. The certificate names the kernel's constant the
  exact quotient 2 / T (1073741824 / 5368709), so that on the extended reals both programs scale by the same number:
  that is the one entry of the idealization's ledger. The reference shifts the scores by a constant ε before its
  log-softmax; on real scores the shift cancels (the maximum and every score move together), which is where the
  finiteness of the inputs is used. Sums over blocks, cores and rows are regroupings of one finite sum. The
  remaining results — the sign quantization, the commitment loss, the packed indices — are host lines of z alone
  in both programs, equal entry by entry (the straight-through z + (sign − z) is sign on reals).

  Both kernel programs run to the end without a fault and leave their arguments unchanged: the region's body is
  run symbolically in its two cases (a core's first point zeroes the accumulators), the launch theorem for a region
  followed by host lines gives the run, and no line writes an argument. The reference's run is read off its list of
  host operations.
-/
import proofs.«149547_j42202348650760_2_alg».proof.Defs
import proofs.«149547_j42202348650760_2_alg».proof.Proof.Gen.Kernel
import proofs.«149547_j42202348650760_2_alg».proof.Proof.Gen.KernelIdeal
import proofs.«149547_j42202348650760_2_alg».proof.Proof.Gen.ReferenceIdeal
import proofs.«149547_j42202348650760_2_alg».proof.Proof.Gen.Pre_finite_inputs
import proofs.«149547_j42202348650760_2_alg».proof.Proof.KFrame
import proofs.«149547_j42202348650760_2_alg».proof.Proof.KIValue
import proofs.«149547_j42202348650760_2_alg».proof.Proof.RefRun
import proofs.«149547_j42202348650760_2_alg».proof.Proof.PreFinite
import Idealize.ShloMosaic.Adequacy
import Idealize.ShloMosaic.Init

noncomputable section

namespace Cert.Proof

open Idealize.ShloMosaic Idealize.SL.Sem

/-- The word-level kernel terminates without a fault and leaves its arguments unchanged. -/
theorem frame_k : Cert.frame_Kernel := fun m ρ _ => Cert.Kernel.Hand.frame m ρ
/-- So does the idealized kernel. -/
theorem frame_ki : Cert.frame_KernelIdeal := fun m ρ _ => Cert.KernelIdeal.Hand.frame m ρ
/-- The reference's frame is its run with the results dropped. -/
theorem frame_ri : Cert.frame_ReferenceIdeal := fun m ρ _ =>
  (θ_run Cert.ReferenceIdeal.defs _ _).mono (fun _ h c => ⟨(h c).2.2.2.2.2.2.2.1, (h c).2.2.2.2.2.2.2.2⟩)
    (Cert.ReferenceIdeal.RefRun.run m ρ)

/-- The ledger's one entry: the certificate's table gives the kernel's temperature factor the value 2 / T. -/
theorem preserves : Cert.preserves_Kernel_KernelIdeal :=
  IdealRules.named_const.statement Cert.KernelIdeal.κ "two_over_temp" .f32 0x43480000#32 ((1073741824 / 5368709 : ℝ) : EReal) rfl

/-- From memories that agree on the arguments, both idealized programs end with each result at the same function
    of the arguments: the kernel's by its run read through the accumulator arrays and the host lines after the
    region, the reference's by its run; the inputs are entrywise real by the precondition. -/
theorem algebraic : Cert.algebraic_KernelIdeal_ReferenceIdeal := by
  intro m ρ m' ρ' hpre hagree
  have hfin := fun c => Cert.PreFinite.finite_of_pre _ _ (hpre c)
  refine ⟨_, _, _, _, _, _, _, Cert.KernelIdeal.Hand.run_value m ρ (fun c => (hfin c).1) (fun c => (hfin c).2), ?_⟩
  refine (θ_run Cert.ReferenceIdeal.defs _ _).mono (fun r h c => ?_) (Cert.ReferenceIdeal.RefRun.run m' ρ')
  obtain ⟨h0, h1, h2, h3, h4, h5, h6, ha0, ha1⟩ := h c
  rw [(hagree c).1, (hagree c).2] at h1 h3 h4 h5
  rw [(hagree c).1] at h0 h2 h6
  exact ⟨h0, h1, h2, h3, h4, h5, h6, ha0, ha1⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
